-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel

variable [Facts]

def fn_part1 {F : FTy → Type} [FloatOps F] (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  main_v18

def fn {F : FTy → Type} [FloatOps F] (main_arg0 : FVec F S2048x2048 .f32) (main_arg1 : FVec F S2048x2048 .f32) (main_arg2 : FVec F S2048x2048 .f32) (main_arg3 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_v13 main_v16
-- ==== Kernel.lean ====
abbrev S2048x2048 : Shape := ⟨2, ![2048, 2048]⟩
abbrev S2x2048x2048 : Shape := ⟨3, ![2, 2048, 2048]⟩
abbrev S2048x256 : Shape := ⟨2, ![2048, 256]⟩
abbrev S256x2048 : Shape := ⟨2, ![256, 2048]⟩
abbrev S1x2048x2048 : Shape := ⟨3, ![1, 2048, 2048]⟩
abbrev S1x1024x2048 : Shape := ⟨3, ![1, 1024, 2048]⟩
abbrev S1x2048x1024 : Shape := ⟨3, ![1, 2048, 1024]⟩
abbrev S1024x1024 : Shape := ⟨2, ![1024, 1024]⟩
abbrev S1024x2048 : Shape := ⟨2, ![1024, 2048]⟩
abbrev S2048x1024 : Shape := ⟨2, ![2048, 1024]⟩

abbrev nBuf : Space → Nat
  | .hbm => 7
  | .vmem => 17
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2x2048x2048, .bf16⟩
  | .hbm, ⟨5, _⟩ => ⟨S2048x2048, .f32⟩
  | .hbm, ⟨6, _⟩ => ⟨S1x2048x2048, .f32⟩
  | .local _ .vmem, ⟨0, _⟩ => ⟨S2048x256, .f32⟩
  | .local _ .vmem, ⟨1, _⟩ => ⟨S2048x256, .f32⟩
  | .local _ .vmem, ⟨2, _⟩ => ⟨S256x2048, .f32⟩
  | .local _ .vmem, ⟨3, _⟩ => ⟨S256x2048, .f32⟩
  | .local _ .vmem, ⟨4, _⟩ => ⟨S2048x256, .f32⟩
  | .local _ .vmem, ⟨5, _⟩ => ⟨S2048x256, .f32⟩
  | .local _ .vmem, ⟨6, _⟩ => ⟨S256x2048, .f32⟩
  | .local _ .vmem, ⟨7, _⟩ => ⟨S256x2048, .f32⟩
  | .local _ .vmem, ⟨8, _⟩ => ⟨S1x2048x2048, .bf16⟩
  | .local _ .vmem, ⟨9, _⟩ => ⟨S1x2048x2048, .bf16⟩
  | .local _ .vmem, ⟨10, _⟩ => ⟨S2048x2048, .f32⟩
  | .local _ .vmem, ⟨11, _⟩ => ⟨S1x1024x2048, .bf16⟩
  | .local _ .vmem, ⟨12, _⟩ => ⟨S1x1024x2048, .bf16⟩
  | .local _ .vmem, ⟨13, _⟩ => ⟨S1x2048x1024, .bf16⟩
  | .local _ .vmem, ⟨14, _⟩ => ⟨S1x2048x1024, .bf16⟩
  | .local _ .vmem, ⟨15, _⟩ => ⟨S1024x1024, .f32⟩
  | .local _ .vmem, ⟨16, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![c0_i32_1.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![c0_i32_0.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![2, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1x1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  shapeCasts_S2048x2048_S1x2048x2048 : S2048x2048.ShapeCasts S1x2048x2048
  inb_S1x2048x2048_S1x2048x2048_0_0_0 : ∀ a, (![0, 0, 0] : Fin 3 → Nat) a + S1x2048x2048.size a ≤ S1x2048x2048.size a
  h_S1x2048x2048 : 0 < S1x2048x2048.numel
  packedbf16_S1x2048x2048_S1x2048x2048_0_0_0 : (Rect.unit (s := S1x2048x2048) ![0, 0, 0] S1x2048x2048.size inb_S1x2048x2048_S1x2048x2048_0_0_0).PackedRows (EltTy.packing .bf16)
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1024x1024_S1024x1024_0_0 : ∀ a, (![0, 0] : Fin 2 → Nat) a + S1024x1024.size a ≤ S1024x1024.size a
  h_S1024x1024 : 0 < S1024x1024.numel
  bcast_S2048x2048_S1x2048x2048_1_2 : S2048x2048.BroadcastsInDim S1x2048x2048 (![1, 2] : Fin 2 → Fin S1x2048x2048.rank)
  dot_S2048x256_S256x2048_S2048x2048_1_0_0_1_n_n_wf : DotDims.WF S2048x256 S256x2048 S2048x2048 [1] [0] [0] [1] [] []
  dot_S1024x2048_S2048x1024_S1024x1024_1_0_0_1_n_n_wf : DotDims.WF S1024x2048 S2048x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S2048x2048.size a
  hwx0_0 : ∀ i : grid0.Coords, EltTy.bits .f32 = 32 ∨ (Rect.block (s := S2048x2048) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .f32 = 32 ∨ (Rect.block (s := S2048x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S2048x2048.size a
  hwx0_2 : ∀ i : grid0.Coords, EltTy.bits .f32 = 32 ∨ (Rect.block (s := S2048x2048) S2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S2048x2048.size a
  hwx0_3 : ∀ i : grid0.Coords, EltTy.bits .f32 = 32 ∨ (Rect.block (s := S2048x2048) S256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x2048.size a ≤ S2x2048x2048.size a
  hwx0_4 : ∀ i : grid0.Coords, EltTy.bits .bf16 = 32 ∨ (Rect.block (s := S2x2048x2048) S1x2048x2048.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x2048.size a ≤ S2x2048x2048.size a
  hwx1_0 : ∀ i : grid1.Coords, EltTy.bits .bf16 = 32 ∨ (Rect.block (s := S2x2048x2048) S1x1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S2x2048x2048.size a
  hwx1_1 : ∀ i : grid1.Coords, EltTy.bits .bf16 = 32 ∨ (Rect.block (s := S2x2048x2048) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S2048x2048.size a
  hwx1_2 : ∀ i : grid1.Coords, EltTy.bits .f32 = 32 ∨ (Rect.block (s := S2048x2048) S1024x1024.size (cc1_transform_2 i) (hinb1_2 i)).WholeWords (EltTy.packing .f32)

variable [Facts₀]

def dot_S2048x256_S256x2048_S2048x2048_1_0_0_1_n_n : DotDims S2048x256 S256x2048 S2048x2048 where
  lhsContracting := [1]
  rhsContracting := [0]
  lhsNonContracting := [0]
  rhsNonContracting := [1]
  lhsBatch := []
  rhsBatch := []
  wf := dot_S2048x256_S256x2048_S2048x2048_1_0_0_1_n_n_wf
def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf

abbrev win0_0 : Pipeline.Window sig grid0 :=
  Pipeline.Window.ofSpec (Memref.whole main_arg3) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x2048x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v0) S1x1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2048x2048 : Shape := ⟨2, ![2048, 2048]⟩
abbrev S_ : Shape := ⟨0, ![]⟩
abbrev S1x2048x2048 : Shape := ⟨3, ![1, 2048, 2048]⟩
abbrev S256x512 : Shape := ⟨2, ![256, 512]⟩
abbrev S512x512 : Shape := ⟨2, ![512, 512]⟩

abbrev nBuf : Space → Nat
  | .hbm => 20
  | .vmem => 21
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .i32⟩
  | .hbm, ⟨5, _⟩ => ⟨S_, .f32⟩
  | .hbm, ⟨6, _⟩ => ⟨S2048x2048, .f32⟩
  | .hbm, ⟨7, _⟩ => ⟨S_, .i32⟩
  | .hbm, ⟨8, _⟩ => ⟨S_, .f32⟩
  | .hbm, ⟨9, _⟩ => ⟨S2048x2048, .f32⟩
  | .hbm, ⟨10, _⟩ => ⟨S_, .i32⟩
  | .hbm, ⟨11, _⟩ => ⟨S_, .f32⟩
  | .hbm, ⟨12, _⟩ => ⟨S2048x2048, .f32⟩
  | .hbm, ⟨13, _⟩ => ⟨S_, .i32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S1x2048x2048, .f32⟩
  | .local _ .vmem, ⟨0, _⟩ => ⟨S256x512, .f32⟩
  | .local _ .vmem, ⟨1, _⟩ => ⟨S256x512, .f32⟩
  | .local _ .vmem, ⟨2, _⟩ => ⟨S512x512, .f32⟩
  | .local _ .vmem, ⟨3, _⟩ => ⟨S512x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S512x512, .f32⟩
  | .local _ .vmem, ⟨10, _⟩ => ⟨S512x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S512x512, .f32⟩
  | .local _ .vmem, ⟨17, _⟩ => ⟨S512x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_call0_v0 : Ref sig .tc := ⟨.hbm, 5, rfl⟩
abbrev main_call0_v0 : Ref sig .tc := ⟨.hbm, 6, rfl⟩
abbrev main_call0_c_0 : Ref sig .tc := ⟨.hbm, 7, rfl⟩
abbrev main_call0_call1_v0 : Ref sig .tc := ⟨.hbm, 8, rfl⟩
abbrev main_call0_v1 : Ref sig .tc := ⟨.hbm, 9, rfl⟩
abbrev main_call0_c_1 : Ref sig .tc := ⟨.hbm, 10, rfl⟩
abbrev main_call0_call2_v0 : Ref sig .tc := ⟨.hbm, 11, rfl⟩
abbrev main_call0_v2 : Ref sig .tc := ⟨.hbm, 12, rfl⟩
abbrev main_call0_c_2 : Ref sig .tc := ⟨.hbm, 13, rfl⟩
abbrev main_call0_call3_v0 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_v0 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 4, 4], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S256x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![8, 4, 4], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S256x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S256x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

class Facts₀ : Prop where
  pads_S2048x2048_S2048x2048_000_000 : S2048x2048.Pads (![0, 0] : Fin 2 → Nat) ![0, 0] ![0, 0] S2048x2048
  h_S_ : 0 < S_.numel
  bcast_S2048x2048_S1x2048x2048_1_2 : S2048x2048.BroadcastsInDim S1x2048x2048 (![1, 2] : Fin 2 → Fin S1x2048x2048.rank)
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  dot_S256x512_S512x512_S256x512_1_0_0_1_n_n_wf : DotDims.WF S256x512 S512x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S2048x2048.size a
  hwx0_0 : ∀ i : grid0.Coords, EltTy.bits .f32 = 32 ∨ (Rect.block (s := S2048x2048) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S2048x2048.size a
  hwx0_1 : ∀ i : grid0.Coords, EltTy.bits .f32 = 32 ∨ (Rect.block (s := S2048x2048) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S2048x2048.size a
  hwx0_2 : ∀ i : grid0.Coords, EltTy.bits .f32 = 32 ∨ (Rect.block (s := S2048x2048) S256x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S2048x2048.size a
  hwx1_0 : ∀ i : grid1.Coords, EltTy.bits .f32 = 32 ∨ (Rect.block (s := S2048x2048) S256x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S2048x2048.size a
  hwx1_1 : ∀ i : grid1.Coords, EltTy.bits .f32 = 32 ∨ (Rect.block (s := S2048x2048) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x512.size a ≤ S2048x2048.size a
  hwx1_2 : ∀ i : grid1.Coords, EltTy.bits .f32 = 32 ∨ (Rect.block (s := S2048x2048) S256x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x512.size a ≤ S2048x2048.size a
  hwx2_0 : ∀ i : grid2.Coords, EltTy.bits .f32 = 32 ∨ (Rect.block (s := S2048x2048) S256x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S2048x2048.size a
  hwx2_1 : ∀ i : grid2.Coords, EltTy.bits .f32 = 32 ∨ (Rect.block (s := S2048x2048) S512x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x512.size a ≤ S2048x2048.size a
  hwx2_2 : ∀ i : grid2.Coords, EltTy.bits .f32 = 32 ∨ (Rect.block (s := S2048x2048) S256x512.size (cc2_transform_2 i) (hinb2_2 i)).WholeWords (EltTy.packing .f32)

variable [Facts₀]

def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf

abbrev win0_0 : Pipeline.Window sig grid0 :=
  Pipeline.Window.ofSpec (Memref.whole main_call0_v1) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v4) S256x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v2) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v4) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v5) S256x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_call0_v3) S256x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v5) S512x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v6) S256x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== Proof.BitsPairRegion.lean ====
import proofs.«126094_g2000509712423811_pallasbulk_371_15_alg».proof.Proof.Gen.Kernel.Launch
import proofs.«126094_g2000509712423811_pallasbulk_371_15_alg».proof.Proof.Gen.Kernel.Skeleton
import proofs.«126094_g2000509712423811_pallasbulk_371_15_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Pair

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the pair of tiled products, accumulated over the contraction tiles, at entry contents `V` -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: an
    unfetched point's index has not moved, the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: an
    unfetched point's index has not moved, the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: an
    unfetched point's index has not moved, the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: an
    unfetched point's index has not moved, the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions of the body, in closed form over the grid -/

/-- The first conditional: the contraction tile is the first one. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The second conditional: the contraction tile is the last one. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-- The inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- The output is idle and not written back away from the last contraction tile, live at it. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The body on any whole memrefs, case by case -/

/-- The zero offsets of the whole-buffer rectangles, however spelt. -/
theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 2000000 in
/-- A first contraction tile: the accumulator, at anything, is cleared and the selected blocks' product added to it. -/
theorem kernelRun0_A (c : Dev nD) (i : grid0.Coords) (arg2 : Memref sig .tc .vmem S2048x256 .f32) (harg2 : arg2.IsWhole) (arg3 : Memref sig .tc .vmem S256x2048 .f32) (harg3 : arg3.IsWhole) (arg4 : Memref sig .tc .vmem S2048x256 .f32) (harg4 : arg4.IsWhole) (arg5 : Memref sig .tc .vmem S256x2048 .f32) (harg5 : arg5.IsWhole) (arg6 : Memref sig .tc .vmem S1x2048x2048 .bf16) (harg6 : arg6.IsWhole) (arg7 : Memref sig .tc .vmem S2048x2048 .f32) (harg7 : arg7.IsWhole) (hc0 : cond0_0 i) (hc1 : ¬cond0_1 i)
    (x0 : Vec F S2048x256 .f32) (x1 : Vec F S256x2048 .f32) (x2 : Vec F S2048x256 .f32) (x3 : Vec F S256x2048 .f32) (xi4 : Vec F S1x2048x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare (k0_pay2 i x0 x2 x1 x3 (k0_pay1 (F := F)))) -∗ K ⟨⟩))
      ⊢ wp frame (wpE (defs₀ (F := F)) Variants.none c none) E (cc0__pair_body i arg2 harg2 arg3 harg3 arg4 harg4 arg5 harg5 arg6 harg6 arg7 harg7) K := by
  simp only [cc0__pair_body_eq_skeleton]; unfold cc0__pair_body_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS
  ipureintro
  sl_unfold_words
  rw [View.read_writes_eq_canon _ _ _ (fun y => ⟨_, List.mem_cons.mpr (Or.inl rfl), View.mem_set_unit_zero hz2 Facts₀.inb_S2048x2048_S2048x2048_0_0 y⟩), View.canon_cons_unit_zero (S := S2048x2048) hz2, View.readCov_unit_zero (S := S2048x2048) _ hz2]
  simp only [View.readAt_eq_ld, harg2.read_unread, harg3.read_unread, harg4.read_unread, harg5.read_unread, View.ld_unit_zero (S := S2048x256) hz2, View.ld_unit_zero (S := S256x2048) hz2, View.ld_unit_zero (S := S2048x2048) hz2]

set_option maxHeartbeats 2000000 in
/-- A middle contraction tile: neither conditional taken. On whole memrefs, the inputs at `x·`, the idle output at
    `xi4` handed back untouched, the accumulator at `xs`, the body runs to the continuation holding the accumulator
    at the selected blocks' product added to `xs`. -/
theorem kernelRun0_B (c : Dev nD) (i : grid0.Coords) (arg2 : Memref sig .tc .vmem S2048x256 .f32) (harg2 : arg2.IsWhole) (arg3 : Memref sig .tc .vmem S256x2048 .f32) (harg3 : arg3.IsWhole) (arg4 : Memref sig .tc .vmem S2048x256 .f32) (harg4 : arg4.IsWhole) (arg5 : Memref sig .tc .vmem S256x2048 .f32) (harg5 : arg5.IsWhole) (arg6 : Memref sig .tc .vmem S1x2048x2048 .bf16) (harg6 : arg6.IsWhole) (arg7 : Memref sig .tc .vmem S2048x2048 .f32) (harg7 : arg7.IsWhole) (hc0 : ¬cond0_0 i) (hc1 : ¬cond0_1 i)
    (x0 : Vec F S2048x256 .f32) (x1 : Vec F S256x2048 .f32) (x2 : Vec F S2048x256 .f32) (x3 : Vec F S256x2048 .f32) (xs : Vec F S2048x2048 .f32) (xi4 : Vec F S1x2048x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare (k0_pay2 i x0 x2 x1 x3 xs)) -∗ K ⟨⟩))
      ⊢ wp frame (wpE (defs₀ (F := F)) Variants.none c none) E (cc0__pair_body i arg2 harg2 arg3 harg3 arg4 harg4 arg5 harg5 arg6 harg6 arg7 harg7) K := by
  simp only [cc0__pair_body_eq_skeleton]; unfold cc0__pair_body_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS
  ipureintro
  rw [View.read_writes_eq_canon _ _ _ (fun y => ⟨_, List.mem_singleton_self _, View.mem_set_unit_zero hz2 Facts₀.inb_S2048x2048_S2048x2048_0_0 y⟩), View.canon_unit_zero hz2]
  simp only [View.readAt_eq_ld, harg2.read_unread, harg3.read_unread, harg4.read_unread, harg5.read_unread, harg7.read_unread, View.ld_unit_zero (S := S2048x256) hz2, View.ld_unit_zero (S := S256x2048) hz2, View.ld_unit_zero (S := S2048x2048) hz2]

set_option maxHeartbeats 2000000 in
/-- A last contraction tile: the product is added to the accumulator at `xs`, and the output's buffer, at anything,
    is left at the accumulator narrowed and given its leading unit axis. -/
theorem kernelRun0_C (c : Dev nD) (i : grid0.Coords) (arg2 : Memref sig .tc .vmem S2048x256 .f32) (harg2 : arg2.IsWhole) (arg3 : Memref sig .tc .vmem S256x2048 .f32) (harg3 : arg3.IsWhole) (arg4 : Memref sig .tc .vmem S2048x256 .f32) (harg4 : arg4.IsWhole) (arg5 : Memref sig .tc .vmem S256x2048 .f32) (harg5 : arg5.IsWhole) (arg6 : Memref sig .tc .vmem S1x2048x2048 .bf16) (harg6 : arg6.IsWhole) (arg7 : Memref sig .tc .vmem S2048x2048 .f32) (harg7 : arg7.IsWhole) (hc0 : ¬cond0_0 i) (hc1 : cond0_1 i)
    (x0 : Vec F S2048x256 .f32) (x1 : Vec F S256x2048 .f32) (x2 : Vec F S2048x256 .f32) (x3 : Vec F S256x2048 .f32) (xs : Vec F S2048x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 (k0_pay2 i x0 x2 x1 x3 xs)) ∗ owns (c : Thread nD τ) arg7 fullShare (k0_pay2 i x0 x2 x1 x3 xs)) -∗ K ⟨⟩))
      ⊢ wp frame (wpE (defs₀ (F := F)) Variants.none c none) E (cc0__pair_body i arg2 harg2 arg3 harg3 arg4 harg4 arg5 harg5 arg6 harg6 arg7 harg7) K := by
  simp only [cc0__pair_body_eq_skeleton]; unfold cc0__pair_body_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1; obtain rfl := harg4.eq_unread hf2; obtain rfl := harg5.eq_unread hf3; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    rw [View.read_writes_eq_canon _ _ _ (fun y => ⟨_, List.mem_singleton_self _, View.mem_set_unit_zero hz3 Facts₀.inb_S1x2048x2048_S1x2048x2048_0_0_0 y⟩), View.canon_unit_zero hz3, View.readCov_unit_zero (S := S2048x2048) _ hz2]
    simp only [View.readAt_eq_ld, harg2.read_unread, harg3.read_unread, harg4.read_unread, harg5.read_unread, harg7.read_unread, View.ld_unit_zero (S := S2048x256) hz2, View.ld_unit_zero (S := S256x2048) hz2, View.ld_unit_zero (S := S2048x2048) hz2]
  iexists _; isplitr
  swap; · iexact HS
  ipureintro
  sl_unfold_words
  rw [View.read_writes_eq_canon _ _ _ (fun y => ⟨_, List.mem_singleton_self _, View.mem_set_unit_zero hz2 Facts₀.inb_S2048x2048_S2048x2048_0_0 y⟩), View.canon_unit_zero hz2]
  simp only [View.readAt_eq_ld, harg2.read_unread, harg3.read_unread, harg4.read_unread, harg5.read_unread, harg7.read_unread, View.ld_unit_zero (S := S2048x256) hz2, View.ld_unit_zero (S := S256x2048) hz2, View.ld_unit_zero (S := S2048x2048) hz2]

/-! ## The staging memrefs and the accumulator -/

abbrev ms0_0 (t : Fin cfg0.N) : Memref sig .tc .vmem S2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x2048 .bf16 := win0_4.stage (cfg0.slots t 4)
abbrev hs0_4 (t : Fin cfg0.N) : (ms0_4 t).IsWhole := hstage0_4 ((cfg0.slots t 4).cast nbuf0_4)
/-- The accumulator: a whole scoped buffer of the kernel's own, carried between points. -/
abbrev scM0 : Memref sig .tc .vmem S2048x2048 .f32 := Memref.whole cc0_scratch0

/-- The scoped buffers of the core that this region never touches: the other region's staging buffers. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class's invariant with the accumulator as a memref owned at some contents. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA rest0; rw [scopedRest0_eq]; simp only [scM0, owns_whole]; try rfl

/-- THE ACCUMULATION. The accumulator after the body at position `n`: the product of the point's two selected
    blocks added to zero at a first contraction tile, to what the point before left otherwise. -/
def acc0 (c : Dev nD) : (n : ℕ) → n < cfg0.N → Vec F S2048x2048 .f32
  | 0, hn => k0_pay2 (grid0.coords ⟨0, hn⟩) (iblk0 V c 0 ⟨0, hn⟩) (iblk0 V c 2 ⟨0, hn⟩) (iblk0 V c 1 ⟨0, hn⟩) (iblk0 V c 3 ⟨0, hn⟩) (k0_pay1 (F := F))
  | n + 1, hn => k0_pay2 (grid0.coords ⟨n + 1, hn⟩) (iblk0 V c 0 ⟨n + 1, hn⟩) (iblk0 V c 2 ⟨n + 1, hn⟩) (iblk0 V c 1 ⟨n + 1, hn⟩) (iblk0 V c 3 ⟨n + 1, hn⟩)
      (if (n + 1) % 8 = 0 then k0_pay1 (F := F) else acc0 c n (Nat.lt_of_succ_lt hn))

/-- At a first contraction tile the accumulator restarts from zero. -/
theorem acc0_first (c : Dev nD) (t : Fin cfg0.N) (h0 : t.val % 8 = 0) :
    acc0 V c t.val t.isLt = k0_pay2 (grid0.coords t) (iblk0 V c 0 t) (iblk0 V c 2 t) (iblk0 V c 1 t) (iblk0 V c 3 t) (k0_pay1 (F := F)) := by
  obtain ⟨n, hn⟩ := t
  cases n with
  | zero => rfl
  | succ n => simp only [acc0]; rw [if_pos h0]

/-- At a later tile it adds to what the point before left. -/
theorem acc0_next (c : Dev nD) (t : Fin cfg0.N) (h0 : ¬t.val % 8 = 0) :
    acc0 V c t.val t.isLt = k0_pay2 (grid0.coords t) (iblk0 V c 0 t) (iblk0 V c 2 t) (iblk0 V c 1 t) (iblk0 V c 3 t)
      (acc0 V c (t.val - 1) (Nat.lt_of_le_of_lt (Nat.sub_le _ _) t.isLt)) := by
  obtain ⟨n, hn⟩ := t
  cases n with
  | zero => exact absurd (Nat.zero_mod _) h0
  | succ n => simp only [acc0]; rw [if_neg h0]; rfl

/-- The region invariant before position `n`: the class's before the first point; afterwards the accumulator at what
    the point before left, the untouched scoped buffers and the generator register at some state. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega)) ∗ rest0 (F := F) c) ∗ (∃ r, prngReg c r)) := by
  cases n with
  | zero => exact absurd rfl hz
  | succ n => rfl

/-! ## The pipeline's proof data -/

/-- The proof data of pipeline 0 on core `c`: the arrays as the region finds them; after the body each input's buffer
    at its block and the output's at the accumulator narrowed and given its leading unit axis (consulted only where the
    body stores it); the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay3 (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay3 (acc0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' memrefs hold their blocks; the closed forms say which case the point is in; the
    invariant hands the body the accumulator at what the point before left (at anything at the first point) and takes it
    back at this point's contents; the output's buffer is handed back untouched away from a last contraction tile. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 8 = 0
  · have h1 : ¬t.val % 8 = 7 := by omega
    rw [Dat.leavesExact_idle (dat0 V c) 4 t (idleAt0_4 t (fun h => h1 ((hcond0_1 t).mp h))) (noFlush0_4 t (fun h => h1 ((hcond0_1 t).mp h)))]
    rw [acc0_first V c t h0]
    by_cases hz : t.val = 0
    · rw [PhiS0_castSucc V c t, PhiS0_zero V c _ _ hz, PhiA0_eq]
      iintro ⟨⟨⟨HS, HR⟩, Hg⟩, Ho, ⟨%d0, H0⟩, ⟨%d1, H1⟩, ⟨%d2, H2⟩, ⟨%d3, H3⟩, ⟨%d4, H4⟩⟩
      iapply (kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t) _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
    · rw [PhiS0_castSucc V c t, PhiS0_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t) _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    rw [acc0_next V c t h0]
    rw [PhiS0_castSucc V c t, PhiS0_pos V c _ _ hz]
    by_cases h1 : t.val % 8 = 7
    · rw [show (dat0 V c).leavesExact 4 t = owns (c : Thread nD τ) (ms0_4 t) fullShare ((dat0 V c).after 4 t) from by
        unfold Dat.leavesExact; rw [liveAt0_4 t ((hcond0_1 t).mpr h1)], after0_4, acc0_next V c t h0]
      iintro ⟨⟨⟨HS, HR⟩, Hg⟩, Ho, ⟨%d0, H0⟩, ⟨%d1, H1⟩, ⟨%d2, H2⟩, ⟨%d3, H3⟩, ⟨%d4, H4⟩⟩
      iapply (kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · rw [Dat.leavesExact_idle (dat0 V c) 4 t (idleAt0_4 t (fun h => h1 ((hcond0_1 t).mp h))) (noFlush0_4 t (fun h => h1 ((hcond0_1 t).mp h)))]
      iintro ⟨⟨⟨HS, HR⟩, Hg⟩, Ho, ⟨%d0, H0⟩, ⟨%d1, H1⟩, ⟨%d2, H2⟩, ⟨%d3, H3⟩, ⟨%d4, H4⟩⟩
      iapply (kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 16 := N_0; omega)

end Cert.Kernel.Pair

end
-- ==== Proof.BitsFinalRegion.lean ====
/-
  The second kernel region of the program: one whole-K matrix product per output block.

  The region's grid has four points (i, j). At point (i, j) the body reads rows block i (1024 rows, all 2048 columns)
  of slab 0 of the stacked intermediate and columns block j (all 2048 rows, 1024 columns) of slab 1 of the same
  array, and stores their product, contracted over the 2048 shared coordinates into a zero accumulator, as output
  block (i, j). Both input windows read ONE array, so each holds half of that array's share. Nothing is carried
  between points. Everything is stated at a parameter: the buffers' contents when the region is entered.
-/
import proofs.«126094_g2000509712423811_pallasbulk_371_15_alg».proof.Proof.Gen.Kernel.Launch
import proofs.«126094_g2000509712423811_pallasbulk_371_15_alg».proof.Proof.Gen.Kernel.Skeleton
import proofs.«126094_g2000509712423811_pallasbulk_371_15_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Final

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data whose
    array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer through its whole rectangle -/

abbrev r1_0 : Rect S1x1024x2048 := Rect.unit (s := S1x1024x2048) ![0, 0, 0] S1x1024x2048.size inb_S1x1024x2048_S1x1024x2048_0_0_0
abbrev r1_1 : Rect S1x2048x1024 := Rect.unit (s := S1x2048x1024) ![0, 0, 0] S1x2048x1024.size inb_S1x2048x1024_S1x2048x1024_0_0_0
abbrev r1_2 : Rect S1024x1024 := Rect.unit (s := S1024x1024) ![0, 0] S1024x1024.size inb_S1024x1024_S1024x1024_0_0

/-- The output block after the body: its one store, of the product of the two input blocks. -/
def out1_2 (x0 : Vec F S1x1024x2048 .bf16) (x1 : Vec F S1x2048x1024 .bf16) : Vec F S1024x1024 .f32 :=
  View.canon [⟨r1_2, k1_pay1 (View.ld x0 r1_0) (View.ld x1 r1_1)⟩]

/-- The one store covers the output block. -/
theorem cover1_2 (p0 : Vec F S1024x1024 .f32) (y : S1024x1024.Idx) :
    ∃ pc ∈ ([⟨r1_2, p0⟩] : List (View.Piece (Elt F) S1024x1024 .f32)), y ∈ pc.1.set :=
  View.cover_of_tiled [⟨r1_2, p0⟩] S1024x1024.size (by rfl) y

/-! ## The body's triple -/

set_option maxHeartbeats 1000000 in
/-- The body on whole staging buffers, the inputs' at `x0`, `x1` and the output's at anything, leaves the inputs as they were
    and the output at the product of the input blocks. -/
theorem sound_kernel1 (c : Dev nD) (E : Set ℕ) (i : grid1.Coords)
    (arg2 : Memref sig .tc .vmem S1x1024x2048 .bf16) (harg2 : arg2.IsWhole) (arg3 : Memref sig .tc .vmem S1x2048x1024 .bf16) (harg3 : arg3.IsWhole)
    (arg4 : Memref sig .tc .vmem S1024x1024 .f32) (harg4 : arg4.IsWhole)
    (x0 : Vec F S1x1024x2048 .bf16) (x1 : Vec F S1x2048x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__final_body i arg2 harg2 arg3 harg3 arg4 harg4) K := by
  simp only [cc1__final_body_eq_skeleton]; unfold cc1__final_body_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The proof data -/

/-- The region's proof data on core `c`: the arrays as the region finds them; after the body each input's buffer at its
    block and the output's at the product of the input blocks; nothing carried between points; nothing owed; the two
    input windows, which read one array, hold its two half shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := Idealize.SL.BI.Entails.refl _
theorem hout1 (c : Dev nD) : (dat1 V c).Φ (Fin.last cfg1.N) ⊢ (Pipeline.ΦA spec1 c : sProp 𝕄) := Idealize.SL.BI.Entails.refl _

end Cert.Kernel.Final

end
-- ==== Proof.BitsFinalShares.lean ====
/-
  The second region's arrays and the buffers behind them.

  The region's three windows stand on two buffers: both input windows read the stacked intermediate, the output
  window writes the result. The full share of the intermediate's buffer splits into the two halves the input windows
  hold, and the halves join again when the region ends; the result's buffer is held outright throughout.
-/
import proofs.«126094_g2000509712423811_pallasbulk_371_15_alg».proof.Proof.Gen.Kernel.Launch
import proofs.«126094_g2000509712423811_pallasbulk_371_15_alg».proof.Proof.Gen.Kernel.Skeleton
import proofs.«126094_g2000509712423811_pallasbulk_371_15_alg».proof.Proof.Gen.Kernel.Points
import proofs.«126094_g2000509712423811_pallasbulk_371_15_alg».proof.Proof.BitsFinalRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Final

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the region's arrays. -/
theorem arrs1_sep {M : Type} [URA M] (Φ : Ref sig .tc → sProp M) :
    bigSep (Finset.univ.image (Pipeline.arrRef spec1)) Φ = iprop(Φ main_v0 ∗ Φ main_v1) :=
  bigSep_eq_bigSepL_of_eq [main_v0, main_v1] (by decide) (by decide) Φ

/-- ENTRY: the two buffers, whole at the entry contents, are the region's arrays at the windows' shares. -/
theorem hsplit1 (c : Dev nD) :
    (Pipeline.arrBufs (Ix := Unit) (Name := ℕ) (U := UR sig nD τ) (Lvl := ℕ) spec1 c (V c) : sProp 𝕄) ⊢ (dat1 V c).arrays ((dat1 V c).arrAt · 0) := by
  unfold Pipeline.arrBufs Dat.arrays
  rw [arrs1_sep, bigSep_W1]
  rw [(arr_whole1 0).set_eq_univ, (arr_whole1 2).set_eq_univ]
  rw [show (dat1 V c).share 0 = fullShare.left from rfl, show (dat1 V c).share 1 = fullShare.right from rfl,
    show (dat1 V c).share 2 = fullShare from rfl]
  iintro ⟨H0, H1⟩
  ihave H := (pointsTo_share (PosShare.mem_left_op_right fullShare)).1 $$ H0
  icases H with ⟨Hl, Hr⟩
  isplitl [Hl]; · iexact Hl
  isplitl [Hr]; · iexact Hr
  iexact H1

/-- EXIT: the region's arrays after the last write-back are the two buffers whole again, the intermediate as the region
    found it and the result at what the write-backs leave. -/
theorem hjoin1 (c : Dev nD) (V' : (b : Ref sig .tc) → Buf (Elt F) ((c : Thread nD τ).loc b))
    (h0 : V' main_v0 = V c main_v0) (h1 : V' main_v1 = (dat1 V c).arrAt 2 cfg1.N) :
    (dat1 V c).arrays ((dat1 V c).arrAt · cfg1.N)
      ⊢ (Pipeline.arrBufs (Ix := Unit) (Name := ℕ) (U := UR sig nD τ) (Lvl := ℕ) spec1 c V' : sProp 𝕄) := by
  unfold Pipeline.arrBufs Dat.arrays
  rw [arrs1_sep, bigSep_W1]
  rw [(arr_whole1 0).set_eq_univ, (arr_whole1 2).set_eq_univ]
  rw [show (dat1 V c).share 0 = fullShare.left from rfl, show (dat1 V c).share 1 = fullShare.right from rfl,
    show (dat1 V c).share 2 = fullShare from rfl]
  rw [h0, h1]
  dsimp only
  rw [(dat1 V c).arrAt_in 0 rfl cfg1.N, (dat1 V c).arrAt_in 1 rfl cfg1.N, A_eq1, A_eq1]
  iintro ⟨Hl, Hr, H1⟩
  isplitl [Hl Hr]
  · iapply (pointsTo_share (PosShare.mem_left_op_right fullShare)).2
    isplitl [Hl]; · iexact Hl
    iexact Hr
  iexact H1

end Cert.Kernel.Final

end
-- ==== Proof.BitsKernelRun.lean ====
/-
  The program's run: both kernel regions and the closing broadcast, from the launch to the return.

  The program is region 0 (the two first-level products, stacked), region 1 (the product of the two slabs) and one
  host operation that adds a leading unit axis. Between two of these items every unscoped buffer of the core is held
  whole at named contents: the launch memory; then the stacked intermediate at what region 0's write-backs leave;
  then the result at what region 1's write-backs leave; then the host operation applied. Read against the final state
  this gives every unscoped buffer's final contents, the argument arrays among them unchanged.
-/
import proofs.«126094_g2000509712423811_pallasbulk_371_15_alg».proof.Proof.Gen.Kernel.Launch
import proofs.«126094_g2000509712423811_pallasbulk_371_15_alg».proof.Proof.Gen.Kernel.Skeleton
import proofs.«126094_g2000509712423811_pallasbulk_371_15_alg».proof.Proof.Gen.Kernel.Points
import proofs.«126094_g2000509712423811_pallasbulk_371_15_alg».proof.Proof.BitsPairRegion
import proofs.«126094_g2000509712423811_pallasbulk_371_15_alg».proof.Proof.BitsFinalShares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Pair Cert.Kernel.Final

variable (m : (ℓ : Loc nD τ sig) → Buf (Elt F) ℓ) (ρ : Dev nD → PrngReg)

/-! ## The buffers' contents between the items -/

/-- Core `c`'s buffers at launch. -/
abbrev W0 : Dev nD → Valuation τ sig (Elt F) := fun c b => m ((c : Dev nD), b)
abbrev V0 : (c : Dev nD) → (b : Ref sig .tc) → Buf (Elt F) ((c : Thread nD τ).loc b) := fun c b => W0 m c b
/-- After region 0: its arrays at what its write-backs leave, every other buffer as launched. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After region 1: the result's buffer at what its write-backs leave, every other buffer as region 1 found it. -/
def W2 (c : Dev nD) : Valuation τ sig (Elt F) :=
  Function.update (W1 m c) (Proc.devRef .tc main_v1) ((dat1 (V1 m) c).arrAt 2 cfg1.N)
abbrev V2 : (c : Dev nD) → (b : Ref sig .tc) → Buf (Elt F) ((c : Thread nD τ).loc b) := fun c b => W2 m c b
theorem W2_v1 (c : Dev nD) : W2 m c (Proc.devRef .tc main_v1) = (dat1 (V1 m) c).arrAt 2 cfg1.N := by
  unfold W2; exact Function.update_self ..
theorem W2_of_ne (c : Dev nD) (b : Ref sig .tc) (hb : b ≠ main_v1) : W2 m c (Proc.devRef .tc b) = W1 m c (Proc.devRef .tc b) := by
  unfold W2; exact Function.update_of_ne (StableHlo.devRef_ne_of_ne hb) ..
/-- After the closing host operation. -/
abbrev W3 : Dev nD → Valuation τ sig (Elt F) := fun c => StableHlo.after hostOps2 (W2 m c)

/-! ## The proof data family and what rides beside the buffers -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- The generator register at some state and the core owing nothing. -/
abbrev R (c : Dev nD) : sProp 𝕄 := iprop((∃ r, prngReg c r) ∗ ∃ W, owes (c : Thread nD τ) (0 : CellTallies nD τ sig Unit) W)

theorem hostOps2_fresh : (hostOps2 : List (HloOp τ sig (Elt F))).Forall fun op => op.fresh = ∅ := by
  simp only [List.Forall]; repeat' constructor

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W3 m c) ∗ ∃ r, prngReg c r)

/-! ## Region 0 as a segment -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V0 m) c)
    unfold Pipeline.ΦA
    iintro ⟨Hp, -, Hr⟩
    isplitl [Hr]; · iexact Hr
    iexact Hp
  hout c := by
    rw [Pipeline.ownSems0_none]
    refine BIBase.Entails.trans (hout0 (V0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 as a segment: its two input windows share the stacked intermediate -/

theorem hrest1 (c : Dev nD) : ∀ b, b ∉ Finset.univ.image (Pipeline.arrRef spec1) → V2 m c b = V1 m c b :=
  fun b hb => W2_of_ne m c b fun e => hb (e ▸ (by decide : main_v1 ∈ Finset.univ.image (Pipeline.arrRef spec1)))

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hub := Pipeline.unscopedBufs_split₀ (Ix := Unit) (Name := ℕ) (U := UR sig nD τ) (Lvl := ℕ) (Val := Elt F) cfgs (1 : Fin 2) winFacts₀1.arr_unscoped c (V1 m c)
    rw [Pipeline.unscopedBufs_held] at hub
    have hsp : StableHlo.held (c : Thread nD τ) (Pipeline.ucRefs τ sig) (W1 m c)
        ⊢ (iprop((pdats m 1 c).arrays ((pdats m 1 c).arrAt · 0) ∗ Pipeline.unscopedRest spec1 c (V1 m c)) : sProp 𝕄) := by
      rw [hub]; exact sep_mono (hsplit1 (V1 m) c) .rfl
    iintro ⟨⟨Hub, Hp, HO⟩, -, -⟩
    ihave H := hsp $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V1 m) c)
    unfold Pipeline.ΦA
    iintro ⟨Hp, -, Hr⟩
    isplitl [Hr]; · iexact Hr
    iexact Hp
  hout c := by
    rw [Pipeline.ownSems0_none]
    refine BIBase.Entails.trans (hout1 (V1 m) c) ?_
    unfold Pipeline.ΦA
    iintro ⟨Hr, Hp⟩
    isplitl [Hp]; · iexact Hp
    isplitr; · iempintro
    iexact Hr
  hexit c := by
    have hub := Pipeline.unscopedBufs_split₀ (Ix := Unit) (Name := ℕ) (U := UR sig nD τ) (Lvl := ℕ) (Val := Elt F) cfgs (1 : Fin 2) winFacts₀1.arr_unscoped c (V2 m c)
    rw [Pipeline.unscopedBufs_held] at hub
    have hr : (Pipeline.unscopedRest (Ix := Unit) (Name := ℕ) (U := UR sig nD τ) (Lvl := ℕ) spec1 c (V1 m c) : sProp 𝕄)
        = Pipeline.unscopedRest spec1 c (V2 m c) := by
      unfold Pipeline.unscopedRest
      exact bigSep_congr fun b hb => by rw [hrest1 m c b (Finset.mem_sdiff.mp hb).2]
    have hj : (iprop((pdats m 1 c).arrays ((pdats m 1 c).arrAt · cfg1.N) ∗ Pipeline.unscopedRest spec1 c (V1 m c)) : sProp 𝕄)
        ⊢ StableHlo.held (c : Thread nD τ) (Pipeline.ucRefs τ sig) (W2 m c) := by
      rw [hub, hr]; exact sep_mono (hjoin1 (V1 m) c (V2 m c) (W2_of_ne m c main_v0 (by decide)) (W2_v1 m c)) .rfl
    iintro ⟨Ha, HO, HY, Hrest⟩
    imodintro
    isplitl [Ha Hrest]
    · iapply hj; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .region (reg0 m), .region (reg1 m), .host (hseg hostOps2 hostOps2_sub hostOps2_fresh (W2 m)) ]

theorem main_run (c : Dev nD) : main (F := F) c = Pipeline.Seg.run (segs m) := (main_chain c).trans (by chain_rfl)

set_option backward.isDefEq.respectTransparency.types false in
/-- Every weakly fair execution of @main from memory `m` with zero counters terminates, nothing faulting, and every
    unscoped buffer of every core ends at the last named contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => (show iprop(StableHlo.held (c : Thread nD τ) (Pipeline.ucRefs τ sig) (W3 m c) ∗ R c)
          ⊢ iprop(Tₙ m c ∗ ∃ W, owes (c : Thread nD τ) (0 : CellTallies nD τ sig Unit) W) from by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.Kernel.Run

end
-- ==== Proof.BitsKernelResult.lean ====
/-
  What the program's run leaves: the arguments as launched and the result as the closing broadcast of region 1's output.

  The last named contents of the run are the closing host operation applied to the contents after region 1. No item
  writes an argument array: the host operation writes only the result, region 1 changes only its output buffer, and
  region 0 reads the arguments through input windows, which leave their arrays as found.
-/
import proofs.«126094_g2000509712423811_pallasbulk_371_15_alg».proof.Proof.Gen.Kernel.Launch
import proofs.«126094_g2000509712423811_pallasbulk_371_15_alg».proof.Proof.Gen.Kernel.Skeleton
import proofs.«126094_g2000509712423811_pallasbulk_371_15_alg».proof.Proof.Gen.Kernel.Points
import proofs.«126094_g2000509712423811_pallasbulk_371_15_alg».proof.Proof.BitsKernelRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Result

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Pair Cert.Kernel.Final Cert.Kernel.Run

variable (m : (ℓ : Loc nD τ sig) → Buf (Elt F) ℓ) (ρ : Dev nD → PrngReg)

/-- The closing host operation writes only the result buffer. -/
theorem W3_of_ne (c : Dev nD) (b : Ref sig .tc) (hb : b ≠ main_v2) : W3 m c (Proc.devRef .tc b) = W2 m c (Proc.devRef .tc b) :=
  StableHlo.after_of_forall_not_mem (b := Proc.devRef .tc b) _ _ (List.forall_iff_forall_mem.mp (by
    simp only [hostOps2, List.Forall, StableHlo.unary_writes, Finset.mem_singleton]
    exact StableHlo.devRef_ne_of_ne hb))

/-- An argument read through input window `w` of region 0 ends as launched. -/
theorem W3_arg (c : Dev nD) (w : Fin cfg0.W) (hw : (cfg0.win w).isOut = false) (h2 : Pipeline.arrRef spec0 w ≠ main_v2) (h1 : Pipeline.arrRef spec0 w ≠ main_v1) :
    W3 m c (Proc.devRef .tc (Pipeline.arrRef spec0 w)) = W0 m c (Proc.devRef .tc (Pipeline.arrRef spec0 w)) :=
  (W3_of_ne m c _ h2).trans <| (W2_of_ne m c _ h1).trans <| (W1_arr m c w).trans <|
    ((dat0 (V0 m) c).arrAt_in w hw _).trans (A_eq0 (V0 m) c w)

theorem W3_arg3 (c : Dev nD) : W3 m c (Proc.devRef .tc main_arg3) = m ((c : Thread nD τ).loc main_arg3) := W3_arg m c 0 rfl (by decide) (by decide)
theorem W3_arg2 (c : Dev nD) : W3 m c (Proc.devRef .tc main_arg2) = m ((c : Thread nD τ).loc main_arg2) := W3_arg m c 1 rfl (by decide) (by decide)
theorem W3_arg1 (c : Dev nD) : W3 m c (Proc.devRef .tc main_arg1) = m ((c : Thread nD τ).loc main_arg1) := W3_arg m c 2 rfl (by decide) (by decide)
theorem W3_arg0 (c : Dev nD) : W3 m c (Proc.devRef .tc main_arg0) = m ((c : Thread nD τ).loc main_arg0) := W3_arg m c 3 rfl (by decide) (by decide)

/-- The result buffer ends at the broadcast of region 1's output. -/
theorem W3_v2 (c : Dev nD) :
    (W3 m c (Proc.devRef .tc main_v2) : (⟨S1x2048x2048, .f32⟩ : BufTy).Contents (Elt F))
      = broadcastInDim S1x2048x2048 ![1, 2] bcast_S2048x2048_S1x2048x2048_1_2 (W2 m c (Proc.devRef .tc main_v1)) := by
  show StableHlo.after hostOps2 (W2 m c) (Proc.devRef .tc main_v2) = _
  after_results
  all_goals rfl

/-- The run with the result named: the result buffer at the broadcast of region 1's output, the arguments as launched. -/
theorem run_named : θ_run defs (onTc (τ := τ) (main (F := F))) ⟨m, fun _ => 0, ρ⟩ (fun r => ∀ c : Dev nD,
      r.2.mem ((c.tc : Thread nD τ).loc main_v2) = broadcastInDim S1x2048x2048 ![1, 2] bcast_S2048x2048_S1x2048x2048_1_2 (W2 m c (Proc.devRef .tc main_v1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v2 (by decide))).trans (W3_v2 m c),
     (h c _ (mem_uc main_arg0 (by decide))).trans (W3_arg0 m c),
     (h c _ (mem_uc main_arg1 (by decide))).trans (W3_arg1 m c),
     (h c _ (mem_uc main_arg2 (by decide))).trans (W3_arg2 m c),
     (h c _ (mem_uc main_arg3 (by decide))).trans (W3_arg3 m c)⟩) (run m ρ)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_named m ρ)

end Cert.Kernel.Result

end
-- ==== Proof.PairRegion.lean ====
import proofs.«126094_g2000509712423811_pallasbulk_371_15_alg».proof.Proof.Gen.KernelIdeal.Launch
import proofs.«126094_g2000509712423811_pallasbulk_371_15_alg».proof.Proof.Gen.KernelIdeal.Skeleton
import proofs.«126094_g2000509712423811_pallasbulk_371_15_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Pair

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the pair of tiled products, accumulated over the contraction tiles, at entry contents `V` -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: an
    unfetched point's index has not moved, the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: an
    unfetched point's index has not moved, the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: an
    unfetched point's index has not moved, the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: an
    unfetched point's index has not moved, the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions of the body, in closed form over the grid -/

/-- The first conditional: the contraction tile is the first one. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The second conditional: the contraction tile is the last one. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-- The inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- The output is idle and not written back away from the last contraction tile, live at it. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The body on any whole memrefs, case by case -/

/-- The zero offsets of the whole-buffer rectangles, however spelt. -/
theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 2000000 in
/-- A first contraction tile: the accumulator, at anything, is cleared and the selected blocks' product added to it. -/
theorem kernelRun0_A (c : Dev nD) (i : grid0.Coords) (arg2 : Memref sig .tc .vmem S2048x256 .f32) (harg2 : arg2.IsWhole) (arg3 : Memref sig .tc .vmem S256x2048 .f32) (harg3 : arg3.IsWhole) (arg4 : Memref sig .tc .vmem S2048x256 .f32) (harg4 : arg4.IsWhole) (arg5 : Memref sig .tc .vmem S256x2048 .f32) (harg5 : arg5.IsWhole) (arg6 : Memref sig .tc .vmem S1x2048x2048 .bf16) (harg6 : arg6.IsWhole) (arg7 : Memref sig .tc .vmem S2048x2048 .f32) (harg7 : arg7.IsWhole) (hc0 : cond0_0 i) (hc1 : ¬cond0_1 i)
    (x0 : Vec F S2048x256 .f32) (x1 : Vec F S256x2048 .f32) (x2 : Vec F S2048x256 .f32) (x3 : Vec F S256x2048 .f32) (xi4 : Vec F S1x2048x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare (k0_pay2 i x0 x2 x1 x3 (k0_pay1 (F := F)))) -∗ K ⟨⟩))
      ⊢ wp frame (wpE (defs₀ (F := F)) Variants.none c none) E (cc0__pair_body i arg2 harg2 arg3 harg3 arg4 harg4 arg5 harg5 arg6 harg6 arg7 harg7) K := by
  simp only [cc0__pair_body_eq_skeleton]; unfold cc0__pair_body_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS
  ipureintro
  sl_unfold_words
  rw [View.read_writes_eq_canon _ _ _ (fun y => ⟨_, List.mem_cons.mpr (Or.inl rfl), View.mem_set_unit_zero hz2 Facts₀.inb_S2048x2048_S2048x2048_0_0 y⟩), View.canon_cons_unit_zero (S := S2048x2048) hz2, View.readCov_unit_zero (S := S2048x2048) _ hz2]
  simp only [View.readAt_eq_ld, harg2.read_unread, harg3.read_unread, harg4.read_unread, harg5.read_unread, View.ld_unit_zero (S := S2048x256) hz2, View.ld_unit_zero (S := S256x2048) hz2, View.ld_unit_zero (S := S2048x2048) hz2]

set_option maxHeartbeats 2000000 in
/-- A middle contraction tile: neither conditional taken. On whole memrefs, the inputs at `x·`, the idle output at
    `xi4` handed back untouched, the accumulator at `xs`, the body runs to the continuation holding the accumulator
    at the selected blocks' product added to `xs`. -/
theorem kernelRun0_B (c : Dev nD) (i : grid0.Coords) (arg2 : Memref sig .tc .vmem S2048x256 .f32) (harg2 : arg2.IsWhole) (arg3 : Memref sig .tc .vmem S256x2048 .f32) (harg3 : arg3.IsWhole) (arg4 : Memref sig .tc .vmem S2048x256 .f32) (harg4 : arg4.IsWhole) (arg5 : Memref sig .tc .vmem S256x2048 .f32) (harg5 : arg5.IsWhole) (arg6 : Memref sig .tc .vmem S1x2048x2048 .bf16) (harg6 : arg6.IsWhole) (arg7 : Memref sig .tc .vmem S2048x2048 .f32) (harg7 : arg7.IsWhole) (hc0 : ¬cond0_0 i) (hc1 : ¬cond0_1 i)
    (x0 : Vec F S2048x256 .f32) (x1 : Vec F S256x2048 .f32) (x2 : Vec F S2048x256 .f32) (x3 : Vec F S256x2048 .f32) (xs : Vec F S2048x2048 .f32) (xi4 : Vec F S1x2048x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare (k0_pay2 i x0 x2 x1 x3 xs)) -∗ K ⟨⟩))
      ⊢ wp frame (wpE (defs₀ (F := F)) Variants.none c none) E (cc0__pair_body i arg2 harg2 arg3 harg3 arg4 harg4 arg5 harg5 arg6 harg6 arg7 harg7) K := by
  simp only [cc0__pair_body_eq_skeleton]; unfold cc0__pair_body_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS
  ipureintro
  rw [View.read_writes_eq_canon _ _ _ (fun y => ⟨_, List.mem_singleton_self _, View.mem_set_unit_zero hz2 Facts₀.inb_S2048x2048_S2048x2048_0_0 y⟩), View.canon_unit_zero hz2]
  simp only [View.readAt_eq_ld, harg2.read_unread, harg3.read_unread, harg4.read_unread, harg5.read_unread, harg7.read_unread, View.ld_unit_zero (S := S2048x256) hz2, View.ld_unit_zero (S := S256x2048) hz2, View.ld_unit_zero (S := S2048x2048) hz2]

set_option maxHeartbeats 2000000 in
/-- A last contraction tile: the product is added to the accumulator at `xs`, and the output's buffer, at anything,
    is left at the accumulator narrowed and given its leading unit axis. -/
theorem kernelRun0_C (c : Dev nD) (i : grid0.Coords) (arg2 : Memref sig .tc .vmem S2048x256 .f32) (harg2 : arg2.IsWhole) (arg3 : Memref sig .tc .vmem S256x2048 .f32) (harg3 : arg3.IsWhole) (arg4 : Memref sig .tc .vmem S2048x256 .f32) (harg4 : arg4.IsWhole) (arg5 : Memref sig .tc .vmem S256x2048 .f32) (harg5 : arg5.IsWhole) (arg6 : Memref sig .tc .vmem S1x2048x2048 .bf16) (harg6 : arg6.IsWhole) (arg7 : Memref sig .tc .vmem S2048x2048 .f32) (harg7 : arg7.IsWhole) (hc0 : ¬cond0_0 i) (hc1 : cond0_1 i)
    (x0 : Vec F S2048x256 .f32) (x1 : Vec F S256x2048 .f32) (x2 : Vec F S2048x256 .f32) (x3 : Vec F S256x2048 .f32) (xs : Vec F S2048x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 (k0_pay2 i x0 x2 x1 x3 xs)) ∗ owns (c : Thread nD τ) arg7 fullShare (k0_pay2 i x0 x2 x1 x3 xs)) -∗ K ⟨⟩))
      ⊢ wp frame (wpE (defs₀ (F := F)) Variants.none c none) E (cc0__pair_body i arg2 harg2 arg3 harg3 arg4 harg4 arg5 harg5 arg6 harg6 arg7 harg7) K := by
  simp only [cc0__pair_body_eq_skeleton]; unfold cc0__pair_body_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1; obtain rfl := harg4.eq_unread hf2; obtain rfl := harg5.eq_unread hf3; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    rw [View.read_writes_eq_canon _ _ _ (fun y => ⟨_, List.mem_singleton_self _, View.mem_set_unit_zero hz3 Facts₀.inb_S1x2048x2048_S1x2048x2048_0_0_0 y⟩), View.canon_unit_zero hz3, View.readCov_unit_zero (S := S2048x2048) _ hz2]
    simp only [View.readAt_eq_ld, harg2.read_unread, harg3.read_unread, harg4.read_unread, harg5.read_unread, harg7.read_unread, View.ld_unit_zero (S := S2048x256) hz2, View.ld_unit_zero (S := S256x2048) hz2, View.ld_unit_zero (S := S2048x2048) hz2]
  iexists _; isplitr
  swap; · iexact HS
  ipureintro
  sl_unfold_words
  rw [View.read_writes_eq_canon _ _ _ (fun y => ⟨_, List.mem_singleton_self _, View.mem_set_unit_zero hz2 Facts₀.inb_S2048x2048_S2048x2048_0_0 y⟩), View.canon_unit_zero hz2]
  simp only [View.readAt_eq_ld, harg2.read_unread, harg3.read_unread, harg4.read_unread, harg5.read_unread, harg7.read_unread, View.ld_unit_zero (S := S2048x256) hz2, View.ld_unit_zero (S := S256x2048) hz2, View.ld_unit_zero (S := S2048x2048) hz2]

/-! ## The staging memrefs and the accumulator -/

abbrev ms0_0 (t : Fin cfg0.N) : Memref sig .tc .vmem S2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x2048 .bf16 := win0_4.stage (cfg0.slots t 4)
abbrev hs0_4 (t : Fin cfg0.N) : (ms0_4 t).IsWhole := hstage0_4 ((cfg0.slots t 4).cast nbuf0_4)
/-- The accumulator: a whole scoped buffer of the kernel's own, carried between points. -/
abbrev scM0 : Memref sig .tc .vmem S2048x2048 .f32 := Memref.whole cc0_scratch0

/-- The scoped buffers of the core that this region never touches: the other region's staging buffers. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class's invariant with the accumulator as a memref owned at some contents. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA rest0; rw [scopedRest0_eq]; simp only [scM0, owns_whole]; try rfl

/-- THE ACCUMULATION. The accumulator after the body at position `n`: the product of the point's two selected
    blocks added to zero at a first contraction tile, to what the point before left otherwise. -/
def acc0 (c : Dev nD) : (n : ℕ) → n < cfg0.N → Vec F S2048x2048 .f32
  | 0, hn => k0_pay2 (grid0.coords ⟨0, hn⟩) (iblk0 V c 0 ⟨0, hn⟩) (iblk0 V c 2 ⟨0, hn⟩) (iblk0 V c 1 ⟨0, hn⟩) (iblk0 V c 3 ⟨0, hn⟩) (k0_pay1 (F := F))
  | n + 1, hn => k0_pay2 (grid0.coords ⟨n + 1, hn⟩) (iblk0 V c 0 ⟨n + 1, hn⟩) (iblk0 V c 2 ⟨n + 1, hn⟩) (iblk0 V c 1 ⟨n + 1, hn⟩) (iblk0 V c 3 ⟨n + 1, hn⟩)
      (if (n + 1) % 8 = 0 then k0_pay1 (F := F) else acc0 c n (Nat.lt_of_succ_lt hn))

/-- At a first contraction tile the accumulator restarts from zero. -/
theorem acc0_first (c : Dev nD) (t : Fin cfg0.N) (h0 : t.val % 8 = 0) :
    acc0 V c t.val t.isLt = k0_pay2 (grid0.coords t) (iblk0 V c 0 t) (iblk0 V c 2 t) (iblk0 V c 1 t) (iblk0 V c 3 t) (k0_pay1 (F := F)) := by
  obtain ⟨n, hn⟩ := t
  cases n with
  | zero => rfl
  | succ n => simp only [acc0]; rw [if_pos h0]

/-- At a later tile it adds to what the point before left. -/
theorem acc0_next (c : Dev nD) (t : Fin cfg0.N) (h0 : ¬t.val % 8 = 0) :
    acc0 V c t.val t.isLt = k0_pay2 (grid0.coords t) (iblk0 V c 0 t) (iblk0 V c 2 t) (iblk0 V c 1 t) (iblk0 V c 3 t)
      (acc0 V c (t.val - 1) (Nat.lt_of_le_of_lt (Nat.sub_le _ _) t.isLt)) := by
  obtain ⟨n, hn⟩ := t
  cases n with
  | zero => exact absurd (Nat.zero_mod _) h0
  | succ n => simp only [acc0]; rw [if_neg h0]; rfl

/-- The region invariant before position `n`: the class's before the first point; afterwards the accumulator at what
    the point before left, the untouched scoped buffers and the generator register at some state. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega)) ∗ rest0 (F := F) c) ∗ (∃ r, prngReg c r)) := by
  cases n with
  | zero => exact absurd rfl hz
  | succ n => rfl

/-! ## The pipeline's proof data -/

/-- The proof data of pipeline 0 on core `c`: the arrays as the region finds them; after the body each input's buffer
    at its block and the output's at the accumulator narrowed and given its leading unit axis (consulted only where the
    body stores it); the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay3 (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay3 (acc0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' memrefs hold their blocks; the closed forms say which case the point is in; the
    invariant hands the body the accumulator at what the point before left (at anything at the first point) and takes it
    back at this point's contents; the output's buffer is handed back untouched away from a last contraction tile. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 8 = 0
  · have h1 : ¬t.val % 8 = 7 := by omega
    rw [Dat.leavesExact_idle (dat0 V c) 4 t (idleAt0_4 t (fun h => h1 ((hcond0_1 t).mp h))) (noFlush0_4 t (fun h => h1 ((hcond0_1 t).mp h)))]
    rw [acc0_first V c t h0]
    by_cases hz : t.val = 0
    · rw [PhiS0_castSucc V c t, PhiS0_zero V c _ _ hz, PhiA0_eq]
      iintro ⟨⟨⟨HS, HR⟩, Hg⟩, Ho, ⟨%d0, H0⟩, ⟨%d1, H1⟩, ⟨%d2, H2⟩, ⟨%d3, H3⟩, ⟨%d4, H4⟩⟩
      iapply (kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t) _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
    · rw [PhiS0_castSucc V c t, PhiS0_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t) _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    rw [acc0_next V c t h0]
    rw [PhiS0_castSucc V c t, PhiS0_pos V c _ _ hz]
    by_cases h1 : t.val % 8 = 7
    · rw [show (dat0 V c).leavesExact 4 t = owns (c : Thread nD τ) (ms0_4 t) fullShare ((dat0 V c).after 4 t) from by
        unfold Dat.leavesExact; rw [liveAt0_4 t ((hcond0_1 t).mpr h1)], after0_4, acc0_next V c t h0]
      iintro ⟨⟨⟨HS, HR⟩, Hg⟩, Ho, ⟨%d0, H0⟩, ⟨%d1, H1⟩, ⟨%d2, H2⟩, ⟨%d3, H3⟩, ⟨%d4, H4⟩⟩
      iapply (kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · rw [Dat.leavesExact_idle (dat0 V c) 4 t (idleAt0_4 t (fun h => h1 ((hcond0_1 t).mp h))) (noFlush0_4 t (fun h => h1 ((hcond0_1 t).mp h)))]
      iintro ⟨⟨⟨HS, HR⟩, Hg⟩, Ho, ⟨%d0, H0⟩, ⟨%d1, H1⟩, ⟨%d2, H2⟩, ⟨%d3, H3⟩, ⟨%d4, H4⟩⟩
      iapply (kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 16 := N_0; omega)

end Cert.KernelIdeal.Pair

end
-- ==== Proof.FinalRegion.lean ====
/-
  The second kernel region of the program: one whole-K matrix product per output block.

  The region's grid has four points (i, j). At point (i, j) the body reads rows block i (1024 rows, all 2048 columns)
  of slab 0 of the stacked intermediate and columns block j (all 2048 rows, 1024 columns) of slab 1 of the same
  array, and stores their product, contracted over the 2048 shared coordinates into a zero accumulator, as output
  block (i, j). Both input windows read ONE array, so each holds half of that array's share. Nothing is carried
  between points. Everything is stated at a parameter: the buffers' contents when the region is entered.
-/
import proofs.«126094_g2000509712423811_pallasbulk_371_15_alg».proof.Proof.Gen.KernelIdeal.Launch
import proofs.«126094_g2000509712423811_pallasbulk_371_15_alg».proof.Proof.Gen.KernelIdeal.Skeleton
import proofs.«126094_g2000509712423811_pallasbulk_371_15_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Final

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data whose
    array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer through its whole rectangle -/

abbrev r1_0 : Rect S1x1024x2048 := Rect.unit (s := S1x1024x2048) ![0, 0, 0] S1x1024x2048.size inb_S1x1024x2048_S1x1024x2048_0_0_0
abbrev r1_1 : Rect S1x2048x1024 := Rect.unit (s := S1x2048x1024) ![0, 0, 0] S1x2048x1024.size inb_S1x2048x1024_S1x2048x1024_0_0_0
abbrev r1_2 : Rect S1024x1024 := Rect.unit (s := S1024x1024) ![0, 0] S1024x1024.size inb_S1024x1024_S1024x1024_0_0

/-- The output block after the body: its one store, of the product of the two input blocks. -/
def out1_2 (x0 : Vec F S1x1024x2048 .bf16) (x1 : Vec F S1x2048x1024 .bf16) : Vec F S1024x1024 .f32 :=
  View.canon [⟨r1_2, k1_pay1 (View.ld x0 r1_0) (View.ld x1 r1_1)⟩]

/-- The one store covers the output block. -/
theorem cover1_2 (p0 : Vec F S1024x1024 .f32) (y : S1024x1024.Idx) :
    ∃ pc ∈ ([⟨r1_2, p0⟩] : List (View.Piece (Elt F) S1024x1024 .f32)), y ∈ pc.1.set :=
  View.cover_of_tiled [⟨r1_2, p0⟩] S1024x1024.size (by rfl) y

/-! ## The body's triple -/

set_option maxHeartbeats 1000000 in
/-- The body on whole staging buffers, the inputs' at `x0`, `x1` and the output's at anything, leaves the inputs as they were
    and the output at the product of the input blocks. -/
theorem sound_kernel1 (c : Dev nD) (E : Set ℕ) (i : grid1.Coords)
    (arg2 : Memref sig .tc .vmem S1x1024x2048 .bf16) (harg2 : arg2.IsWhole) (arg3 : Memref sig .tc .vmem S1x2048x1024 .bf16) (harg3 : arg3.IsWhole)
    (arg4 : Memref sig .tc .vmem S1024x1024 .f32) (harg4 : arg4.IsWhole)
    (x0 : Vec F S1x1024x2048 .bf16) (x1 : Vec F S1x2048x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__final_body i arg2 harg2 arg3 harg3 arg4 harg4) K := by
  simp only [cc1__final_body_eq_skeleton]; unfold cc1__final_body_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The proof data -/

/-- The region's proof data on core `c`: the arrays as the region finds them; after the body each input's buffer at its
    block and the output's at the product of the input blocks; nothing carried between points; nothing owed; the two
    input windows, which read one array, hold its two half shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := Idealize.SL.BI.Entails.refl _
theorem hout1 (c : Dev nD) : (dat1 V c).Φ (Fin.last cfg1.N) ⊢ (Pipeline.ΦA spec1 c : sProp 𝕄) := Idealize.SL.BI.Entails.refl _

end Cert.KernelIdeal.Final

end
-- ==== Proof.FinalShares.lean ====
/-
  The second region's arrays and the buffers behind them.

  The region's three windows stand on two buffers: both input windows read the stacked intermediate, the output
  window writes the result. The full share of the intermediate's buffer splits into the two halves the input windows
  hold, and the halves join again when the region ends; the result's buffer is held outright throughout.
-/
import proofs.«126094_g2000509712423811_pallasbulk_371_15_alg».proof.Proof.Gen.KernelIdeal.Launch
import proofs.«126094_g2000509712423811_pallasbulk_371_15_alg».proof.Proof.Gen.KernelIdeal.Skeleton
import proofs.«126094_g2000509712423811_pallasbulk_371_15_alg».proof.Proof.Gen.KernelIdeal.Points
import proofs.«126094_g2000509712423811_pallasbulk_371_15_alg».proof.Proof.FinalRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Final

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the region's arrays. -/
theorem arrs1_sep {M : Type} [URA M] (Φ : Ref sig .tc → sProp M) :
    bigSep (Finset.univ.image (Pipeline.arrRef spec1)) Φ = iprop(Φ main_v0 ∗ Φ main_v1) :=
  bigSep_eq_bigSepL_of_eq [main_v0, main_v1] (by decide) (by decide) Φ

/-- ENTRY: the two buffers, whole at the entry contents, are the region's arrays at the windows' shares. -/
theorem hsplit1 (c : Dev nD) :
    (Pipeline.arrBufs (Ix := Unit) (Name := ℕ) (U := UR sig nD τ) (Lvl := ℕ) spec1 c (V c) : sProp 𝕄) ⊢ (dat1 V c).arrays ((dat1 V c).arrAt · 0) := by
  unfold Pipeline.arrBufs Dat.arrays
  rw [arrs1_sep, bigSep_W1]
  rw [(arr_whole1 0).set_eq_univ, (arr_whole1 2).set_eq_univ]
  rw [show (dat1 V c).share 0 = fullShare.left from rfl, show (dat1 V c).share 1 = fullShare.right from rfl,
    show (dat1 V c).share 2 = fullShare from rfl]
  iintro ⟨H0, H1⟩
  ihave H := (pointsTo_share (PosShare.mem_left_op_right fullShare)).1 $$ H0
  icases H with ⟨Hl, Hr⟩
  isplitl [Hl]; · iexact Hl
  isplitl [Hr]; · iexact Hr
  iexact H1

/-- EXIT: the region's arrays after the last write-back are the two buffers whole again, the intermediate as the region
    found it and the result at what the write-backs leave. -/
theorem hjoin1 (c : Dev nD) (V' : (b : Ref sig .tc) → Buf (Elt F) ((c : Thread nD τ).loc b))
    (h0 : V' main_v0 = V c main_v0) (h1 : V' main_v1 = (dat1 V c).arrAt 2 cfg1.N) :
    (dat1 V c).arrays ((dat1 V c).arrAt · cfg1.N)
      ⊢ (Pipeline.arrBufs (Ix := Unit) (Name := ℕ) (U := UR sig nD τ) (Lvl := ℕ) spec1 c V' : sProp 𝕄) := by
  unfold Pipeline.arrBufs Dat.arrays
  rw [arrs1_sep, bigSep_W1]
  rw [(arr_whole1 0).set_eq_univ, (arr_whole1 2).set_eq_univ]
  rw [show (dat1 V c).share 0 = fullShare.left from rfl, show (dat1 V c).share 1 = fullShare.right from rfl,
    show (dat1 V c).share 2 = fullShare from rfl]
  rw [h0, h1]
  dsimp only
  rw [(dat1 V c).arrAt_in 0 rfl cfg1.N, (dat1 V c).arrAt_in 1 rfl cfg1.N, A_eq1, A_eq1]
  iintro ⟨Hl, Hr, H1⟩
  isplitl [Hl Hr]
  · iapply (pointsTo_share (PosShare.mem_left_op_right fullShare)).2
    isplitl [Hl]; · iexact Hl
    iexact Hr
  iexact H1

end Cert.KernelIdeal.Final

end
-- ==== Proof.KernelRun.lean ====
/-
  The program's run: both kernel regions and the closing broadcast, from the launch to the return.

  The program is region 0 (the two first-level products, stacked), region 1 (the product of the two slabs) and one
  host operation that adds a leading unit axis. Between two of these items every unscoped buffer of the core is held
  whole at named contents: the launch memory; then the stacked intermediate at what region 0's write-backs leave;
  then the result at what region 1's write-backs leave; then the host operation applied. Read against the final state
  this gives every unscoped buffer's final contents, the argument arrays among them unchanged.
-/
import proofs.«126094_g2000509712423811_pallasbulk_371_15_alg».proof.Proof.Gen.KernelIdeal.Launch
import proofs.«126094_g2000509712423811_pallasbulk_371_15_alg».proof.Proof.Gen.KernelIdeal.Skeleton
import proofs.«126094_g2000509712423811_pallasbulk_371_15_alg».proof.Proof.Gen.KernelIdeal.Points
import proofs.«126094_g2000509712423811_pallasbulk_371_15_alg».proof.Proof.PairRegion
import proofs.«126094_g2000509712423811_pallasbulk_371_15_alg».proof.Proof.FinalShares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Pair Cert.KernelIdeal.Final

variable (m : (ℓ : Loc nD τ sig) → Buf (Elt F) ℓ) (ρ : Dev nD → PrngReg)

/-! ## The buffers' contents between the items -/

/-- Core `c`'s buffers at launch. -/
abbrev W0 : Dev nD → Valuation τ sig (Elt F) := fun c b => m ((c : Dev nD), b)
abbrev V0 : (c : Dev nD) → (b : Ref sig .tc) → Buf (Elt F) ((c : Thread nD τ).loc b) := fun c b => W0 m c b
/-- After region 0: its arrays at what its write-backs leave, every other buffer as launched. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After region 1: the result's buffer at what its write-backs leave, every other buffer as region 1 found it. -/
def W2 (c : Dev nD) : Valuation τ sig (Elt F) :=
  Function.update (W1 m c) (Proc.devRef .tc main_v1) ((dat1 (V1 m) c).arrAt 2 cfg1.N)
abbrev V2 : (c : Dev nD) → (b : Ref sig .tc) → Buf (Elt F) ((c : Thread nD τ).loc b) := fun c b => W2 m c b
theorem W2_v1 (c : Dev nD) : W2 m c (Proc.devRef .tc main_v1) = (dat1 (V1 m) c).arrAt 2 cfg1.N := by
  unfold W2; exact Function.update_self ..
theorem W2_of_ne (c : Dev nD) (b : Ref sig .tc) (hb : b ≠ main_v1) : W2 m c (Proc.devRef .tc b) = W1 m c (Proc.devRef .tc b) := by
  unfold W2; exact Function.update_of_ne (StableHlo.devRef_ne_of_ne hb) ..
/-- After the closing host operation. -/
abbrev W3 : Dev nD → Valuation τ sig (Elt F) := fun c => StableHlo.after hostOps2 (W2 m c)

/-! ## The proof data family and what rides beside the buffers -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- The generator register at some state and the core owing nothing. -/
abbrev R (c : Dev nD) : sProp 𝕄 := iprop((∃ r, prngReg c r) ∗ ∃ W, owes (c : Thread nD τ) (0 : CellTallies nD τ sig Unit) W)

theorem hostOps2_fresh : (hostOps2 : List (HloOp τ sig (Elt F))).Forall fun op => op.fresh = ∅ := by
  simp only [List.Forall]; repeat' constructor

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W3 m c) ∗ ∃ r, prngReg c r)

/-! ## Region 0 as a segment -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V0 m) c)
    unfold Pipeline.ΦA
    iintro ⟨Hp, -, Hr⟩
    isplitl [Hr]; · iexact Hr
    iexact Hp
  hout c := by
    rw [Pipeline.ownSems0_none]
    refine BIBase.Entails.trans (hout0 (V0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 as a segment: its two input windows share the stacked intermediate -/

theorem hrest1 (c : Dev nD) : ∀ b, b ∉ Finset.univ.image (Pipeline.arrRef spec1) → V2 m c b = V1 m c b :=
  fun b hb => W2_of_ne m c b fun e => hb (e ▸ (by decide : main_v1 ∈ Finset.univ.image (Pipeline.arrRef spec1)))

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hub := Pipeline.unscopedBufs_split₀ (Ix := Unit) (Name := ℕ) (U := UR sig nD τ) (Lvl := ℕ) (Val := Elt F) cfgs (1 : Fin 2) winFacts₀1.arr_unscoped c (V1 m c)
    rw [Pipeline.unscopedBufs_held] at hub
    have hsp : StableHlo.held (c : Thread nD τ) (Pipeline.ucRefs τ sig) (W1 m c)
        ⊢ (iprop((pdats m 1 c).arrays ((pdats m 1 c).arrAt · 0) ∗ Pipeline.unscopedRest spec1 c (V1 m c)) : sProp 𝕄) := by
      rw [hub]; exact sep_mono (hsplit1 (V1 m) c) .rfl
    iintro ⟨⟨Hub, Hp, HO⟩, -, -⟩
    ihave H := hsp $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V1 m) c)
    unfold Pipeline.ΦA
    iintro ⟨Hp, -, Hr⟩
    isplitl [Hr]; · iexact Hr
    iexact Hp
  hout c := by
    rw [Pipeline.ownSems0_none]
    refine BIBase.Entails.trans (hout1 (V1 m) c) ?_
    unfold Pipeline.ΦA
    iintro ⟨Hr, Hp⟩
    isplitl [Hp]; · iexact Hp
    isplitr; · iempintro
    iexact Hr
  hexit c := by
    have hub := Pipeline.unscopedBufs_split₀ (Ix := Unit) (Name := ℕ) (U := UR sig nD τ) (Lvl := ℕ) (Val := Elt F) cfgs (1 : Fin 2) winFacts₀1.arr_unscoped c (V2 m c)
    rw [Pipeline.unscopedBufs_held] at hub
    have hr : (Pipeline.unscopedRest (Ix := Unit) (Name := ℕ) (U := UR sig nD τ) (Lvl := ℕ) spec1 c (V1 m c) : sProp 𝕄)
        = Pipeline.unscopedRest spec1 c (V2 m c) := by
      unfold Pipeline.unscopedRest
      exact bigSep_congr fun b hb => by rw [hrest1 m c b (Finset.mem_sdiff.mp hb).2]
    have hj : (iprop((pdats m 1 c).arrays ((pdats m 1 c).arrAt · cfg1.N) ∗ Pipeline.unscopedRest spec1 c (V1 m c)) : sProp 𝕄)
        ⊢ StableHlo.held (c : Thread nD τ) (Pipeline.ucRefs τ sig) (W2 m c) := by
      rw [hub, hr]; exact sep_mono (hjoin1 (V1 m) c (V2 m c) (W2_of_ne m c main_v0 (by decide)) (W2_v1 m c)) .rfl
    iintro ⟨Ha, HO, HY, Hrest⟩
    imodintro
    isplitl [Ha Hrest]
    · iapply hj; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .region (reg0 m), .region (reg1 m), .host (hseg hostOps2 hostOps2_sub hostOps2_fresh (W2 m)) ]

theorem main_run (c : Dev nD) : main (F := F) c = Pipeline.Seg.run (segs m) := (main_chain c).trans (by chain_rfl)

set_option backward.isDefEq.respectTransparency.types false in
/-- Every weakly fair execution of @main from memory `m` with zero counters terminates, nothing faulting, and every
    unscoped buffer of every core ends at the last named contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => (show iprop(StableHlo.held (c : Thread nD τ) (Pipeline.ucRefs τ sig) (W3 m c) ∗ R c)
          ⊢ iprop(Tₙ m c ∗ ∃ W, owes (c : Thread nD τ) (0 : CellTallies nD τ sig Unit) W) from by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.KernelIdeal.Run

end
-- ==== Proof.KernelResult.lean ====
/-
  What the program's run leaves: the arguments as launched and the result as the closing broadcast of region 1's output.

  The last named contents of the run are the closing host operation applied to the contents after region 1. No item
  writes an argument array: the host operation writes only the result, region 1 changes only its output buffer, and
  region 0 reads the arguments through input windows, which leave their arrays as found.
-/
import proofs.«126094_g2000509712423811_pallasbulk_371_15_alg».proof.Proof.Gen.KernelIdeal.Launch
import proofs.«126094_g2000509712423811_pallasbulk_371_15_alg».proof.Proof.Gen.KernelIdeal.Skeleton
import proofs.«126094_g2000509712423811_pallasbulk_371_15_alg».proof.Proof.Gen.KernelIdeal.Points
import proofs.«126094_g2000509712423811_pallasbulk_371_15_alg».proof.Proof.KernelRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Pair Cert.KernelIdeal.Final Cert.KernelIdeal.Run

variable (m : (ℓ : Loc nD τ sig) → Buf (Elt F) ℓ) (ρ : Dev nD → PrngReg)

/-- The closing host operation writes only the result buffer. -/
theorem W3_of_ne (c : Dev nD) (b : Ref sig .tc) (hb : b ≠ main_v2) : W3 m c (Proc.devRef .tc b) = W2 m c (Proc.devRef .tc b) :=
  StableHlo.after_of_forall_not_mem (b := Proc.devRef .tc b) _ _ (List.forall_iff_forall_mem.mp (by
    simp only [hostOps2, List.Forall, StableHlo.unary_writes, Finset.mem_singleton]
    exact StableHlo.devRef_ne_of_ne hb))

/-- An argument read through input window `w` of region 0 ends as launched. -/
theorem W3_arg (c : Dev nD) (w : Fin cfg0.W) (hw : (cfg0.win w).isOut = false) (h2 : Pipeline.arrRef spec0 w ≠ main_v2) (h1 : Pipeline.arrRef spec0 w ≠ main_v1) :
    W3 m c (Proc.devRef .tc (Pipeline.arrRef spec0 w)) = W0 m c (Proc.devRef .tc (Pipeline.arrRef spec0 w)) :=
  (W3_of_ne m c _ h2).trans <| (W2_of_ne m c _ h1).trans <| (W1_arr m c w).trans <|
    ((dat0 (V0 m) c).arrAt_in w hw _).trans (A_eq0 (V0 m) c w)

theorem W3_arg3 (c : Dev nD) : W3 m c (Proc.devRef .tc main_arg3) = m ((c : Thread nD τ).loc main_arg3) := W3_arg m c 0 rfl (by decide) (by decide)
theorem W3_arg2 (c : Dev nD) : W3 m c (Proc.devRef .tc main_arg2) = m ((c : Thread nD τ).loc main_arg2) := W3_arg m c 1 rfl (by decide) (by decide)
theorem W3_arg1 (c : Dev nD) : W3 m c (Proc.devRef .tc main_arg1) = m ((c : Thread nD τ).loc main_arg1) := W3_arg m c 2 rfl (by decide) (by decide)
theorem W3_arg0 (c : Dev nD) : W3 m c (Proc.devRef .tc main_arg0) = m ((c : Thread nD τ).loc main_arg0) := W3_arg m c 3 rfl (by decide) (by decide)

/-- The result buffer ends at the broadcast of region 1's output. -/
theorem W3_v2 (c : Dev nD) :
    (W3 m c (Proc.devRef .tc main_v2) : (⟨S1x2048x2048, .f32⟩ : BufTy).Contents (Elt F))
      = broadcastInDim S1x2048x2048 ![1, 2] bcast_S2048x2048_S1x2048x2048_1_2 (W2 m c (Proc.devRef .tc main_v1)) := by
  show StableHlo.after hostOps2 (W2 m c) (Proc.devRef .tc main_v2) = _
  after_results
  all_goals rfl

/-- The run with the result named: the result buffer at the broadcast of region 1's output, the arguments as launched. -/
theorem run_named : θ_run defs (onTc (τ := τ) (main (F := F))) ⟨m, fun _ => 0, ρ⟩ (fun r => ∀ c : Dev nD,
      r.2.mem ((c.tc : Thread nD τ).loc main_v2) = broadcastInDim S1x2048x2048 ![1, 2] bcast_S2048x2048_S1x2048x2048_1_2 (W2 m c (Proc.devRef .tc main_v1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v2 (by decide))).trans (W3_v2 m c),
     (h c _ (mem_uc main_arg0 (by decide))).trans (W3_arg0 m c),
     (h c _ (mem_uc main_arg1 (by decide))).trans (W3_arg1 m c),
     (h c _ (mem_uc main_arg2 (by decide))).trans (W3_arg2 m c),
     (h c _ (mem_uc main_arg3 (by decide))).trans (W3_arg3 m c)⟩) (run m ρ)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_named m ρ)

end Cert.KernelIdeal.Result

end
-- ==== Proof.TiledRegion0.lean ====
/-
  Region 0 of the reference program (custom_call 0, the tiled matrix product on the grid (8,4,4)), at a parameter
  `V` — the TensorCore's buffer contents when the region is entered. A point (i, j, kk) multiplies the [256,512] block
  (i, kk) of the left array by the [512,512] block (kk, j) of the right array; the scratch accumulator is reset to zero at
  kk = 0, the product is added to it at every point, and the output block (i, j) is stored from it at every point; the
  pipeline writes the block back after kk = 3. Two cases of the one conditional: A (kk = 0) and B (kk ≠ 0, the scratch at
  what the point before left). Stated at any float instance `F`.
-/
import proofs.«126094_g2000509712423811_pallasbulk_371_15_alg».proof.Proof.Gen.ReferenceIdeal.Launch
import proofs.«126094_g2000509712423811_pallasbulk_371_15_alg».proof.Proof.Gen.ReferenceIdeal.Skeleton
import proofs.«126094_g2000509712423811_pallasbulk_371_15_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Tiled0

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's one condition: kk = 0 -/

/-- The condition of the body's conditional, from the grid coordinates. -/
abbrev cond0 (i : grid0.Coords) : Prop := (Scalar.cmpi .ne (Scalar.extui (Scalar.cmpi .eq (BitVec.ofNat 32 (i 2).val) 0#32)) 0#32) = 1#1
/-- It holds at the points ≡ 0 (mod 4): those with kk = 0. -/
theorem hcond0 : ∀ t : Fin cfg0.N, cond0 (grid0.coords t) ↔ t.val % 4 = 0 :=
  (by decide +kernel : ∀ t : Fin grid0.N, cond0 (grid0.coords t) ↔ t.val % 4 = 0)

/-! ## The scratch accumulator -/

/-- The scratch operand: a whole scoped buffer of the kernel's own, passed beside the windows. -/
abbrev scM0 : Memref sig .tc .vmem S256x512 .f32 := Memref.whole cc0_scratch0
/-- The scratch as a view: what it holds is stated through it. -/
abbrev VS0 : View sig .tc .vmem S256x512 .f32 := (scM0).view
/-- One staging buffer of the output window, through which its contents are stated. -/
abbrev VO0 : View sig .tc .vmem S256x512 .f32 := (Memref.whole cc0_stg2_0 : Memref sig .tc .vmem S256x512 .f32).view

/-- The scoped rest split at the call's own scratch, whole at some contents; every other scoped buffer (the other
    calls' staging buffers and scratch) unopened. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

/-- Every scoped buffer that is neither a staging buffer of this call nor its scratch, at some contents each. -/
abbrev rest0 (c : Dev nD) : sProp 𝕄 :=
  Pipeline.scopedRestBut (Ix := Unit) (Name := ℕ) (U := UR sig nD τ) (Lvl := ℕ) (Val := Elt F) spec0 c [cc0_scratch0]

/-- The class's invariant with the scratch as a memref owned at some contents. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA; rw [scopedRest0_split]; simp only [scM0, owns_whole]; try rfl

/-! ## The body's runs, one per case -/

set_option maxHeartbeats 4000000 in
/-- CASE A (kk = 0). On whole memrefs — the two inputs' at their contents, the output's and the scratch at anything —
    the body runs to the continuation holding the inputs' as they were and the output's and the scratch with the
    pieces its stores wrote (last first); the pieces are the witness the run finds. -/
noncomputable def kernelRun0_A (c : Dev nD) (i : grid0.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc : cond0 i)
    (x0 : Vec F S256x512 .f32) (x1 : Vec F S512x512 .f32) :
    Σ' (L2 : List (View.Piece (Elt F) S256x512 .f32)), { LS : List (View.Piece (Elt F) S256x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc0__tiled_matmul_kernel i arg3 harg3 arg4 harg4 arg5 harg5 arg6 harg6) K } := by
  refine ⟨?_, ?_, fun E K => ?run⟩
  case run =>
    simp only [cc0__tiled_matmul_kernel_eq_skeleton]; unfold cc0__tiled_matmul_kernel_skel
    unfold owns
    iintro ⟨⟨%f0, %hf0, H0⟩, ⟨%f1, %hf1, H1⟩, ⟨%d2, %f2, -, H2⟩, ⟨%ds, %fs, -, HS⟩, Hk⟩
    obtain rfl := harg3.eq_unread hf0; obtain rfl := harg4.eq_unread hf1
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

set_option maxHeartbeats 4000000 in
/-- CASE B (kk ≠ 0). The same with the scratch at the contents `xs` the point before left. -/
noncomputable def kernelRun0_B (c : Dev nD) (i : grid0.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc : ¬cond0 i)
    (x0 : Vec F S256x512 .f32) (x1 : Vec F S512x512 .f32) (xs : Vec F S256x512 .f32) :
    Σ' (L2 : List (View.Piece (Elt F) S256x512 .f32)), { LS : List (View.Piece (Elt F) S256x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc0__tiled_matmul_kernel i arg3 harg3 arg4 harg4 arg5 harg5 arg6 harg6) K } := by
  refine ⟨?_, ?_, fun E K => ?run⟩
  case run =>
    simp only [cc0__tiled_matmul_kernel_eq_skeleton]; unfold cc0__tiled_matmul_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

/-! ## The memrefs the pipeline calls the body with -/

/-- Each window's current staging memref at point `t`, spelled as the pipeline passes it, and its wholeness. -/
abbrev ms0_0 (t : Fin cfg0.N) : Memref sig .tc .vmem S256x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x512 .f32 := win0_2.stage (cfg0.slots t 2)
abbrev hs0_2 (t : Fin cfg0.N) : (ms0_2 t).IsWhole := hstage0_2 ((cfg0.slots t 2).cast nbuf0_2)

/-! ## What each case leaves -/

/-- Case A's pieces for the output window tile its block (one covering store), so they cover it. -/
theorem cover0_A_2 (c : Dev nD) (i : grid0.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc : cond0 i)
    (x0 : Vec F S256x512 .f32) (x1 : Vec F S512x512 .f32) (y : S256x512.Idx) :
    ∃ pc ∈ (kernelRun0_A c i arg3 harg3 arg4 harg4 arg5 harg5 arg6 harg6 hc x0 x1).1, y ∈ pc.1.set :=
  View.cover_of_tiledL (kernelRun0_A c i arg3 harg3 arg4 harg4 arg5 harg5 arg6 harg6 hc x0 x1).1 S256x512.size (by sl_kernel_rfl) y

/-- What case A leaves in the output window's staging buffer: its pieces read back over junk. -/
def out0_A_2 (c : Dev nD) (i : grid0.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc : cond0 i)
    (x0 : Vec F S256x512 .f32) (x1 : Vec F S512x512 .f32) : Vec F S256x512 .f32 :=
  VO0.read (Elt F) (VO0.writes (Elt F) VO0.junk (kernelRun0_A c i arg3 harg3 arg4 harg4 arg5 harg5 arg6 harg6 hc x0 x1).1)

/-- Case A's pieces for the scratch cover it. -/
theorem scover0_A (c : Dev nD) (i : grid0.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc : cond0 i)
    (x0 : Vec F S256x512 .f32) (x1 : Vec F S512x512 .f32) (y : S256x512.Idx) :
    ∃ pc ∈ (kernelRun0_A c i arg3 harg3 arg4 harg4 arg5 harg5 arg6 harg6 hc x0 x1).2.1, y ∈ pc.1.set :=
  View.cover_of_tiledL (kernelRun0_A c i arg3 harg3 arg4 harg4 arg5 harg5 arg6 harg6 hc x0 x1).2.1 S256x512.size (by sl_kernel_rfl) y

/-- What case A leaves in the scratch: its pieces read back over junk. -/
def sout0_A (c : Dev nD) (i : grid0.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc : cond0 i)
    (x0 : Vec F S256x512 .f32) (x1 : Vec F S512x512 .f32) : Vec F S256x512 .f32 :=
  VS0.read (Elt F) (VS0.writes (Elt F) VS0.junk (kernelRun0_A c i arg3 harg3 arg4 harg4 arg5 harg5 arg6 harg6 hc x0 x1).2.1)

/-- Case B's pieces for the output window tile its block (one covering store), so they cover it. -/
theorem cover0_B_2 (c : Dev nD) (i : grid0.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc : ¬cond0 i)
    (x0 : Vec F S256x512 .f32) (x1 : Vec F S512x512 .f32) (xs : Vec F S256x512 .f32) (y : S256x512.Idx) :
    ∃ pc ∈ (kernelRun0_B c i arg3 harg3 arg4 harg4 arg5 harg5 arg6 harg6 hc x0 x1 xs).1, y ∈ pc.1.set :=
  View.cover_of_tiledL (kernelRun0_B c i arg3 harg3 arg4 harg4 arg5 harg5 arg6 harg6 hc x0 x1 xs).1 S256x512.size (by sl_kernel_rfl) y

/-- What case B leaves in the output window's staging buffer: its pieces read back over junk. -/
def out0_B_2 (c : Dev nD) (i : grid0.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc : ¬cond0 i)
    (x0 : Vec F S256x512 .f32) (x1 : Vec F S512x512 .f32) (xs : Vec F S256x512 .f32) : Vec F S256x512 .f32 :=
  VO0.read (Elt F) (VO0.writes (Elt F) VO0.junk (kernelRun0_B c i arg3 harg3 arg4 harg4 arg5 harg5 arg6 harg6 hc x0 x1 xs).1)

/-- Case B's pieces for the scratch cover it. -/
theorem scover0_B (c : Dev nD) (i : grid0.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc : ¬cond0 i)
    (x0 : Vec F S256x512 .f32) (x1 : Vec F S512x512 .f32) (xs : Vec F S256x512 .f32) (y : S256x512.Idx) :
    ∃ pc ∈ (kernelRun0_B c i arg3 harg3 arg4 harg4 arg5 harg5 arg6 harg6 hc x0 x1 xs).2.1, y ∈ pc.1.set :=
  View.cover_of_tiledL (kernelRun0_B c i arg3 harg3 arg4 harg4 arg5 harg5 arg6 harg6 hc x0 x1 xs).2.1 S256x512.size (by sl_kernel_rfl) y

/-- What case B leaves in the scratch: its pieces read back over junk. -/
def sout0_B (c : Dev nD) (i : grid0.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc : ¬cond0 i)
    (x0 : Vec F S256x512 .f32) (x1 : Vec F S512x512 .f32) (xs : Vec F S256x512 .f32) : Vec F S256x512 .f32 :=
  VS0.read (Elt F) (VS0.writes (Elt F) VS0.junk (kernelRun0_B c i arg3 harg3 arg4 harg4 arg5 harg5 arg6 harg6 hc x0 x1 xs).2.1)

/-! ## What the output's buffer and the scratch hold after each point -/

/-- THE ACCUMULATION. What the output window's staging buffer and the scratch hold after the body at position `n`
    (a pair: the output, then the scratch): case A at the points with kk = 0, else case B over what the point before
    left in the scratch. -/
def outsAt0 (c : Dev nD) : (n : ℕ) → n < cfg0.N → Vec F S256x512 .f32 × Vec F S256x512 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0 ⟨0, hn⟩).mpr (Nat.zero_mod _)) (iblk0 V c 0 ⟨0, hn⟩) (iblk0 V c 1 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0 ⟨0, hn⟩).mpr (Nat.zero_mod _)) (iblk0 V c 0 ⟨0, hn⟩) (iblk0 V c 1 ⟨0, hn⟩))
  | n + 1, hn =>
    if h0 : (n + 1) % 4 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0 ⟨n + 1, hn⟩).mpr h0) (iblk0 V c 0 ⟨n + 1, hn⟩) (iblk0 V c 1 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0 ⟨n + 1, hn⟩).mpr h0) (iblk0 V c 0 ⟨n + 1, hn⟩) (iblk0 V c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0 ⟨n + 1, hn⟩).mp h)) (iblk0 V c 0 ⟨n + 1, hn⟩) (iblk0 V c 1 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0 ⟨n + 1, hn⟩).mp h)) (iblk0 V c 0 ⟨n + 1, hn⟩) (iblk0 V c 1 ⟨n + 1, hn⟩) (outsAt0 c n (Nat.lt_of_succ_lt hn)).2)

/-- `outsAt0` at a point of case A: that case's contents. -/
theorem outsAt0_A (c : Dev nD) (t : Fin cfg0.N) (h0 : t.val % 4 = 0) :
    outsAt0 V c t.val t.isLt = (out0_A_2 c (grid0.coords t) (ms0_0 t) (hs0_0 t) (ms0_1 t) (hs0_1 t) (ms0_2 t) (hs0_2 t) scM0 (Memref.isWhole_whole _) ((hcond0 t).mpr h0) (iblk0 V c 0 t) (iblk0 V c 1 t), sout0_A c (grid0.coords t) (ms0_0 t) (hs0_0 t) (ms0_1 t) (hs0_1 t) (ms0_2 t) (hs0_2 t) scM0 (Memref.isWhole_whole _) ((hcond0 t).mpr h0) (iblk0 V c 0 t) (iblk0 V c 1 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 4 = 0) :
    outsAt0 V c t.val t.isLt = (out0_B_2 c (grid0.coords t) (ms0_0 t) (hs0_0 t) (ms0_1 t) (hs0_1 t) (ms0_2 t) (hs0_2 t) scM0 (Memref.isWhole_whole _) (fun h => h0 ((hcond0 t).mp h)) (iblk0 V c 0 t) (iblk0 V c 1 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) scM0 (Memref.isWhole_whole _) (fun h => h0 ((hcond0 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n`: before the first point the class's (the scratch at anything);
    afterwards the scratch at what the point before left in it, the other scoped buffers at anything, and the generator
    register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the scratch at that point's contents. -/
theorem PhiS0_succ (c : Dev nD) (n : ℕ) (hn : n < cfg0.N) :
    PhiS0 V c (n + 1) hn = iprop(iprop(owns (c : Thread nD τ) scM0 fullShare ((outsAt0 V c n hn).2) ∗ rest0 c) ∗ (∃ r, prngReg c r)) := rfl

/-- Before a point that is not the first: the scratch at what the point before left. -/
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ rest0 c) ∗ (∃ r, prngReg c r)) := by
  cases n with
  | zero => exact absurd rfl hz
  | succ n => rfl

/-! ## The pipeline's proof data -/

/-- The proof data of pipeline 0 on core `c`: the arrays as the region finds them (`V`); after the body at point
    `t` each input's buffer at its block and the output's at `outsAt0`'s first component; the invariant `PhiS0`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

/-- Each input's current staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 4800000 in
/-- The body at any point: the inputs' memrefs hold their blocks; the closed form says which case the point is in; the
    invariant hands the body the scratch at what the point before left (at anything at the first point) and takes it
    back at this point's contents; the other scoped buffers, the generator register and what the core owes pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2]
  have hN : t.val < 128 := lt_of_lt_of_eq t.isLt (show cfg0.N = 128 from N_0)
  by_cases h0 : t.val % 4 = 0
  · rw [outsAt0_A V c t h0]
    unfold out0_A_2 sout0_A; (try dsimp only)
    by_cases hz : t.val = 0
    · rw [PhiS0_castSucc V c t, PhiS0_zero V c _ _ hz, PhiA0_eq]
      iintro ⟨⟨⟨HS, Hr⟩, Hg⟩, Ho, ⟨%d0, H0⟩, ⟨%d1, H1⟩, ⟨%d2, H2⟩⟩
      iapply ((kernelRun0_A c (grid0.coords t) _ _ _ _ _ _ _ _ ((hcond0 t).mpr h0) (iblk0 V c 0 t) (iblk0 V c 1 t)).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hr Hg]
      · isplitr [Hg]
        · isplitl [HS]
          · unfold owns; iexists _; isplitr
            swap; · iexact HS
            ipureintro; exact View.read_writes_of_cover _ _ _ _ _ (scover0_A c _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A_2 c _ _ _ _ _ _ _ _ _ _ _ _)
    · rw [PhiS0_castSucc V c t, PhiS0_pos V c _ _ hz]
      iintro ⟨⟨⟨HS, Hr⟩, Hg⟩, Ho, ⟨%d0, H0⟩, ⟨%d1, H1⟩, ⟨%d2, H2⟩⟩
      iapply ((kernelRun0_A c (grid0.coords t) _ _ _ _ _ _ _ _ ((hcond0 t).mpr h0) (iblk0 V c 0 t) (iblk0 V c 1 t)).2.2 Set.univ _)
      isplitl [H0]; · iexact H0
      isplitl [H1]; · iexact H1
      isplitl [H2]; · iexists _; iexact H2
      isplitl [HS]; · iexists _; iexact HS
      iintro ⟨H0, H1, ⟨%e2, H2⟩, ⟨%es, HS⟩⟩
      isplitl [HS Hr Hg]
      · isplitr [Hg]
        · isplitl [HS]
          · unfold owns; iexists _; isplitr
            swap; · iexact HS
            ipureintro; exact View.read_writes_of_cover _ _ _ _ _ (scover0_A c _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A_2 c _ _ _ _ _ _ _ _ _ _ _ _)
  · rw [outsAt0_B V c t h0]
    unfold out0_B_2 sout0_B; (try dsimp only)
    have hz : t.val ≠ 0 := fun e => h0 (by rw [e])
    rw [PhiS0_castSucc V c t, PhiS0_pos V c _ _ hz]
    iintro ⟨⟨⟨HS, Hr⟩, Hg⟩, Ho, ⟨%d0, H0⟩, ⟨%d1, H1⟩, ⟨%d2, H2⟩⟩
    iapply ((kernelRun0_B c (grid0.coords t) _ _ _ _ _ _ _ _ (fun h => h0 ((hcond0 t).mp h)) (iblk0 V c 0 t) (iblk0 V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hr Hg]
    · isplitr [Hg]
      · isplitl [HS]
        · unfold owns; iexists _; isplitr
          swap; · iexact HS
          ipureintro; exact View.read_writes_of_cover _ _ _ _ _ (scover0_B c _ _ _ _ _ _ _ _ _ _ _ _ _)
        iexact Hr
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, Hr⟩, Hg⟩
  isplitr [Hg]
  · isplitl [HS]
    · iexists _; iexact HS
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 128 := N_0; omega)

end Cert.ReferenceIdeal.Tiled0

end
-- ==== Proof.TiledRegion1.lean ====
/-
  Region 0 of the reference program (custom_call 0, the tiled matrix product on the grid (8,4,4)), at a parameter
  `V` — the TensorCore's buffer contents when the region is entered. A point (i, j, kk) multiplies the [256,512] block
  (i, kk) of the left array by the [512,512] block (kk, j) of the right array; the scratch accumulator is reset to zero at
  kk = 0, the product is added to it at every point, and the output block (i, j) is stored from it at every point; the
  pipeline writes the block back after kk = 3. Two cases of the one conditional: A (kk = 0) and B (kk ≠ 0, the scratch at
  what the point before left). Stated at any float instance `F`.
-/
import proofs.«126094_g2000509712423811_pallasbulk_371_15_alg».proof.Proof.Gen.ReferenceIdeal.Launch
import proofs.«126094_g2000509712423811_pallasbulk_371_15_alg».proof.Proof.Gen.ReferenceIdeal.Skeleton
import proofs.«126094_g2000509712423811_pallasbulk_371_15_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Tiled1

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's one condition: kk = 0 -/

/-- The condition of the body's conditional, from the grid coordinates. -/
abbrev cond1 (i : grid1.Coords) : Prop := (Scalar.cmpi .ne (Scalar.extui (Scalar.cmpi .eq (BitVec.ofNat 32 (i 2).val) 0#32)) 0#32) = 1#1
/-- It holds at the points ≡ 0 (mod 4): those with kk = 0. -/
theorem hcond1 : ∀ t : Fin cfg1.N, cond1 (grid1.coords t) ↔ t.val % 4 = 0 :=
  (by decide +kernel : ∀ t : Fin grid1.N, cond1 (grid1.coords t) ↔ t.val % 4 = 0)

/-! ## The scratch accumulator -/

/-- The scratch operand: a whole scoped buffer of the kernel's own, passed beside the windows. -/
abbrev scM1 : Memref sig .tc .vmem S256x512 .f32 := Memref.whole cc1_scratch0
/-- The scratch as a view: what it holds is stated through it. -/
abbrev VS1 : View sig .tc .vmem S256x512 .f32 := (scM1).view
/-- One staging buffer of the output window, through which its contents are stated. -/
abbrev VO1 : View sig .tc .vmem S256x512 .f32 := (Memref.whole cc1_stg2_0 : Memref sig .tc .vmem S256x512 .f32).view

/-- The scoped rest split at the call's own scratch, whole at some contents; every other scoped buffer (the other
    calls' staging buffers and scratch) unopened. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- Every scoped buffer that is neither a staging buffer of this call nor its scratch, at some contents each. -/
abbrev rest1 (c : Dev nD) : sProp 𝕄 :=
  Pipeline.scopedRestBut (Ix := Unit) (Name := ℕ) (U := UR sig nD τ) (Lvl := ℕ) (Val := Elt F) spec1 c [cc1_scratch0]

/-- The class's invariant with the scratch as a memref owned at some contents. -/
theorem PhiA1_eq (c : Dev nD) :
    (Pipeline.ΦA spec1 c : sProp 𝕄)
      = iprop(iprop((∃ d, owns (c : Thread nD τ) scM1 fullShare d) ∗ rest1 c) ∗ (∃ r, prngReg c r)) := by
  unfold Pipeline.ΦA; rw [scopedRest1_split]; simp only [scM1, owns_whole]; try rfl

/-! ## The body's runs, one per case -/

set_option maxHeartbeats 4000000 in
/-- CASE A (kk = 0). On whole memrefs — the two inputs' at their contents, the output's and the scratch at anything —
    the body runs to the continuation holding the inputs' as they were and the output's and the scratch with the
    pieces its stores wrote (last first); the pieces are the witness the run finds. -/
noncomputable def kernelRun1_A (c : Dev nD) (i : grid1.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc : cond1 i)
    (x0 : Vec F S256x512 .f32) (x1 : Vec F S512x512 .f32) :
    Σ' (L2 : List (View.Piece (Elt F) S256x512 .f32)), { LS : List (View.Piece (Elt F) S256x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc1__tiled_matmul_kernel i arg3 harg3 arg4 harg4 arg5 harg5 arg6 harg6) K } := by
  refine ⟨?_, ?_, fun E K => ?run⟩
  case run =>
    simp only [cc1__tiled_matmul_kernel_eq_skeleton]; unfold cc1__tiled_matmul_kernel_skel
    unfold owns
    iintro ⟨⟨%f0, %hf0, H0⟩, ⟨%f1, %hf1, H1⟩, ⟨%d2, %f2, -, H2⟩, ⟨%ds, %fs, -, HS⟩, Hk⟩
    obtain rfl := harg3.eq_unread hf0; obtain rfl := harg4.eq_unread hf1
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

set_option maxHeartbeats 4000000 in
/-- CASE B (kk ≠ 0). The same with the scratch at the contents `xs` the point before left. -/
noncomputable def kernelRun1_B (c : Dev nD) (i : grid1.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc : ¬cond1 i)
    (x0 : Vec F S256x512 .f32) (x1 : Vec F S512x512 .f32) (xs : Vec F S256x512 .f32) :
    Σ' (L2 : List (View.Piece (Elt F) S256x512 .f32)), { LS : List (View.Piece (Elt F) S256x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc1__tiled_matmul_kernel i arg3 harg3 arg4 harg4 arg5 harg5 arg6 harg6) K } := by
  refine ⟨?_, ?_, fun E K => ?run⟩
  case run =>
    simp only [cc1__tiled_matmul_kernel_eq_skeleton]; unfold cc1__tiled_matmul_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

/-! ## The memrefs the pipeline calls the body with -/

/-- Each window's current staging memref at point `t`, spelled as the pipeline passes it, and its wholeness. -/
abbrev ms1_0 (t : Fin cfg1.N) : Memref sig .tc .vmem S256x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x512 .f32 := win1_2.stage (cfg1.slots t 2)
abbrev hs1_2 (t : Fin cfg1.N) : (ms1_2 t).IsWhole := hstage1_2 ((cfg1.slots t 2).cast nbuf1_2)

/-! ## What each case leaves -/

/-- Case A's pieces for the output window tile its block (one covering store), so they cover it. -/
theorem cover1_A_2 (c : Dev nD) (i : grid1.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc : cond1 i)
    (x0 : Vec F S256x512 .f32) (x1 : Vec F S512x512 .f32) (y : S256x512.Idx) :
    ∃ pc ∈ (kernelRun1_A c i arg3 harg3 arg4 harg4 arg5 harg5 arg6 harg6 hc x0 x1).1, y ∈ pc.1.set :=
  View.cover_of_tiledL (kernelRun1_A c i arg3 harg3 arg4 harg4 arg5 harg5 arg6 harg6 hc x0 x1).1 S256x512.size (by sl_kernel_rfl) y

/-- What case A leaves in the output window's staging buffer: its pieces read back over junk. -/
def out1_A_2 (c : Dev nD) (i : grid1.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc : cond1 i)
    (x0 : Vec F S256x512 .f32) (x1 : Vec F S512x512 .f32) : Vec F S256x512 .f32 :=
  VO1.read (Elt F) (VO1.writes (Elt F) VO1.junk (kernelRun1_A c i arg3 harg3 arg4 harg4 arg5 harg5 arg6 harg6 hc x0 x1).1)

/-- Case A's pieces for the scratch cover it. -/
theorem scover1_A (c : Dev nD) (i : grid1.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc : cond1 i)
    (x0 : Vec F S256x512 .f32) (x1 : Vec F S512x512 .f32) (y : S256x512.Idx) :
    ∃ pc ∈ (kernelRun1_A c i arg3 harg3 arg4 harg4 arg5 harg5 arg6 harg6 hc x0 x1).2.1, y ∈ pc.1.set :=
  View.cover_of_tiledL (kernelRun1_A c i arg3 harg3 arg4 harg4 arg5 harg5 arg6 harg6 hc x0 x1).2.1 S256x512.size (by sl_kernel_rfl) y

/-- What case A leaves in the scratch: its pieces read back over junk. -/
def sout1_A (c : Dev nD) (i : grid1.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc : cond1 i)
    (x0 : Vec F S256x512 .f32) (x1 : Vec F S512x512 .f32) : Vec F S256x512 .f32 :=
  VS1.read (Elt F) (VS1.writes (Elt F) VS1.junk (kernelRun1_A c i arg3 harg3 arg4 harg4 arg5 harg5 arg6 harg6 hc x0 x1).2.1)

/-- Case B's pieces for the output window tile its block (one covering store), so they cover it. -/
theorem cover1_B_2 (c : Dev nD) (i : grid1.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc : ¬cond1 i)
    (x0 : Vec F S256x512 .f32) (x1 : Vec F S512x512 .f32) (xs : Vec F S256x512 .f32) (y : S256x512.Idx) :
    ∃ pc ∈ (kernelRun1_B c i arg3 harg3 arg4 harg4 arg5 harg5 arg6 harg6 hc x0 x1 xs).1, y ∈ pc.1.set :=
  View.cover_of_tiledL (kernelRun1_B c i arg3 harg3 arg4 harg4 arg5 harg5 arg6 harg6 hc x0 x1 xs).1 S256x512.size (by sl_kernel_rfl) y

/-- What case B leaves in the output window's staging buffer: its pieces read back over junk. -/
def out1_B_2 (c : Dev nD) (i : grid1.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc : ¬cond1 i)
    (x0 : Vec F S256x512 .f32) (x1 : Vec F S512x512 .f32) (xs : Vec F S256x512 .f32) : Vec F S256x512 .f32 :=
  VO1.read (Elt F) (VO1.writes (Elt F) VO1.junk (kernelRun1_B c i arg3 harg3 arg4 harg4 arg5 harg5 arg6 harg6 hc x0 x1 xs).1)

/-- Case B's pieces for the scratch cover it. -/
theorem scover1_B (c : Dev nD) (i : grid1.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc : ¬cond1 i)
    (x0 : Vec F S256x512 .f32) (x1 : Vec F S512x512 .f32) (xs : Vec F S256x512 .f32) (y : S256x512.Idx) :
    ∃ pc ∈ (kernelRun1_B c i arg3 harg3 arg4 harg4 arg5 harg5 arg6 harg6 hc x0 x1 xs).2.1, y ∈ pc.1.set :=
  View.cover_of_tiledL (kernelRun1_B c i arg3 harg3 arg4 harg4 arg5 harg5 arg6 harg6 hc x0 x1 xs).2.1 S256x512.size (by sl_kernel_rfl) y

/-- What case B leaves in the scratch: its pieces read back over junk. -/
def sout1_B (c : Dev nD) (i : grid1.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc : ¬cond1 i)
    (x0 : Vec F S256x512 .f32) (x1 : Vec F S512x512 .f32) (xs : Vec F S256x512 .f32) : Vec F S256x512 .f32 :=
  VS1.read (Elt F) (VS1.writes (Elt F) VS1.junk (kernelRun1_B c i arg3 harg3 arg4 harg4 arg5 harg5 arg6 harg6 hc x0 x1 xs).2.1)

/-! ## What the output's buffer and the scratch hold after each point -/

/-- THE ACCUMULATION. What the output window's staging buffer and the scratch hold after the body at position `n`
    (a pair: the output, then the scratch): case A at the points with kk = 0, else case B over what the point before
    left in the scratch. -/
def outsAt1 (c : Dev nD) : (n : ℕ) → n < cfg1.N → Vec F S256x512 .f32 × Vec F S256x512 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1 ⟨0, hn⟩).mpr (Nat.zero_mod _)) (iblk1 V c 0 ⟨0, hn⟩) (iblk1 V c 1 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1 ⟨0, hn⟩).mpr (Nat.zero_mod _)) (iblk1 V c 0 ⟨0, hn⟩) (iblk1 V c 1 ⟨0, hn⟩))
  | n + 1, hn =>
    if h0 : (n + 1) % 4 = 0 then
      (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1 ⟨n + 1, hn⟩).mpr h0) (iblk1 V c 0 ⟨n + 1, hn⟩) (iblk1 V c 1 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1 ⟨n + 1, hn⟩).mpr h0) (iblk1 V c 0 ⟨n + 1, hn⟩) (iblk1 V c 1 ⟨n + 1, hn⟩))
    else
      (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1 ⟨n + 1, hn⟩).mp h)) (iblk1 V c 0 ⟨n + 1, hn⟩) (iblk1 V c 1 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1 ⟨n + 1, hn⟩).mp h)) (iblk1 V c 0 ⟨n + 1, hn⟩) (iblk1 V c 1 ⟨n + 1, hn⟩) (outsAt1 c n (Nat.lt_of_succ_lt hn)).2)

/-- `outsAt1` at a point of case A: that case's contents. -/
theorem outsAt1_A (c : Dev nD) (t : Fin cfg1.N) (h0 : t.val % 4 = 0) :
    outsAt1 V c t.val t.isLt = (out1_A_2 c (grid1.coords t) (ms1_0 t) (hs1_0 t) (ms1_1 t) (hs1_1 t) (ms1_2 t) (hs1_2 t) scM1 (Memref.isWhole_whole _) ((hcond1 t).mpr h0) (iblk1 V c 0 t) (iblk1 V c 1 t), sout1_A c (grid1.coords t) (ms1_0 t) (hs1_0 t) (ms1_1 t) (hs1_1 t) (ms1_2 t) (hs1_2 t) scM1 (Memref.isWhole_whole _) ((hcond1 t).mpr h0) (iblk1 V c 0 t) (iblk1 V c 1 t)) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 4 = 0) :
    outsAt1 V c t.val t.isLt = (out1_B_2 c (grid1.coords t) (ms1_0 t) (hs1_0 t) (ms1_1 t) (hs1_1 t) (ms1_2 t) (hs1_2 t) scM1 (Memref.isWhole_whole _) (fun h => h0 ((hcond1 t).mp h)) (iblk1 V c 0 t) (iblk1 V c 1 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) scM1 (Memref.isWhole_whole _) (fun h => h0 ((hcond1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n`: before the first point the class's (the scratch at anything);
    afterwards the scratch at what the point before left in it, the other scoped buffers at anything, and the generator
    register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch at that point's contents. -/
theorem PhiS1_succ (c : Dev nD) (n : ℕ) (hn : n < cfg1.N) :
    PhiS1 V c (n + 1) hn = iprop(iprop(owns (c : Thread nD τ) scM1 fullShare ((outsAt1 V c n hn).2) ∗ rest1 c) ∗ (∃ r, prngReg c r)) := rfl

/-- Before a point that is not the first: the scratch at what the point before left. -/
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ rest1 c) ∗ (∃ r, prngReg c r)) := by
  cases n with
  | zero => exact absurd rfl hz
  | succ n => rfl

/-! ## The pipeline's proof data -/

/-- The proof data of pipeline 0 on core `c`: the arrays as the region finds them (`V`); after the body at point
    `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each input's current staging buffer holds its block at every point. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 4800000 in
/-- The body at any point: the inputs' memrefs hold their blocks; the closed form says which case the point is in; the
    invariant hands the body the scratch at what the point before left (at anything at the first point) and takes it
    back at this point's contents; the other scoped buffers, the generator register and what the core owes pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2]
  have hN : t.val < 128 := lt_of_lt_of_eq t.isLt (show cfg1.N = 128 from N_1)
  by_cases h0 : t.val % 4 = 0
  · rw [outsAt1_A V c t h0]
    unfold out1_A_2 sout1_A; (try dsimp only)
    by_cases hz : t.val = 0
    · rw [PhiS1_castSucc V c t, PhiS1_zero V c _ _ hz, PhiA1_eq]
      iintro ⟨⟨⟨HS, Hr⟩, Hg⟩, Ho, ⟨%d0, H0⟩, ⟨%d1, H1⟩, ⟨%d2, H2⟩⟩
      iapply ((kernelRun1_A c (grid1.coords t) _ _ _ _ _ _ _ _ ((hcond1 t).mpr h0) (iblk1 V c 0 t) (iblk1 V c 1 t)).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hr Hg]
      · isplitr [Hg]
        · isplitl [HS]
          · unfold owns; iexists _; isplitr
            swap; · iexact HS
            ipureintro; exact View.read_writes_of_cover _ _ _ _ _ (scover1_A c _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_A_2 c _ _ _ _ _ _ _ _ _ _ _ _)
    · rw [PhiS1_castSucc V c t, PhiS1_pos V c _ _ hz]
      iintro ⟨⟨⟨HS, Hr⟩, Hg⟩, Ho, ⟨%d0, H0⟩, ⟨%d1, H1⟩, ⟨%d2, H2⟩⟩
      iapply ((kernelRun1_A c (grid1.coords t) _ _ _ _ _ _ _ _ ((hcond1 t).mpr h0) (iblk1 V c 0 t) (iblk1 V c 1 t)).2.2 Set.univ _)
      isplitl [H0]; · iexact H0
      isplitl [H1]; · iexact H1
      isplitl [H2]; · iexists _; iexact H2
      isplitl [HS]; · iexists _; iexact HS
      iintro ⟨H0, H1, ⟨%e2, H2⟩, ⟨%es, HS⟩⟩
      isplitl [HS Hr Hg]
      · isplitr [Hg]
        · isplitl [HS]
          · unfold owns; iexists _; isplitr
            swap; · iexact HS
            ipureintro; exact View.read_writes_of_cover _ _ _ _ _ (scover1_A c _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_A_2 c _ _ _ _ _ _ _ _ _ _ _ _)
  · rw [outsAt1_B V c t h0]
    unfold out1_B_2 sout1_B; (try dsimp only)
    have hz : t.val ≠ 0 := fun e => h0 (by rw [e])
    rw [PhiS1_castSucc V c t, PhiS1_pos V c _ _ hz]
    iintro ⟨⟨⟨HS, Hr⟩, Hg⟩, Ho, ⟨%d0, H0⟩, ⟨%d1, H1⟩, ⟨%d2, H2⟩⟩
    iapply ((kernelRun1_B c (grid1.coords t) _ _ _ _ _ _ _ _ (fun h => h0 ((hcond1 t).mp h)) (iblk1 V c 0 t) (iblk1 V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hr Hg]
    · isplitr [Hg]
      · isplitl [HS]
        · unfold owns; iexists _; isplitr
          swap; · iexact HS
          ipureintro; exact View.read_writes_of_cover _ _ _ _ _ (scover1_B c _ _ _ _ _ _ _ _ _ _ _ _ _)
        iexact Hr
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, Hr⟩, Hg⟩
  isplitr [Hg]
  · isplitl [HS]
    · iexists _; iexact HS
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.ReferenceIdeal.Tiled1

end
-- ==== Proof.TiledRegion2.lean ====
/-
  Region 0 of the reference program (custom_call 0, the tiled matrix product on the grid (8,4,4)), at a parameter
  `V` — the TensorCore's buffer contents when the region is entered. A point (i, j, kk) multiplies the [256,512] block
  (i, kk) of the left array by the [512,512] block (kk, j) of the right array; the scratch accumulator is reset to zero at
  kk = 0, the product is added to it at every point, and the output block (i, j) is stored from it at every point; the
  pipeline writes the block back after kk = 3. Two cases of the one conditional: A (kk = 0) and B (kk ≠ 0, the scratch at
  what the point before left). Stated at any float instance `F`.
-/
import proofs.«126094_g2000509712423811_pallasbulk_371_15_alg».proof.Proof.Gen.ReferenceIdeal.Launch
import proofs.«126094_g2000509712423811_pallasbulk_371_15_alg».proof.Proof.Gen.ReferenceIdeal.Skeleton
import proofs.«126094_g2000509712423811_pallasbulk_371_15_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Tiled2

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's one condition: kk = 0 -/

/-- The condition of the body's conditional, from the grid coordinates. -/
abbrev cond2 (i : grid2.Coords) : Prop := (Scalar.cmpi .ne (Scalar.extui (Scalar.cmpi .eq (BitVec.ofNat 32 (i 2).val) 0#32)) 0#32) = 1#1
/-- It holds at the points ≡ 0 (mod 4): those with kk = 0. -/
theorem hcond2 : ∀ t : Fin cfg2.N, cond2 (grid2.coords t) ↔ t.val % 4 = 0 :=
  (by decide +kernel : ∀ t : Fin grid2.N, cond2 (grid2.coords t) ↔ t.val % 4 = 0)

/-! ## The scratch accumulator -/

/-- The scratch operand: a whole scoped buffer of the kernel's own, passed beside the windows. -/
abbrev scM2 : Memref sig .tc .vmem S256x512 .f32 := Memref.whole cc2_scratch0
/-- The scratch as a view: what it holds is stated through it. -/
abbrev VS2 : View sig .tc .vmem S256x512 .f32 := (scM2).view
/-- One staging buffer of the output window, through which its contents are stated. -/
abbrev VO2 : View sig .tc .vmem S256x512 .f32 := (Memref.whole cc2_stg2_0 : Memref sig .tc .vmem S256x512 .f32).view

/-- The scoped rest split at the call's own scratch, whole at some contents; every other scoped buffer (the other
    calls' staging buffers and scratch) unopened. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- Every scoped buffer that is neither a staging buffer of this call nor its scratch, at some contents each. -/
abbrev rest2 (c : Dev nD) : sProp 𝕄 :=
  Pipeline.scopedRestBut (Ix := Unit) (Name := ℕ) (U := UR sig nD τ) (Lvl := ℕ) (Val := Elt F) spec2 c [cc2_scratch0]

/-- The class's invariant with the scratch as a memref owned at some contents. -/
theorem PhiA2_eq (c : Dev nD) :
    (Pipeline.ΦA spec2 c : sProp 𝕄)
      = iprop(iprop((∃ d, owns (c : Thread nD τ) scM2 fullShare d) ∗ rest2 c) ∗ (∃ r, prngReg c r)) := by
  unfold Pipeline.ΦA; rw [scopedRest2_split]; simp only [scM2, owns_whole]; try rfl

/-! ## The body's runs, one per case -/

set_option maxHeartbeats 4000000 in
/-- CASE A (kk = 0). On whole memrefs — the two inputs' at their contents, the output's and the scratch at anything —
    the body runs to the continuation holding the inputs' as they were and the output's and the scratch with the
    pieces its stores wrote (last first); the pieces are the witness the run finds. -/
noncomputable def kernelRun2_A (c : Dev nD) (i : grid2.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc : cond2 i)
    (x0 : Vec F S256x512 .f32) (x1 : Vec F S512x512 .f32) :
    Σ' (L2 : List (View.Piece (Elt F) S256x512 .f32)), { LS : List (View.Piece (Elt F) S256x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc2__tiled_matmul_kernel i arg3 harg3 arg4 harg4 arg5 harg5 arg6 harg6) K } := by
  refine ⟨?_, ?_, fun E K => ?run⟩
  case run =>
    simp only [cc2__tiled_matmul_kernel_eq_skeleton]; unfold cc2__tiled_matmul_kernel_skel
    unfold owns
    iintro ⟨⟨%f0, %hf0, H0⟩, ⟨%f1, %hf1, H1⟩, ⟨%d2, %f2, -, H2⟩, ⟨%ds, %fs, -, HS⟩, Hk⟩
    obtain rfl := harg3.eq_unread hf0; obtain rfl := harg4.eq_unread hf1
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

set_option maxHeartbeats 4000000 in
/-- CASE B (kk ≠ 0). The same with the scratch at the contents `xs` the point before left. -/
noncomputable def kernelRun2_B (c : Dev nD) (i : grid2.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc : ¬cond2 i)
    (x0 : Vec F S256x512 .f32) (x1 : Vec F S512x512 .f32) (xs : Vec F S256x512 .f32) :
    Σ' (L2 : List (View.Piece (Elt F) S256x512 .f32)), { LS : List (View.Piece (Elt F) S256x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc2__tiled_matmul_kernel i arg3 harg3 arg4 harg4 arg5 harg5 arg6 harg6) K } := by
  refine ⟨?_, ?_, fun E K => ?run⟩
  case run =>
    simp only [cc2__tiled_matmul_kernel_eq_skeleton]; unfold cc2__tiled_matmul_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

/-! ## The memrefs the pipeline calls the body with -/

/-- Each window's current staging memref at point `t`, spelled as the pipeline passes it, and its wholeness. -/
abbrev ms2_0 (t : Fin cfg2.N) : Memref sig .tc .vmem S256x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S256x512 .f32 := win2_2.stage (cfg2.slots t 2)
abbrev hs2_2 (t : Fin cfg2.N) : (ms2_2 t).IsWhole := hstage2_2 ((cfg2.slots t 2).cast nbuf2_2)

/-! ## What each case leaves -/

/-- Case A's pieces for the output window tile its block (one covering store), so they cover it. -/
theorem cover2_A_2 (c : Dev nD) (i : grid2.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc : cond2 i)
    (x0 : Vec F S256x512 .f32) (x1 : Vec F S512x512 .f32) (y : S256x512.Idx) :
    ∃ pc ∈ (kernelRun2_A c i arg3 harg3 arg4 harg4 arg5 harg5 arg6 harg6 hc x0 x1).1, y ∈ pc.1.set :=
  View.cover_of_tiledL (kernelRun2_A c i arg3 harg3 arg4 harg4 arg5 harg5 arg6 harg6 hc x0 x1).1 S256x512.size (by sl_kernel_rfl) y

/-- What case A leaves in the output window's staging buffer: its pieces read back over junk. -/
def out2_A_2 (c : Dev nD) (i : grid2.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc : cond2 i)
    (x0 : Vec F S256x512 .f32) (x1 : Vec F S512x512 .f32) : Vec F S256x512 .f32 :=
  VO2.read (Elt F) (VO2.writes (Elt F) VO2.junk (kernelRun2_A c i arg3 harg3 arg4 harg4 arg5 harg5 arg6 harg6 hc x0 x1).1)

/-- Case A's pieces for the scratch cover it. -/
theorem scover2_A (c : Dev nD) (i : grid2.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc : cond2 i)
    (x0 : Vec F S256x512 .f32) (x1 : Vec F S512x512 .f32) (y : S256x512.Idx) :
    ∃ pc ∈ (kernelRun2_A c i arg3 harg3 arg4 harg4 arg5 harg5 arg6 harg6 hc x0 x1).2.1, y ∈ pc.1.set :=
  View.cover_of_tiledL (kernelRun2_A c i arg3 harg3 arg4 harg4 arg5 harg5 arg6 harg6 hc x0 x1).2.1 S256x512.size (by sl_kernel_rfl) y

/-- What case A leaves in the scratch: its pieces read back over junk. -/
def sout2_A (c : Dev nD) (i : grid2.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc : cond2 i)
    (x0 : Vec F S256x512 .f32) (x1 : Vec F S512x512 .f32) : Vec F S256x512 .f32 :=
  VS2.read (Elt F) (VS2.writes (Elt F) VS2.junk (kernelRun2_A c i arg3 harg3 arg4 harg4 arg5 harg5 arg6 harg6 hc x0 x1).2.1)

/-- Case B's pieces for the output window tile its block (one covering store), so they cover it. -/
theorem cover2_B_2 (c : Dev nD) (i : grid2.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc : ¬cond2 i)
    (x0 : Vec F S256x512 .f32) (x1 : Vec F S512x512 .f32) (xs : Vec F S256x512 .f32) (y : S256x512.Idx) :
    ∃ pc ∈ (kernelRun2_B c i arg3 harg3 arg4 harg4 arg5 harg5 arg6 harg6 hc x0 x1 xs).1, y ∈ pc.1.set :=
  View.cover_of_tiledL (kernelRun2_B c i arg3 harg3 arg4 harg4 arg5 harg5 arg6 harg6 hc x0 x1 xs).1 S256x512.size (by sl_kernel_rfl) y

/-- What case B leaves in the output window's staging buffer: its pieces read back over junk. -/
def out2_B_2 (c : Dev nD) (i : grid2.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc : ¬cond2 i)
    (x0 : Vec F S256x512 .f32) (x1 : Vec F S512x512 .f32) (xs : Vec F S256x512 .f32) : Vec F S256x512 .f32 :=
  VO2.read (Elt F) (VO2.writes (Elt F) VO2.junk (kernelRun2_B c i arg3 harg3 arg4 harg4 arg5 harg5 arg6 harg6 hc x0 x1 xs).1)

/-- Case B's pieces for the scratch cover it. -/
theorem scover2_B (c : Dev nD) (i : grid2.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc : ¬cond2 i)
    (x0 : Vec F S256x512 .f32) (x1 : Vec F S512x512 .f32) (xs : Vec F S256x512 .f32) (y : S256x512.Idx) :
    ∃ pc ∈ (kernelRun2_B c i arg3 harg3 arg4 harg4 arg5 harg5 arg6 harg6 hc x0 x1 xs).2.1, y ∈ pc.1.set :=
  View.cover_of_tiledL (kernelRun2_B c i arg3 harg3 arg4 harg4 arg5 harg5 arg6 harg6 hc x0 x1 xs).2.1 S256x512.size (by sl_kernel_rfl) y

/-- What case B leaves in the scratch: its pieces read back over junk. -/
def sout2_B (c : Dev nD) (i : grid2.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc : ¬cond2 i)
    (x0 : Vec F S256x512 .f32) (x1 : Vec F S512x512 .f32) (xs : Vec F S256x512 .f32) : Vec F S256x512 .f32 :=
  VS2.read (Elt F) (VS2.writes (Elt F) VS2.junk (kernelRun2_B c i arg3 harg3 arg4 harg4 arg5 harg5 arg6 harg6 hc x0 x1 xs).2.1)

/-! ## What the output's buffer and the scratch hold after each point -/

/-- THE ACCUMULATION. What the output window's staging buffer and the scratch hold after the body at position `n`
    (a pair: the output, then the scratch): case A at the points with kk = 0, else case B over what the point before
    left in the scratch. -/
def outsAt2 (c : Dev nD) : (n : ℕ) → n < cfg2.N → Vec F S256x512 .f32 × Vec F S256x512 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) ((hcond2 ⟨0, hn⟩).mpr (Nat.zero_mod _)) (iblk2 V c 0 ⟨0, hn⟩) (iblk2 V c 1 ⟨0, hn⟩), sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) ((hcond2 ⟨0, hn⟩).mpr (Nat.zero_mod _)) (iblk2 V c 0 ⟨0, hn⟩) (iblk2 V c 1 ⟨0, hn⟩))
  | n + 1, hn =>
    if h0 : (n + 1) % 4 = 0 then
      (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) ((hcond2 ⟨n + 1, hn⟩).mpr h0) (iblk2 V c 0 ⟨n + 1, hn⟩) (iblk2 V c 1 ⟨n + 1, hn⟩), sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) ((hcond2 ⟨n + 1, hn⟩).mpr h0) (iblk2 V c 0 ⟨n + 1, hn⟩) (iblk2 V c 1 ⟨n + 1, hn⟩))
    else
      (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => h0 ((hcond2 ⟨n + 1, hn⟩).mp h)) (iblk2 V c 0 ⟨n + 1, hn⟩) (iblk2 V c 1 ⟨n + 1, hn⟩) (outsAt2 c n (Nat.lt_of_succ_lt hn)).2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => h0 ((hcond2 ⟨n + 1, hn⟩).mp h)) (iblk2 V c 0 ⟨n + 1, hn⟩) (iblk2 V c 1 ⟨n + 1, hn⟩) (outsAt2 c n (Nat.lt_of_succ_lt hn)).2)

/-- `outsAt2` at a point of case A: that case's contents. -/
theorem outsAt2_A (c : Dev nD) (t : Fin cfg2.N) (h0 : t.val % 4 = 0) :
    outsAt2 V c t.val t.isLt = (out2_A_2 c (grid2.coords t) (ms2_0 t) (hs2_0 t) (ms2_1 t) (hs2_1 t) (ms2_2 t) (hs2_2 t) scM2 (Memref.isWhole_whole _) ((hcond2 t).mpr h0) (iblk2 V c 0 t) (iblk2 V c 1 t), sout2_A c (grid2.coords t) (ms2_0 t) (hs2_0 t) (ms2_1 t) (hs2_1 t) (ms2_2 t) (hs2_2 t) scM2 (Memref.isWhole_whole _) ((hcond2 t).mpr h0) (iblk2 V c 0 t) (iblk2 V c 1 t)) := by
  obtain ⟨n, hn⟩ := t
  cases n with
  | zero => exact rfl
  | succ n => exact (dif_pos h0).trans rfl

/-- `outsAt2` at a point of case B: that case's contents, over what the point before left. -/
theorem outsAt2_B (c : Dev nD) (t : Fin cfg2.N) (h0 : ¬t.val % 4 = 0) :
    outsAt2 V c t.val t.isLt = (out2_B_2 c (grid2.coords t) (ms2_0 t) (hs2_0 t) (ms2_1 t) (hs2_1 t) (ms2_2 t) (hs2_2 t) scM2 (Memref.isWhole_whole _) (fun h => h0 ((hcond2 t).mp h)) (iblk2 V c 0 t) (iblk2 V c 1 t) (outsAt2 V c (t.val - 1) (Nat.lt_of_le_of_lt (Nat.sub_le _ _) t.isLt)).2, sout2_B c (grid2.coords t) (ms2_0 t) (hs2_0 t) (ms2_1 t) (hs2_1 t) (ms2_2 t) (hs2_2 t) scM2 (Memref.isWhole_whole _) (fun h => h0 ((hcond2 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n`: before the first point the class's (the scratch at anything);
    afterwards the scratch at what the point before left in it, the other scoped buffers at anything, and the generator
    register at some state. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ rest2 c) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the scratch at that point's contents. -/
theorem PhiS2_succ (c : Dev nD) (n : ℕ) (hn : n < cfg2.N) :
    PhiS2 V c (n + 1) hn = iprop(iprop(owns (c : Thread nD τ) scM2 fullShare ((outsAt2 V c n hn).2) ∗ rest2 c) ∗ (∃ r, prngReg c r)) := rfl

/-- Before a point that is not the first: the scratch at what the point before left. -/
theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ rest2 c) ∗ (∃ r, prngReg c r)) := by
  cases n with
  | zero => exact absurd rfl hz
  | succ n => rfl

/-! ## The pipeline's proof data -/

/-- The proof data of pipeline 0 on core `c`: the arrays as the region finds them (`V`); after the body at point
    `t` each input's buffer at its block and the output's at `outsAt2`'s first component; the invariant `PhiS2`;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

/-- Each input's current staging buffer holds its block at every point. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t))

set_option maxHeartbeats 4800000 in
/-- The body at any point: the inputs' memrefs hold their blocks; the closed form says which case the point is in; the
    invariant hands the body the scratch at what the point before left (at anything at the first point) and takes it
    back at this point's contents; the other scoped buffers, the generator register and what the core owes pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2]
  have hN : t.val < 128 := lt_of_lt_of_eq t.isLt (show cfg2.N = 128 from N_2)
  by_cases h0 : t.val % 4 = 0
  · rw [outsAt2_A V c t h0]
    unfold out2_A_2 sout2_A; (try dsimp only)
    by_cases hz : t.val = 0
    · rw [PhiS2_castSucc V c t, PhiS2_zero V c _ _ hz, PhiA2_eq]
      iintro ⟨⟨⟨HS, Hr⟩, Hg⟩, Ho, ⟨%d0, H0⟩, ⟨%d1, H1⟩, ⟨%d2, H2⟩⟩
      iapply ((kernelRun2_A c (grid2.coords t) _ _ _ _ _ _ _ _ ((hcond2 t).mpr h0) (iblk2 V c 0 t) (iblk2 V c 1 t)).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hr Hg]
      · isplitr [Hg]
        · isplitl [HS]
          · unfold owns; iexists _; isplitr
            swap; · iexact HS
            ipureintro; exact View.read_writes_of_cover _ _ _ _ _ (scover2_A c _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_A_2 c _ _ _ _ _ _ _ _ _ _ _ _)
    · rw [PhiS2_castSucc V c t, PhiS2_pos V c _ _ hz]
      iintro ⟨⟨⟨HS, Hr⟩, Hg⟩, Ho, ⟨%d0, H0⟩, ⟨%d1, H1⟩, ⟨%d2, H2⟩⟩
      iapply ((kernelRun2_A c (grid2.coords t) _ _ _ _ _ _ _ _ ((hcond2 t).mpr h0) (iblk2 V c 0 t) (iblk2 V c 1 t)).2.2 Set.univ _)
      isplitl [H0]; · iexact H0
      isplitl [H1]; · iexact H1
      isplitl [H2]; · iexists _; iexact H2
      isplitl [HS]; · iexists _; iexact HS
      iintro ⟨H0, H1, ⟨%e2, H2⟩, ⟨%es, HS⟩⟩
      isplitl [HS Hr Hg]
      · isplitr [Hg]
        · isplitl [HS]
          · unfold owns; iexists _; isplitr
            swap; · iexact HS
            ipureintro; exact View.read_writes_of_cover _ _ _ _ _ (scover2_A c _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_A_2 c _ _ _ _ _ _ _ _ _ _ _ _)
  · rw [outsAt2_B V c t h0]
    unfold out2_B_2 sout2_B; (try dsimp only)
    have hz : t.val ≠ 0 := fun e => h0 (by rw [e])
    rw [PhiS2_castSucc V c t, PhiS2_pos V c _ _ hz]
    iintro ⟨⟨⟨HS, Hr⟩, Hg⟩, Ho, ⟨%d0, H0⟩, ⟨%d1, H1⟩, ⟨%d2, H2⟩⟩
    iapply ((kernelRun2_B c (grid2.coords t) _ _ _ _ _ _ _ _ (fun h => h0 ((hcond2 t).mp h)) (iblk2 V c 0 t) (iblk2 V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hr Hg]
    · isplitr [Hg]
      · isplitl [HS]
        · unfold owns; iexists _; isplitr
          swap; · iexact HS
          ipureintro; exact View.read_writes_of_cover _ _ _ _ _ (scover2_B c _ _ _ _ _ _ _ _ _ _ _ _ _)
        iexact Hr
      iexact Hg
    isplitl [Ho]; · iexact Ho
    isplitl [H0]; · iexact H0
    isplitl [H1]; · iexact H1
    unfold owns; iexists _; isplitr
    swap; · iexact H2
    ipureintro; exact View.read_writes_of_cover _ _ _ _ _ (cover2_B_2 c _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the scratch's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS, Hr⟩, Hg⟩
  isplitr [Hg]
  · isplitl [HS]
    · iexists _; iexact HS
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 128 := N_2; omega)

end Cert.ReferenceIdeal.Tiled2

end
-- ==== Proof.RefRun.lean ====
/-
  The reference program's run: the host preamble, its three kernel regions and the closing broadcast.

  The program pads each argument by nothing (four host operations that copy), runs three tiled products — the
  product of the last two matrices, then the second matrix against it, then the first against that — and adds a leading
  unit axis. Between two of these items every unscoped buffer of the core is held whole at named contents: the
  launch memory; the preamble applied; then each product's result buffer at what that region's write-backs leave;
  then the closing operation applied. Read against the final state this gives every unscoped buffer's final contents.
-/
import proofs.«126094_g2000509712423811_pallasbulk_371_15_alg».proof.Proof.Gen.ReferenceIdeal.Launch
import proofs.«126094_g2000509712423811_pallasbulk_371_15_alg».proof.Proof.Gen.ReferenceIdeal.Skeleton
import proofs.«126094_g2000509712423811_pallasbulk_371_15_alg».proof.Proof.Gen.ReferenceIdeal.Points
import proofs.«126094_g2000509712423811_pallasbulk_371_15_alg».proof.Proof.TiledRegion0
import proofs.«126094_g2000509712423811_pallasbulk_371_15_alg».proof.Proof.TiledRegion1
import proofs.«126094_g2000509712423811_pallasbulk_371_15_alg».proof.Proof.TiledRegion2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Run

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.ReferenceIdeal.Tiled0 Cert.ReferenceIdeal.Tiled1 Cert.ReferenceIdeal.Tiled2

variable (m : (ℓ : Loc nD τ sig) → Buf (Elt F) ℓ) (ρ : Dev nD → PrngReg)

/-! ## The buffers' contents between the items -/

abbrev W0 : Dev nD → Valuation τ sig (Elt F) := fun c b => m ((c : Dev nD), b)
/-- After the preamble. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After region 0. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After region 1. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After region 2. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)
/-- After the closing host operation. -/
abbrev W5 : Dev nD → Valuation τ sig (Elt F) := fun c => StableHlo.after hostOps3 (W4 m c)

/-! ## The proof data family and what rides beside the buffers -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    rw [Pipeline.ownSems0_none]
    refine BIBase.Entails.trans (hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m) c)
    unfold Pipeline.ΦA
    iintro ⟨Hp, -, Hr⟩
    isplitl [Hr]; · iexact Hr
    iexact Hp
  hout c := by
    rw [Pipeline.ownSems0_none]
    refine BIBase.Entails.trans (hout1 (V2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V3 m) c)
    unfold Pipeline.ΦA
    iintro ⟨Hp, -, Hr⟩
    isplitl [Hr]; · iexact Hr
    iexact Hp
  hout c := by
    rw [Pipeline.ownSems0_none]
    refine BIBase.Entails.trans (hout2 (V3 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)), .region (reg0 m), .region (reg1 m), .region (reg2 m),
    .host (hseg hostOps3 hostOps3_sub hostOps3_fresh (W4 m)) ]

theorem main_run (c : Dev nD) : main (F := F) c = Pipeline.Seg.run (segs m) := (main_chain c).trans (by chain_rfl)

set_option backward.isDefEq.respectTransparency.types false in
/-- Every weakly fair execution of @main from memory `m` with zero counters terminates, nothing faulting, and every
    unscoped buffer of every core ends at the last named contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => (show iprop(StableHlo.held (c : Thread nD τ) (Pipeline.ucRefs τ sig) (W5 m c) ∗ R c)
          ⊢ iprop(Tₙ m c ∗ ∃ W, owes (c : Thread nD τ) (0 : CellTallies nD τ sig Unit) W) from by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.ReferenceIdeal.Run

end
-- ==== Proof.LibPadPlain.lean ====
/-
  A host pad with no low padding and no interior padding (only high padding), read at an index: where every
  coordinate is inside the operand's extents it is the operand at the same coordinates; where some coordinate is at or
  beyond the operand's extent on its axis it is the padding value.  For any rank and any element type.
-/
import Idealize.ShloMosaic.Lib.KernelVsHost

noncomputable section

namespace Cert.LibPadPlain

open Idealize.ShloMosaic

variable {s t : Shape} {α : Type}

/-- Inside the operand on every axis: the operand at the same coordinates. -/
theorem pad_inside (lo hi interior : Fin s.rank → Nat) (hlo : ∀ a, lo a = 0) (hint : ∀ a, interior a = 0)
    (x : s.Idx → α) {u : Shape} (v : u.Idx → α) (h : s.Pads lo hi interior t) (hu : 0 < u.numel) (j : t.Idx) (k : s.Idx)
    (hk : ∀ a : Fin s.rank, (j (a.cast h.1)).val = (k a).val) :
    pad t lo hi interior x v h hu j = x k :=
  pad_apply_of_inside lo hi interior x v h hu j k (fun a => by
    rw [hk a, hlo a, hint a, Nat.zero_add, Nat.zero_add, Nat.mul_one])

/-- At or beyond the operand's extent on axis a: the padding value. -/
theorem pad_outside (lo hi interior : Fin s.rank → Nat) (hlo : ∀ a, lo a = 0) (hint : ∀ a, interior a = 0)
    (x : s.Idx → α) {u : Shape} (v : u.Idx → α) (h : s.Pads lo hi interior t) (hu : 0 < u.numel) (j : t.Idx) (a : Fin s.rank)
    (ha : s.size a ≤ (j (a.cast h.1)).val) :
    pad t lo hi interior x v h hu j = v (Shape.Idx.first hu) :=
  pad_apply_of_not_inside lo hi interior x v h hu j a (by
    rw [hlo a, hint a, Nat.sub_zero, Nat.zero_add, Nat.div_one]
    exact fun h3 => absurd h3.2.2 (Nat.not_lt.mpr ha))

end Cert.LibPadPlain

end
-- ==== Proof.RefPreamble.lean ====
/-
  The reference's host operations before its first kernel region.

  For each of the four argument matrices the preamble writes the integer 0, converts it to a floating-point scalar, and
  pads the matrix with that scalar — by zero entries below, zero entries above and zero entries between, on both axes.
  Such a pad adds nothing: the result has the operand's extents, and each of its entries is the operand's entry at
  the same coordinates. So after the preamble each padded copy holds exactly its argument's contents, whatever the
  entries are, and the arguments themselves, which no operation of the preamble writes, hold what they held.
-/
import proofs.«126094_g2000509712423811_pallasbulk_371_15_alg».proof.Proof.Gen.ReferenceIdeal.Launch
import proofs.«126094_g2000509712423811_pallasbulk_371_15_alg».proof.Proof.LibPadPlain
import Idealize.ShloMosaic.Lib.StableHlo.Run

noncomputable section

namespace Cert.ReferenceIdeal.Preamble

open Cert.ReferenceIdeal Cert.ReferenceIdeal.Gen
open Idealize.ShloMosaic Idealize.ShloMosaic.TcCoe Idealize.ShloMosaic.StableHlo

variable {F : FTy → Type} [FloatOps F]

/-- A pad of a 2048 × 2048 matrix by nothing on either side and nothing between, on both axes, is the matrix. -/
theorem pad_none {α : Type} (x : S2048x2048.Idx → α) (v : S_.Idx → α) :
    pad S2048x2048 ![0, 0] ![0, 0] ![0, 0] x v pads_S2048x2048_S2048x2048_000_000 h_S_ = x := by
  funext j
  exact Cert.LibPadPlain.pad_inside _ _ _ (fun a => by fin_cases a <;> rfl) (fun a => by fin_cases a <;> rfl) _ _ _ _ j j (fun a => rfl)

variable (W : Valuation τ sig (Elt F))

/-- After the preamble the first padded copy holds the first argument's contents. -/
theorem pre_v0 : StableHlo.after hostOps0 W (Proc.devRef .tc main_call0_v0) = W (Proc.devRef .tc main_arg0) := by
  show StableHlo.after hostOps0 W (Proc.devRef .tc main_call0_v0) = _
  after_results
  exact pad_none _ _

/-- … the second, the second argument's. -/
theorem pre_v1 : StableHlo.after hostOps0 W (Proc.devRef .tc main_call0_v1) = W (Proc.devRef .tc main_arg1) := by
  show StableHlo.after hostOps0 W (Proc.devRef .tc main_call0_v1) = _
  after_results
  exact pad_none _ _

/-- … the third, the third argument's. -/
theorem pre_v2 : StableHlo.after hostOps0 W (Proc.devRef .tc main_call0_v2) = W (Proc.devRef .tc main_arg2) := by
  show StableHlo.after hostOps0 W (Proc.devRef .tc main_call0_v2) = _
  after_results
  exact pad_none _ _

/-- … the fourth, the fourth argument's. -/
theorem pre_v3 : StableHlo.after hostOps0 W (Proc.devRef .tc main_call0_v3) = W (Proc.devRef .tc main_arg3) := by
  show StableHlo.after hostOps0 W (Proc.devRef .tc main_call0_v3) = _
  after_results
  exact pad_none _ _

/-- The preamble writes none of the four arguments: each holds afterwards what it held before. -/
theorem pre_arg (b : Ref sig .tc) (hb : b ∈ [main_arg0, main_arg1, main_arg2, main_arg3]) :
    StableHlo.after hostOps0 W (Proc.devRef .tc b) = W (Proc.devRef .tc b) := by
  refine StableHlo.after_of_forall_not_mem (b := Proc.devRef .tc b) hostOps0 W (List.forall_iff_forall_mem.mp ?_)
  simp only [List.mem_cons, List.mem_nil_iff, or_false] at hb
  rcases hb with rfl | rfl | rfl | rfl <;>
  · simp only [hostOps0, List.Forall, StableHlo.TRef.nullary, StableHlo.TRef.unary, StableHlo.TRef.binary,
      StableHlo.nullary_writes, StableHlo.unary_writes, StableHlo.binary_writes, Finset.mem_singleton]
    repeat' apply And.intro
    all_goals exact StableHlo.devRef_ne_of_ne (by decide)

end Cert.ReferenceIdeal.Preamble

end
-- ==== Proof.RefResult.lean ====
/-
  What the reference's run leaves: the arguments as launched and the result as the closing broadcast of the third
  product's output, with every operand of every product traced back to the arguments.

  No item writes an argument array: the preamble writes copies, each region changes only its output buffer, the closing
  operation only the result. The copies the preamble makes hold the arguments' contents; each region's output buffer is
  an operand of the next region, and is changed by no other item.
-/
import proofs.«126094_g2000509712423811_pallasbulk_371_15_alg».proof.Proof.Gen.ReferenceIdeal.Launch
import proofs.«126094_g2000509712423811_pallasbulk_371_15_alg».proof.Proof.Gen.ReferenceIdeal.Skeleton
import proofs.«126094_g2000509712423811_pallasbulk_371_15_alg».proof.Proof.Gen.ReferenceIdeal.Points
import proofs.«126094_g2000509712423811_pallasbulk_371_15_alg».proof.Proof.RefRun
import proofs.«126094_g2000509712423811_pallasbulk_371_15_alg».proof.Proof.RefPreamble
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Result

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.ReferenceIdeal.Tiled0 Cert.ReferenceIdeal.Tiled1 Cert.ReferenceIdeal.Tiled2 Cert.ReferenceIdeal.Run Cert.ReferenceIdeal.Preamble

variable (m : (ℓ : Loc nD τ sig) → Buf (Elt F) ℓ) (ρ : Dev nD → PrngReg)

/-- The closing host operation writes only the result buffer. -/
theorem W5_of_ne (c : Dev nD) (b : Ref sig .tc) (hb : b ≠ main_v0) : W5 m c (Proc.devRef .tc b) = W4 m c (Proc.devRef .tc b) :=
  StableHlo.after_of_forall_not_mem (b := Proc.devRef .tc b) _ _ (List.forall_iff_forall_mem.mp (by
    simp only [hostOps3, List.Forall, StableHlo.unary_writes, StableHlo.TRef.unary, Finset.mem_singleton]
    exact StableHlo.devRef_ne_of_ne hb))

/-- A buffer that is no array of any region and that the closing operation does not write ends as the preamble left it. -/
theorem W5_through (c : Dev nD) (b : Ref sig .tc) (h5 : b ≠ main_v0) (h2 : ∀ w, Pipeline.arrRef spec2 w ≠ b)
    (h1 : ∀ w, Pipeline.arrRef spec1 w ≠ b) (h0 : ∀ w, Pipeline.arrRef spec0 w ≠ b) :
    W5 m c (Proc.devRef .tc b) = W1 m c (Proc.devRef .tc b) :=
  (W5_of_ne m c b h5).trans <| (W4_of_ne m c b h2).trans <| (W3_of_ne m c b h1).trans (W2_of_ne m c b h0)

theorem W5_arg0 (c : Dev nD) : W5 m c (Proc.devRef .tc main_arg0) = m ((c : Thread nD τ).loc main_arg0) :=
  (W5_through m c main_arg0 (by decide) (by decide) (by decide) (by decide)).trans (pre_arg (W0 m c) main_arg0 (by decide))
theorem W5_arg1 (c : Dev nD) : W5 m c (Proc.devRef .tc main_arg1) = m ((c : Thread nD τ).loc main_arg1) :=
  (W5_through m c main_arg1 (by decide) (by decide) (by decide) (by decide)).trans (pre_arg (W0 m c) main_arg1 (by decide))
theorem W5_arg2 (c : Dev nD) : W5 m c (Proc.devRef .tc main_arg2) = m ((c : Thread nD τ).loc main_arg2) :=
  (W5_through m c main_arg2 (by decide) (by decide) (by decide) (by decide)).trans (pre_arg (W0 m c) main_arg2 (by decide))
theorem W5_arg3 (c : Dev nD) : W5 m c (Proc.devRef .tc main_arg3) = m ((c : Thread nD τ).loc main_arg3) :=
  (W5_through m c main_arg3 (by decide) (by decide) (by decide) (by decide)).trans (pre_arg (W0 m c) main_arg3 (by decide))

/-- The result buffer ends at the broadcast of the third product's output. -/
theorem W5_v0 (c : Dev nD) :
    (W5 m c (Proc.devRef .tc main_v0) : (⟨S1x2048x2048, .f32⟩ : BufTy).Contents (Elt F))
      = broadcastInDim S1x2048x2048 ![1, 2] bcast_S2048x2048_S1x2048x2048_1_2 (W4 m c (Proc.devRef .tc main_call0_v6)) := by
  show StableHlo.after hostOps3 (W4 m c) (Proc.devRef .tc main_v0) = _
  after_results
  all_goals rfl

/-! ## The products' operands, traced back -/

/-- Region 0's operands are the copies of the last two arguments. -/
theorem V1_v1 (c : Dev nD) : V1 m c main_call0_v1 = m ((c : Thread nD τ).loc main_arg1) := pre_v1 (W0 m c)
theorem V1_v0 (c : Dev nD) : V1 m c main_call0_v0 = m ((c : Thread nD τ).loc main_arg0) := pre_v0 (W0 m c)
/-- Region 1's operands: the copy of the second argument, and region 0's output. -/
theorem V2_v2 (c : Dev nD) : V2 m c main_call0_v2 = m ((c : Thread nD τ).loc main_arg2) :=
  (W2_of_ne m c main_call0_v2 (by decide)).trans (pre_v2 (W0 m c))
theorem V2_v4 (c : Dev nD) : V2 m c main_call0_v4 = (dat0 (V1 m) c).arrAt 2 cfg0.N := W2_arr m c 2
/-- Region 2's operands: the copy of the first argument, and region 1's output. -/
theorem V3_v3 (c : Dev nD) : V3 m c main_call0_v3 = m ((c : Thread nD τ).loc main_arg3) :=
  (W3_of_ne m c main_call0_v3 (by decide)).trans <| (W2_of_ne m c main_call0_v3 (by decide)).trans (pre_v3 (W0 m c))
theorem V3_v5 (c : Dev nD) : V3 m c main_call0_v5 = (dat1 (V2 m) c).arrAt 2 cfg1.N := W3_arr m c 2
/-- The third product's output. -/
theorem W4_v6 (c : Dev nD) : W4 m c (Proc.devRef .tc main_call0_v6) = (dat2 (V3 m) c).arrAt 2 cfg2.N := W4_arr m c 2

/-- The run with the result named. -/
theorem run_named : θ_run defs (onTc (τ := τ) (main (F := F))) ⟨m, fun _ => 0, ρ⟩ (fun r => ∀ c : Dev nD,
      r.2.mem ((c.tc : Thread nD τ).loc main_v0) = broadcastInDim S1x2048x2048 ![1, 2] bcast_S2048x2048_S1x2048x2048_1_2 (W4 m c (Proc.devRef .tc main_call0_v6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v0 (by decide))).trans (W5_v0 m c),
     (h c _ (mem_uc main_arg0 (by decide))).trans (W5_arg0 m c),
     (h c _ (mem_uc main_arg1 (by decide))).trans (W5_arg1 m c),
     (h c _ (mem_uc main_arg2 (by decide))).trans (W5_arg2 m c),
     (h c _ (mem_uc main_arg3 (by decide))).trans (W5_arg3 m c)⟩) (run m ρ)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_named m ρ)

end Cert.ReferenceIdeal.Result

end
-- ==== Proof.LibColumnBlocks.lean ====
/-
  Matrices built from column blocks, and plain matrix products, read at coordinates.

  A concatenation of matrices of equal height along the column axis reads, at `(a, b)`, the block that column `b`
  falls in, at `(a, b - the widths before it)`: stated for two blocks and for four. A matrix product with one
  contracted axis — the left operand's columns against the right operand's rows, no batch axis — reads at `(a, b)`, over
  the extended reals, the sum over `k` of `lhs (a, k) · rhs (k, b)`: stated for the accumulating product into a
  zero accumulator and for the host's product. The dimension record's two non-contracted coordinates are taken as
  hypotheses; at a literal record they hold by computation.
-/
import Idealize.ShloMosaic.PureOps.Ideal.Laws
import Idealize.ShloMosaic.Lib.ValueIdx
import Idealize.ShloMosaic.Lib.Pipeline.Value

noncomputable section

namespace Cert.LibColumnBlocks

open Idealize.ShloMosaic Idealize.ShloMosaic.ValueIdx

variable {α : Type}

/-! ## Two column blocks -/

/-- `[x₁ | x₂]` at a column inside the first block. -/
theorem cat2_left {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : b.val < B1) :
    concatenate ⟨2, ![A, B]⟩ 1 [⟨⟨2, ![A, B1]⟩, x₁⟩, ⟨⟨2, ![A, B2]⟩, x₂⟩] h (ix2 a b) = x₁ (ix2 a ⟨b.val, hb⟩) :=
  concatenate_pair_apply_left 1 x₁ x₂ h (ix2 a b) rfl (ix2 a ⟨b.val, hb⟩) fun d => by
    match d with
    | ⟨0, _⟩ => rfl
    | ⟨1, _⟩ => rfl

/-- `[x₁ | x₂]` at a column past the first block. -/
theorem cat2_right {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : B1 ≤ b.val)
    (hb' : b.val - B1 < B2) :
    concatenate ⟨2, ![A, B]⟩ 1 [⟨⟨2, ![A, B1]⟩, x₁⟩, ⟨⟨2, ![A, B2]⟩, x₂⟩] h (ix2 a b) = x₂ (ix2 a ⟨b.val - B1, hb'⟩) :=
  concatenate_pair_apply_right 1 x₁ x₂ h (ix2 a b) rfl rfl (ix2 a ⟨b.val - B1, hb'⟩)
    (fun d hd => by
      match d with
      | ⟨0, _⟩ => rfl
      | ⟨1, _⟩ => exact absurd rfl hd)
    (by show (b.val - B1) + B1 = b.val; omega)

/-! ## Four column blocks -/

section Four
variable {A w0 w1 w2 w3 B : ℕ}
  (x0 : (⟨2, ![A, w0]⟩ : Shape).Idx → α) (x1 : (⟨2, ![A, w1]⟩ : Shape).Idx → α)
  (x2 : (⟨2, ![A, w2]⟩ : Shape).Idx → α) (x3 : (⟨2, ![A, w3]⟩ : Shape).Idx → α)
  (h : Shape.Concatenates [⟨2, ![A, w0]⟩, ⟨2, ![A, w1]⟩, ⟨2, ![A, w2]⟩, ⟨2, ![A, w3]⟩] ⟨2, ![A, B]⟩ 1)
  (a : Fin A) (b : Fin B)

/-- `[x0 | x1 | x2 | x3]` at a column of the first block. -/
theorem cat4_0 (hb : b.val < w0) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x0 (ix2 a ⟨b.val, hb⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 0 (by simp) _ x0 rfl rfl 0 rfl (ix2 a ⟨b.val, hb⟩)
    (fun d hd => by
      match d with
      | ⟨0, _⟩ => rfl
      | ⟨1, _⟩ => exact absurd rfl hd)
    (by show 0 + b.val = b.val; omega)

/-- … of the second block. -/
theorem cat4_1 (hb : w0 ≤ b.val) (hb' : b.val - w0 < w1) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x1 (ix2 a ⟨b.val - w0, hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 1 (by simp) _ x1 rfl rfl w0 (by simp) (ix2 a ⟨b.val - w0, hb'⟩)
    (fun d hd => by
      match d with
      | ⟨0, _⟩ => rfl
      | ⟨1, _⟩ => exact absurd rfl hd)
    (by show w0 + (b.val - w0) = b.val; omega)

/-- … of the third block. -/
theorem cat4_2 (hb : w0 + w1 ≤ b.val) (hb' : b.val - (w0 + w1) < w2) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x2 (ix2 a ⟨b.val - (w0 + w1), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 2 (by simp) _ x2 rfl rfl (w0 + w1) (by simp) (ix2 a ⟨b.val - (w0 + w1), hb'⟩)
    (fun d hd => by
      match d with
      | ⟨0, _⟩ => rfl
      | ⟨1, _⟩ => exact absurd rfl hd)
    (by show w0 + w1 + (b.val - (w0 + w1)) = b.val; omega)

/-- … of the fourth block. -/
theorem cat4_3 (hb : w0 + w1 + w2 ≤ b.val) (hb' : b.val - (w0 + w1 + w2) < w3) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x3 (ix2 a ⟨b.val - (w0 + w1 + w2), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 3 (by simp) _ x3 rfl rfl (w0 + w1 + w2) (by simp; omega)
    (ix2 a ⟨b.val - (w0 + w1 + w2), hb'⟩)
    (fun d hd => by
      match d with
      | ⟨0, _⟩ => rfl
      | ⟨1, _⟩ => exact absurd rfl hd)
    (by show w0 + w1 + w2 + (b.val - (w0 + w1 + w2)) = b.val; omega)

end Four

/-! ## A plain matrix product as a sum over the contracted coordinate -/

section Dot
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)
  (lhs : FVec Ideal ⟨2, ![A, K]⟩ φ₁) (rhs : FVec Ideal ⟨2, ![K, B]⟩ φ₂) (a : Fin A) (b : Fin B)

include hr hs hlc hrc hl0 hr1 in
/-- The sum over the record's contraction index, re-indexed by the contracted coordinate. -/
theorem contr_sum :
    ∑ k : d.contr.Idx, lhs (d.lhsIdx (ix2 a b) k) * rhs (d.rhsIdx (ix2 a b) k) = ∑ k : Fin K, lhs (ix2 a k) * rhs (ix2 k b) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 k b := by
    funext c
    apply Fin.ext
    match c with
    | ⟨0, _⟩ => exact (d.rhsIdx_val_of_single hrc _ _).trans (contrEquiv1_symm_val d K hr hs k)
    | ⟨1, _⟩ => exact hr1 _ _
  rw [e1, e2]

include hr hs hlc hrc hl0 hr1 in
/-- The accumulating product into a zero accumulator, at `(a, b)`. -/
theorem matmul_zero_apply (prec : Option ContractPrecision) :
    matmul d prec lhs rhs (constant ⟨2, ![A, B]⟩ .f32 0x00000000#32) (ix2 a b) = ∑ k : Fin K, lhs (ix2 a k) * rhs (ix2 k b) :=
  (Ideal.matmul_constant_zero_apply d prec lhs rhs (ix2 a b)).trans (contr_sum d hr hs hlc hrc hl0 hr1 lhs rhs a b)

include hr hs hlc hrc hl0 hr1 in
/-- The host's product, at `(a, b)`. -/
theorem hostDot_apply (prec : Option ContractPrecision) :
    Host.dotGeneral d prec lhs rhs (ix2 a b) = ∑ k : Fin K, lhs (ix2 a k) * rhs (ix2 k b) :=
  (Ideal.dotGeneral_apply d prec .single lhs rhs (ix2 a b)).trans (contr_sum d hr hs hlc hrc hl0 hr1 lhs rhs a b)

end Dot

end Cert.LibColumnBlocks

end
-- ==== Proof.FinalValue.lean ====
/-
  The second region's output array, as one function of the array the region reads.

  The region reads one stacked array X of two 2048 × 2048 slabs and writes a 2048 × 2048 array. Its grid has four
  points (i, j). At point (i, j) the body multiplies rows 1024·i … 1024·i + 1023 of slab 0 (all 2048 columns) by
  columns 1024·j … 1024·j + 1023 of slab 1 (all 2048 rows), contracting the 2048 shared coordinates into a zero
  accumulator, and the result is written back as output block (i, j). So entry (a, b) of the output, which lies in
  block (a / 1024, b / 1024), ends as the sum over k of X(0, a, k) · X(1, k, b): the four blocks are the four
  restrictions of that one function, and together they cover the whole output. Only the grouping of one sum per entry
  is used, so nothing is asked of the entries: the identity holds over the extended reals as they are.
-/
import proofs.«126094_g2000509712423811_pallasbulk_371_15_alg».proof.Proof.FinalRegion
import proofs.«126094_g2000509712423811_pallasbulk_371_15_alg».proof.Proof.LibColumnBlocks
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.FinalValue

open Cert.KernelIdeal Cert.KernelIdeal.Gen Cert.KernelIdeal.Final
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero3 : (![0, 0, 0] : Fin 3 → Nat) = fun _ => 0 := funext fun a => by fin_cases a <;> rfl

/-- The product of slab 0 by slab 1 of a stacked array, entry by entry. -/
def slabProduct (X : S2x2048x2048.Idx → EReal) : S2048x2048.Idx → EReal :=
  fun i => ∑ k : Fin 2048, X (ix3 (0 : Fin 2) (i 0) k) * X (ix3 (1 : Fin 2) k (i 1))

/-- An index of a block with one leading unit axis, from the index of the block without it. -/
theorem cons_zero_ix2 {m n : ℕ} (a : Fin m) (b : Fin n) :
    (Fin.cons (⟨0, Nat.one_pos⟩ : Fin 1) (ix2 a b) : (⟨3, ![1, m, n]⟩ : Shape).Idx) = ix3 (0 : Fin 1) a b := by
  funext c
  match c with
  | ⟨0, _⟩ => rfl
  | ⟨1, _⟩ => rfl
  | ⟨2, _⟩ => rfl

/-- The product's record keeps the left operand's row coordinate … -/
theorem dot_lhs_row (j : S1024x1024.Idx) (k : dot_S1024x2048_S2048x1024_S1024x1024_1_0_0_1_n_n.contr.Idx) :
    (dot_S1024x2048_S2048x1024_S1024x1024_1_0_0_1_n_n.lhsIdx j k 0).val = (j 0).val := by
  simp [DotDims.lhsIdx, dot_S1024x2048_S2048x1024_S1024x1024_1_0_0_1_n_n]; rfl

/-- … and the right operand's column coordinate. -/
theorem dot_rhs_col (j : S1024x1024.Idx) (k : dot_S1024x2048_S2048x1024_S1024x1024_1_0_0_1_n_n.contr.Idx) :
    (dot_S1024x2048_S2048x1024_S1024x1024_1_0_0_1_n_n.rhsIdx j k 1).val = (j 1).val := by
  simp [DotDims.rhsIdx, dot_S1024x2048_S2048x1024_S1024x1024_1_0_0_1_n_n]; rfl

/-- The body's payload at an entry: the sum over the contracted coordinate of the products of its two blocks. -/
theorem pay_apply (v0 : Vec Ideal S1x1024x2048 .bf16) (v2 : Vec Ideal S1x2048x1024 .bf16) (a b : Fin 1024) :
    (k1_pay1 v0 v2 (ix2 a b) : EReal) = ∑ k : Fin 2048, (v0 (ix3 (0 : Fin 1) a k) : EReal) * (v2 (ix3 (0 : Fin 1) k b) : EReal) := by
  unfold k1_pay1
  rw [Cert.LibColumnBlocks.matmul_zero_apply dot_S1024x2048_S2048x1024_S1024x1024_1_0_0_1_n_n rfl rfl rfl rfl
    dot_lhs_row dot_rhs_col _ _ a b none]
  refine Finset.sum_congr rfl fun k _ => ?_
  rw [shapeCast_dropUnit_apply, shapeCast_dropUnit_apply]
  exact congrArg₂ (· * ·) (congrArg v0 (cons_zero_ix2 a k)) (congrArg v2 (cons_zero_ix2 k b))

/-- The windows' index maps over the four points: the left block is slab 0 at the output's row block, all columns; the
    right block is slab 1, all rows, at the output's column block; the output's block indices are 0 or 1. -/
theorem idx_facts : ∀ t : Fin cfg1.N,
    win1_0.index t (0 : Fin 3) = 0 ∧ win1_0.index t (1 : Fin 3) = win1_2.index t (0 : Fin 2) ∧ win1_0.index t (2 : Fin 3) = 0
    ∧ win1_1.index t (0 : Fin 3) = 1 ∧ win1_1.index t (1 : Fin 3) = 0 ∧ win1_1.index t (2 : Fin 3) = win1_2.index t (1 : Fin 2)
    ∧ win1_2.index t (0 : Fin 2) ≤ 1 ∧ win1_2.index t (1 : Fin 2) ≤ 1 :=
  (by decide +kernel : ∀ t : Fin grid1.N, _)

/-- Every output block is some point's. -/
theorem idx_onto : ∀ (q0 : Fin 2) (q1 : Fin 2), ∃ t : Fin cfg1.N, win1_2.index t = ![q0.val, q1.val] :=
  (by decide +kernel : ∀ (q0 : Fin 2) (q1 : Fin 2), ∃ t : Fin grid1.N, win1_2.index t = ![q0.val, q1.val])

/-- WHAT A POINT WRITES BACK is its block of the product of the two slabs of the array the region reads. -/
theorem flushed_eq (c : Dev nD) (t : Fin cfg1.N) :
    (dat1 (F := Ideal) V c).flushed 2 t = ((cfg1.win 2).blk t).view.read (Elt Ideal) (slabProduct (V c main_v0)) := by
  show (cfg1.win 2).cut (grid1.coords t) ((dat1 (F := Ideal) V c).after 2 t) = _
  rw [after1_2]
  unfold out1_2
  rw [View.canon_unit_zero zero2]
  simp only [View.ld_unit_zero (S := S1x1024x2048) zero3, View.ld_unit_zero (S := S1x2048x1024) zero3]
  obtain ⟨e0, e1, e2, e3, e4, e5, e6, e7⟩ := idx_facts t
  funext j
  revert j
  show ∀ j : S1024x1024.Idx, k1_pay1 (iblk1 V c 0 t) (iblk1 V c 1 t) j = slabProduct (V c main_v0) (((cfg1.win 2).blk t).view.emb j)
  intro j
  obtain ⟨a, b, rfl⟩ : ∃ a b : Fin 1024, j = ix2 a b := ⟨j 0, j 1, eq_ix2 j⟩
  rw [pay_apply]
  refine Finset.sum_congr rfl fun k _ => ?_
  have h0 : ((cfg1.win 0).blk t).view.emb (ix3 (0 : Fin 1) a k) = ix3 (0 : Fin 2) ((((cfg1.win 2).blk t).view.emb (ix2 a b)) 0) k := by
    funext d; apply Fin.ext
    match d with
    | ⟨0, _⟩ => show win1_0.index t (0 : Fin 3) * 1 + 1 * 0 = 0; omega
    | ⟨1, _⟩ => show win1_0.index t (1 : Fin 3) * 1024 + 1 * a.val = win1_2.index t (0 : Fin 2) * 1024 + 1 * a.val; omega
    | ⟨2, _⟩ => show win1_0.index t (2 : Fin 3) * 2048 + 1 * k.val = k.val; omega
  have h1 : ((cfg1.win 1).blk t).view.emb (ix3 (0 : Fin 1) k b) = ix3 (1 : Fin 2) k ((((cfg1.win 2).blk t).view.emb (ix2 a b)) 1) := by
    funext d; apply Fin.ext
    match d with
    | ⟨0, _⟩ => show win1_1.index t (0 : Fin 3) * 1 + 1 * 0 = 1; omega
    | ⟨1, _⟩ => show win1_1.index t (1 : Fin 3) * 2048 + 1 * k.val = k.val; omega
    | ⟨2, _⟩ => show win1_1.index t (2 : Fin 3) * 1024 + 1 * b.val = win1_2.index t (1 : Fin 2) * 1024 + 1 * b.val; omega
  exact congrArg₂ (· * ·) (congrArg (V c main_v0 : S2x2048x2048.Idx → EReal) h0) (congrArg (V c main_v0 : S2x2048x2048.Idx → EReal) h1)

/-- An index of the output array is in a point's block iff each coordinate is in the block's range on its axis. -/
theorem mem_blk (t : Fin cfg1.N) (i : S2048x2048.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v1).slice (win1_2.rect t)).set ↔ _
  rw [View.set_slice_whole, Rect.mem_set_unit]
  exact Iff.rfl

/-- Every entry of the output lies in the block of the point (row / 1024, column / 1024), which is written back. -/
theorem cover (i : S2048x2048.Idx) : ∃ t : Fin cfg1.N, (cfg1.win 2).flush t = true ∧ i ∈ ((cfg1.win 2).blk t).view.set := by
  have hi0 : (i 0).val < 2048 := (i 0).isLt
  have hi1 : (i 1).val < 2048 := (i 1).isLt
  obtain ⟨t, ht⟩ := idx_onto ⟨(i 0).val / 1024, by omega⟩ ⟨(i 1).val / 1024, by omega⟩
  have q0 : win1_2.index t (0 : Fin 2) = (i 0).val / 1024 := congrFun ht 0
  have q1 : win1_2.index t (1 : Fin 2) = (i 1).val / 1024 := congrFun ht 1
  refine ⟨t, flush1_2 t, ?_⟩
  rw [mem_blk]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 1024 ≤ (i 1).val ∧ (i 1).val < win1_2.index t (1 : Fin 2) * 1024 + 1024; omega

theorem final (c : Dev nD) : (dat1 (F := Ideal) V c).arrAt 2 cfg1.N = slabProduct (V c main_v0) :=
  (dat1 (F := Ideal) V c).arrAt_eq_of_cover 2 (slabProduct (V c main_v0)) (fun t _ => flushed_eq V c t) cover

/-- The product at an entry. -/
theorem slabProduct_apply (X : S2x2048x2048.Idx → EReal) (a b : Fin 2048) :
    slabProduct X (ix2 a b) = ∑ k : Fin 2048, X (ix3 (0 : Fin 2) a k) * X (ix3 (1 : Fin 2) k b) := rfl

/-- Entry (a, b) of the output array after the region: the sum over k of slab 0 at (a, k) times slab 1 at (k, b). -/
theorem value1 (c : Dev nD) (a b : Fin 2048) :
    @Eq EReal ((dat1 (F := Ideal) V c).arrAt 2 cfg1.N (ix2 a b))
      (∑ k : Fin 2048, @HMul.hMul EReal EReal EReal _ (V c main_v0 (ix3 (0 : Fin 2) a k)) (V c main_v0 (ix3 (1 : Fin 2) k b))) := by
  rw [final]; rfl

end Cert.KernelIdeal.FinalValue

end
-- ==== Proof.KernelValue.lean ====
/-
  The kernel program's 2048 × 2048 result as one function of its four argument matrices, over the extended reals.

  The program's first region writes a stacked array of two 2048 × 2048 slabs: slab 0 is the product of the fourth
  argument by the third, slab 1 the product of the second argument by the first, each entry one sum over the 2048
  contracted coordinates. Its second region multiplies slab 0 by slab 1. So entry (a, b) of what the second region
  leaves is the sum over k of (∑ j, A3(a, j) · A2(j, k)) · (∑ l, A1(k, l) · A0(l, b)): the balanced product
  (A3 · A2) · (A1 · A0). Nothing is asked of the entries: each step only substitutes one sum for an array entry.
-/
import proofs.«126094_g2000509712423811_pallasbulk_371_15_alg».proof.Proof.KernelResult
import proofs.«126094_g2000509712423811_pallasbulk_371_15_alg».proof.Proof.FinalValue

noncomputable section

namespace Cert.KernelIdeal.Value

open Cert.KernelIdeal Cert.KernelIdeal.Gen Cert.KernelIdeal.Pair Cert.KernelIdeal.Final Cert.KernelIdeal.Run
open Cert.KernelIdeal.FinalValue
open Idealize.ShloMosaic Idealize.ShloMosaic.TcCoe Idealize.SL.Sem Idealize.ShloMosaic.ValueIdx

/-- The balanced product (A3 · A2) · (A1 · A0) of four matrices, entry by entry. -/
def balanced (A3 A2 A1 A0 : S2048x2048.Idx → EReal) : S2048x2048.Idx → EReal :=
  fun i => ∑ k : Fin 2048, (∑ j : Fin 2048, A3 (ix2 (i 0) j) * A2 (ix2 j k)) * (∑ l : Fin 2048, A1 (ix2 k l) * A0 (ix2 l (i 1)))

variable (m : (ℓ : Loc nD τ sig) → Buf (Elt Ideal) ℓ)

/-- The stacked array the second region reads is what the first region's write-backs left. -/
theorem stacked_eq (c : Dev nD) :
    @Eq (S2x2048x2048.Idx → EReal) (V1 m c main_v0) ((dat0 (F := Ideal) (V0 m) c).arrAt 4 cfg0.N) :=
  W1_arr m c 4

/-- If the first region leaves in slab 0 of its output the product of the fourth argument by the third and in slab 1
    the product of the second argument by the first, entry by entry, then the second region leaves in its output the
    balanced product of the four arguments. -/
theorem kernel_result_of (c : Dev nD)
    (h0 : ∀ a b : Fin 2048, @Eq EReal ((dat0 (F := Ideal) (V0 m) c).arrAt 4 cfg0.N (ix3 (0 : Fin 2) a b))
      (∑ k : Fin 2048, @HMul.hMul EReal EReal EReal _ (V0 m c main_arg3 (ix2 a k)) (V0 m c main_arg2 (ix2 k b))))
    (h1 : ∀ a b : Fin 2048, @Eq EReal ((dat0 (F := Ideal) (V0 m) c).arrAt 4 cfg0.N (ix3 (1 : Fin 2) a b))
      (∑ k : Fin 2048, @HMul.hMul EReal EReal EReal _ (V0 m c main_arg1 (ix2 a k)) (V0 m c main_arg0 (ix2 k b)))) :
    @Eq (S2048x2048.Idx → EReal) (W2 m c (Proc.devRef .tc main_v1))
      (balanced (m ((c : Thread nD τ).loc main_arg3)) (m ((c : Thread nD τ).loc main_arg2))
        (m ((c : Thread nD τ).loc main_arg1)) (m ((c : Thread nD τ).loc main_arg0))) := by
  refine (W2_v1 m c).trans ?_
  refine (final (V1 m) c).trans ?_
  funext i
  show slabProduct (V1 m c main_v0) i = _
  unfold slabProduct balanced
  refine Finset.sum_congr rfl fun k _ => ?_
  exact congrArg₂ (· * ·)
    ((congrFun (stacked_eq m c) _).trans (h0 (i 0) k))
    ((congrFun (stacked_eq m c) _).trans (h1 k (i 1)))

end Cert.KernelIdeal.Value

end
-- ==== Proof.LibTileSum.lean ====
/-
  Sums over an index range cut into tiles of equal width.

  An index `h < T * w` is `j * w + n` for one tile `j < T` and one offset `n < w`, so a sum over all `h` is the sum over
  the tiles of the sums inside each tile. The partial sums over the tiles `0, …, hh` start at the first tile's sum, grow by
  one tile's sum at a time, and are the whole sum once `hh` is the last tile. Both hold in any commutative additive
  monoid: only the order and the grouping of the terms change.
-/
import Mathlib.Algebra.BigOperators.Fin
import Mathlib.Algebra.BigOperators.Group.Finset.Basic
import Mathlib.Logic.Equiv.Fin.Basic
import Mathlib.Tactic.Ring

namespace Cert.TileSum

variable {M : Type*} [AddCommMonoid M]

/-- The index of offset `n` inside tile `j`. -/
def tileIdx {T w N : ℕ} (hN : N = T * w) (j : Fin T) (n : Fin w) : Fin N :=
  ⟨j.val * w + n.val, by
    have h1 := j.isLt; have h2 := n.isLt
    have : j.val * w + w ≤ T * w := by
      rw [← Nat.succ_mul]; exact Nat.mul_le_mul_right w h1
    omega⟩

@[simp] theorem tileIdx_val {T w N : ℕ} (hN : N = T * w) (j : Fin T) (n : Fin w) :
    (tileIdx hN j n).val = j.val * w + n.val := rfl

/-- A sum over all indices is the sum, over the tiles, of the sums inside each tile. -/
theorem sum_tiles {T w N : ℕ} (hN : N = T * w) (f : Fin N → M) :
    ∑ h : Fin N, f h = ∑ j : Fin T, ∑ n : Fin w, f (tileIdx hN j n) := by
  subst hN
  rw [← Equiv.sum_comp finProdFinEquiv f, Fintype.sum_prod_type]
  refine Finset.sum_congr rfl fun j _ => Finset.sum_congr rfl fun n _ => congrArg f (Fin.ext ?_)
  simp [finProdFinEquiv, tileIdx, Nat.mul_comm, Nat.add_comm]

/-- The sum of the tile values `D j` over the tiles `j ≤ hh`. -/
def upTo {T : ℕ} (D : Fin T → M) (hh : ℕ) : M := ∑ j : Fin T, if j.val ≤ hh then D j else 0

theorem upTo_zero {T : ℕ} (D : Fin T → M) (hT : 0 < T) : upTo D 0 = D ⟨0, hT⟩ := by
  unfold upTo
  rw [Finset.sum_eq_single (⟨0, hT⟩ : Fin T)]
  · simp
  · intro j _ hj
    have : ¬ j.val ≤ 0 := fun h => hj (Fin.ext (by simpa using h))
    simp [this]
  · intro h; exact absurd (Finset.mem_univ _) h

theorem upTo_succ {T : ℕ} (D : Fin T → M) (hh : ℕ) (h : hh + 1 < T) :
    upTo D (hh + 1) = upTo D hh + D ⟨hh + 1, h⟩ := by
  unfold upTo
  have e : ∀ j : Fin T, (if j.val ≤ hh + 1 then D j else 0)
      = (if j.val ≤ hh then D j else 0) + (if j = ⟨hh + 1, h⟩ then D j else 0) := by
    intro j
    by_cases h1 : j.val ≤ hh
    · have h2 : j ≠ ⟨hh + 1, h⟩ := fun e => by
        have e' : j.val = hh + 1 := congrArg Fin.val e
        omega
      rw [if_pos h1, if_pos (Nat.le_succ_of_le h1), if_neg h2, add_zero]
    · by_cases h2 : j = ⟨hh + 1, h⟩
      · have h3 : j.val ≤ hh + 1 := by
          have e' : j.val = hh + 1 := congrArg Fin.val h2
          omega
        rw [if_neg h1, if_pos h3, if_pos h2, zero_add]
      · have h3 : ¬ j.val ≤ hh + 1 := fun h3 => h2 (Fin.ext (by show j.val = hh + 1; omega))
        rw [if_neg h1, if_neg h3, if_neg h2, add_zero]
  simp only [e, Finset.sum_add_distrib, Finset.sum_ite_eq', Finset.mem_univ, if_true]

theorem upTo_last {T : ℕ} (D : Fin T → M) (hh : ℕ) (h : T ≤ hh + 1) : upTo D hh = ∑ j : Fin T, D j := by
  unfold upTo
  refine Finset.sum_congr rfl fun j _ => if_pos ?_
  have := j.isLt; omega

end Cert.TileSum
-- ==== Proof.LibAccum.lean ====
/-
  A running total over tiles.

  A quantity is accumulated over the tiles of an index range, one tile at a time: at the first tile it is that tile's sum
  (or zero plus it), and at every later tile it is the value at the tile before plus that tile's sum. Then at the last
  tile it is the sum over the whole range. This holds in any commutative additive monoid: nothing but the grouping of
  the terms is used. It is stated for any number of tiles of any width, and then at four tiles of 512 within 2048 with
  the steps numbered along a sequence in which every group of four consecutive steps is one pass over the tiles.
-/
import proofs.«126094_g2000509712423811_pallasbulk_371_15_alg».proof.Proof.LibTileSum

namespace Cert.Accum

open Cert.TileSum

variable {M : Type*} [AddCommMonoid M]

/-- A sequence that starts at the first tile's value and grows by one tile's value at a time is, at the last tile, the
    sum of all the tile values. -/
theorem running_total {T : ℕ} (hT : 0 < T) (D : Fin T → M) (a : ℕ → M)
    (h0 : a 0 = D ⟨0, hT⟩) (hs : ∀ (k : ℕ) (hk : k + 1 < T), a (k + 1) = a k + D ⟨k + 1, hk⟩) :
    a (T - 1) = ∑ j : Fin T, D j := by
  have key : ∀ k : ℕ, k < T → a k = upTo D k := by
    intro k
    induction k with
    | zero => intro _; rw [h0, upTo_zero D hT]
    | succ k ih => intro hk; rw [hs k hk, ih (by omega), upTo_succ D k hk]
  rw [key (T - 1) (by omega), upTo_last D (T - 1) (by omega)]

/-- The same with each tile's value the sum of `h` inside the tile: at the last tile the sequence is the sum of `h` over
    the whole range of `T` tiles of width `w`. -/
theorem accum_tiles {T w N : ℕ} (hN : N = T * w) (hT : 0 < T) (h : Fin N → M) (a : ℕ → M)
    (hA : a 0 = ∑ l : Fin w, h (tileIdx hN ⟨0, hT⟩ l))
    (hB : ∀ (k : ℕ) (hk : k + 1 < T), a (k + 1) = a k + ∑ l : Fin w, h (tileIdx hN ⟨k + 1, hk⟩ l)) :
    a (T - 1) = ∑ L : Fin N, h L := by
  rw [sum_tiles hN h]
  exact running_total hT (fun j => ∑ l : Fin w, h (tileIdx hN j l)) a hA hB

/-! ## Four tiles of 512 within 2048, the steps numbered 4 · ti + tj -/

/-- Pass `ti` over the four tiles: step `4 · ti` holds the first tile's sum, step `4 · ti + tj` (tj = 1, 2, 3) the step
    before plus tile `tj`'s sum. Then step `4 · ti + 3` holds the sum over all 2048 indices. -/
theorem accum_closed (h : Fin 2048 → M) (a : ℕ → M) (ti : ℕ)
    (hA : a (4 * ti) = ∑ l : Fin 512, h ⟨0 * 512 + l.val, by omega⟩)
    (hB : ∀ (tj : ℕ) (_ : 0 < tj) (h4 : tj < 4),
      a (4 * ti + tj) = a (4 * ti + tj - 1) + ∑ l : Fin 512, h ⟨tj * 512 + l.val, by omega⟩) :
    a (4 * ti + 3) = ∑ L : Fin 2048, h L := by
  refine accum_tiles (T := 4) (w := 512) (N := 2048) (by norm_num) (by norm_num) h (fun k => a (4 * ti + k)) hA ?_
  intro k hk
  have e : 4 * ti + (k + 1) - 1 = 4 * ti + k := by omega
  have s := hB (k + 1) (by omega) hk
  rw [e] at s
  exact s

/-- The same with the first step stated as zero plus the first tile's sum (an accumulator cleared, then added to). -/
theorem accum_closed_zero (h : Fin 2048 → M) (a : ℕ → M) (ti : ℕ)
    (hA : a (4 * ti) = 0 + ∑ l : Fin 512, h ⟨0 * 512 + l.val, by omega⟩)
    (hB : ∀ (tj : ℕ) (_ : 0 < tj) (h4 : tj < 4),
      a (4 * ti + tj) = a (4 * ti + tj - 1) + ∑ l : Fin 512, h ⟨tj * 512 + l.val, by omega⟩) :
    a (4 * ti + 3) = ∑ L : Fin 2048, h L :=
  accum_closed h a ti (hA.trans (zero_add _)) hB

/-- The same at a step `t` named by its remainder and quotient: `t % 4 = 3` and `t / 4 = ti`. -/
theorem accum_closed_at (h : Fin 2048 → M) (a : ℕ → M) (t ti : ℕ) (ht : t % 4 = 3) (hti : t / 4 = ti)
    (hA : a (4 * ti) = 0 + ∑ l : Fin 512, h ⟨0 * 512 + l.val, by omega⟩)
    (hB : ∀ (tj : ℕ) (_ : 0 < tj) (h4 : tj < 4),
      a (4 * ti + tj) = a (4 * ti + tj - 1) + ∑ l : Fin 512, h ⟨tj * 512 + l.val, by omega⟩) :
    a t = ∑ L : Fin 2048, h L := by
  have e : t = 4 * ti + 3 := by omega
  rw [e]
  exact accum_closed_zero h a ti hA hB

/-- The same from the steps' own description: a step whose remainder by 4 is zero holds zero plus the first tile's sum,
    any other step holds the step before plus the sum of the tile its remainder names. Then every step of remainder 3
    holds the sum over all 2048 indices. -/
theorem accum_closed_steps (h : Fin 2048 → M) (a : ℕ → M)
    (hA : ∀ t : ℕ, t % 4 = 0 → a t = 0 + ∑ l : Fin 512, h ⟨0 * 512 + l.val, by omega⟩)
    (hB : ∀ (t : ℕ) (_ : t % 4 ≠ 0),
      a t = a (t - 1) + ∑ l : Fin 512, h ⟨t % 4 * 512 + l.val, by have := Nat.mod_lt t (by norm_num : 0 < 4); omega⟩)
    (t : ℕ) (ht : t % 4 = 3) : a t = ∑ L : Fin 2048, h L := by
  refine accum_closed_at h a t (t / 4) ht rfl (hA _ (by omega)) ?_
  intro tj h0 h4
  have hm : (4 * (t / 4) + tj) % 4 = tj := by omega
  have s := hB (4 * (t / 4) + tj) (by omega)
  refine s.trans (congrArg _ (Finset.sum_congr rfl fun l _ => congrArg h (Fin.ext ?_)))
  show (4 * (t / 4) + tj) % 4 * 512 + l.val = tj * 512 + l.val
  rw [hm]

end Cert.Accum
-- ==== Proof.PairValue.lean ====
import proofs.«126094_g2000509712423811_pallasbulk_371_15_alg».proof.Proof.Gen.KernelIdeal.Launch
import proofs.«126094_g2000509712423811_pallasbulk_371_15_alg».proof.Proof.Gen.KernelIdeal.Skeleton
import proofs.«126094_g2000509712423811_pallasbulk_371_15_alg».proof.Proof.Gen.KernelIdeal.Points
import proofs.«126094_g2000509712423811_pallasbulk_371_15_alg».proof.Proof.LibTileSum
import proofs.«126094_g2000509712423811_pallasbulk_371_15_alg».proof.Proof.LibAccum
import proofs.«126094_g2000509712423811_pallasbulk_371_15_alg».proof.Proof.LibColumnBlocks
import proofs.«126094_g2000509712423811_pallasbulk_371_15_alg».proof.Proof.PairRegion
import Idealize.ShloMosaic.PureOps.Ideal.Laws
import Idealize.ShloMosaic.Lib.ValueIdx
import Idealize.ShloMosaic.Lib.Pipeline.Value
import Idealize.ShloMosaic.Lib.Tactic

set_option maxRecDepth 16384

noncomputable section

namespace Cert.KernelIdeal.PairValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! # The value of region 0's output over the extended reals

The region runs two passes of eight points. Pass `s` clears an accumulator at its first point and adds, at point `k`, the
product of the `k`-th column tile (256 wide) of its left matrix with the `k`-th row tile of its right matrix; at its
last point it stores the accumulator into slab `s` of the output. So slab `s` at `(a, b)` is the sum over all 2048
contracted coordinates of `left (a, k) · right (k, b)`: the eight tile sums regrouped into one sum. -/

/-! ## The payloads over the extended reals -/

/-- The block the reset stores is zero everywhere. -/
theorem pay1_apply (j : S2048x2048.Idx) : k0_pay1 (F := Ideal) j = 0 := by
  unfold k0_pay1
  rw [shapeCast_self]
  show Ideal.ofBits .f32 0x00000000#32 = 0
  exact Ideal.ofBits_zero_f32

/-- The output block is the accumulator with a leading unit axis: narrowing is the identity over the extended reals. -/
theorem pay3_apply (v : Vec Ideal S2048x2048 .f32) (z : Fin 1) (a b : Fin 2048) :
    k0_pay3 v (ix3 z a b) = v (ix2 a b) := by
  unfold k0_pay3
  rw [shapeCast_addUnit_apply ![2048, 2048]]
  show v _ = v _
  congr 1
  funext d
  match d with
  | ⟨0, _⟩ => rfl
  | ⟨1, _⟩ => rfl

/-- The product of one pair of blocks into a zero accumulator, at a coordinate pair: the sum over the tile's 256
    contracted coordinates. -/
theorem tile_dot (l : Vec Ideal S2048x256 .f32) (r : Vec Ideal S256x2048 .f32) (a b : Fin 2048) :
    matmul dot_S2048x256_S256x2048_S2048x2048_1_0_0_1_n_n none (truncf .bf16 l Facts₀.bitsLt_bf16_f32 : FVec Ideal S2048x256 .bf16) (truncf .bf16 r Facts₀.bitsLt_bf16_f32 : FVec Ideal S256x2048 .bf16)
        (constant S2048x2048 .f32 0x00000000#32) (ix2 a b)
      = ∑ k : Fin 256, l (ix2 a k) * r (ix2 k b) :=
  Cert.LibColumnBlocks.matmul_zero_apply dot_S2048x256_S256x2048_S2048x2048_1_0_0_1_n_n rfl rfl rfl rfl (fun j k => rfl) (fun j k => rfl) _ _ a b none

/-- The accumulator after a point, at a coordinate pair, when the point's first grid coordinate is zero: what it held
    plus the product of the first pair of blocks. -/
theorem pay2_apply_fst (i : grid0.Coords) (hs : Scalar.cmpi .eq (BitVec.ofNat 32 (i 0).val) 0#32 = 1#1)
    (v4 v5 : Vec Ideal S2048x256 .f32) (v9 v10 : Vec Ideal S256x2048 .f32) (v13 : Vec Ideal S2048x2048 .f32) (a b : Fin 2048) :
    k0_pay2 i v4 v5 v9 v10 v13 (ix2 a b) = v13 (ix2 a b) + ∑ k : Fin 256, v4 (ix2 a k) * v9 (ix2 k b) := by
  unfold k0_pay2
  simp only [hs, select_one]
  rw [shapeCast_self, addf_apply, tile_dot]

/-- The same when it is not: the second pair of blocks. -/
theorem pay2_apply_snd (i : grid0.Coords) (hs : Scalar.cmpi .eq (BitVec.ofNat 32 (i 0).val) 0#32 = 0#1)
    (v4 v5 : Vec Ideal S2048x256 .f32) (v9 v10 : Vec Ideal S256x2048 .f32) (v13 : Vec Ideal S2048x2048 .f32) (a b : Fin 2048) :
    k0_pay2 i v4 v5 v9 v10 v13 (ix2 a b) = v13 (ix2 a b) + ∑ k : Fin 256, v5 (ix2 a k) * v10 (ix2 k b) := by
  unfold k0_pay2
  simp only [hs, select_zero]
  rw [shapeCast_self, addf_apply, tile_dot]

open Cert.KernelIdeal.Pair Cert.TileSum Cert.Accum

variable (V : (c : Dev nD) → (b : Ref sig .tc) → Buf (Elt Ideal) ((c : Thread nD τ).loc b))

/-! ## The index maps, decided over the grid -/

/-- The output's block is the point's first coordinate; the first pair's blocks move with the second coordinate while
    the first is zero, the second pair's while it is one; and the body's select follows the first coordinate. -/
theorem idx_facts : ∀ t : Fin cfg0.N,
    (win0_4.index t 0 = t.val / 8 ∧ win0_4.index t 1 = 0 ∧ win0_4.index t 2 = 0)
    ∧ (t.val < 8 → win0_0.index t 0 = 0 ∧ win0_0.index t 1 = t.val % 8 ∧ win0_1.index t 0 = t.val % 8 ∧ win0_1.index t 1 = 0
        ∧ Scalar.cmpi .eq (BitVec.ofNat 32 (grid0.coords t 0).val) 0#32 = 1#1)
    ∧ (8 ≤ t.val → win0_2.index t 0 = 0 ∧ win0_2.index t 1 = t.val % 8 ∧ win0_3.index t 0 = t.val % 8 ∧ win0_3.index t 1 = 0
        ∧ Scalar.cmpi .eq (BitVec.ofNat 32 (grid0.coords t 0).val) 0#32 = 0#1) :=
  (by decide +kernel : ∀ t : Fin grid0.N,
    (win0_4.index t 0 = t.val / 8 ∧ win0_4.index t 1 = 0 ∧ win0_4.index t 2 = 0)
    ∧ (t.val < 8 → win0_0.index t 0 = 0 ∧ win0_0.index t 1 = t.val % 8 ∧ win0_1.index t 0 = t.val % 8 ∧ win0_1.index t 1 = 0
        ∧ Scalar.cmpi .eq (BitVec.ofNat 32 (grid0.coords t 0).val) 0#32 = 1#1)
    ∧ (8 ≤ t.val → win0_2.index t 0 = 0 ∧ win0_2.index t 1 = t.val % 8 ∧ win0_3.index t 0 = t.val % 8 ∧ win0_3.index t 1 = 0
        ∧ Scalar.cmpi .eq (BitVec.ofNat 32 (grid0.coords t 0).val) 0#32 = 0#1))

/-! ## The four argument matrices, as the region finds them -/

/-- Argument `r` of the program read as a 2048 × 2048 matrix over the extended reals. -/
def A0 (c : Dev nD) : Vec Ideal S2048x2048 .f32 := V c main_arg0
def A1 (c : Dev nD) : Vec Ideal S2048x2048 .f32 := V c main_arg1
def A2 (c : Dev nD) : Vec Ideal S2048x2048 .f32 := V c main_arg2
def A3 (c : Dev nD) : Vec Ideal S2048x2048 .f32 := V c main_arg3

/-! ## The input blocks at coordinates -/

/-- A left block (2048 rows, 256 columns) at block index `(0, kk)` reads its array at column `256 · kk + l`; a right
    block (256 rows, 2048 columns) at block index `(kk, 0)` reads its array at row `256 · kk + l`. -/
theorem iblk0_0_apply (c : Dev nD) (t : Fin cfg0.N) (kk : ℕ) (hk : kk < 8) (h0 : win0_0.index t 0 = 0) (h1 : win0_0.index t 1 = kk)
    (a : Fin 2048) (l : Fin 256) :
    (iblk0 V c 0 t : Vec Ideal S2048x256 .f32) (ix2 a l) = A3 V c (ix2 a ⟨kk * 256 + l.val, by have := l.isLt; omega⟩) := by
  unfold iblk0
  rw [View.read_apply]
  show V c main_arg3 _ = V c main_arg3 _
  congr 1
  funext d
  apply Fin.ext
  match d with
  | ⟨0, _⟩ => show win0_0.index t 0 * 2048 + 1 * a.val = a.val; rw [h0]; omega
  | ⟨1, _⟩ => show win0_0.index t 1 * 256 + 1 * l.val = kk * 256 + l.val; rw [h1]; omega

theorem iblk0_2_apply (c : Dev nD) (t : Fin cfg0.N) (kk : ℕ) (hk : kk < 8) (h0 : win0_2.index t 0 = 0) (h1 : win0_2.index t 1 = kk)
    (a : Fin 2048) (l : Fin 256) :
    (iblk0 V c 2 t : Vec Ideal S2048x256 .f32) (ix2 a l) = A1 V c (ix2 a ⟨kk * 256 + l.val, by have := l.isLt; omega⟩) := by
  unfold iblk0
  rw [View.read_apply]
  show V c main_arg1 _ = V c main_arg1 _
  congr 1
  funext d
  apply Fin.ext
  match d with
  | ⟨0, _⟩ => show win0_2.index t 0 * 2048 + 1 * a.val = a.val; rw [h0]; omega
  | ⟨1, _⟩ => show win0_2.index t 1 * 256 + 1 * l.val = kk * 256 + l.val; rw [h1]; omega

theorem iblk0_1_apply (c : Dev nD) (t : Fin cfg0.N) (kk : ℕ) (hk : kk < 8) (h0 : win0_1.index t 0 = kk) (h1 : win0_1.index t 1 = 0)
    (l : Fin 256) (b : Fin 2048) :
    (iblk0 V c 1 t : Vec Ideal S256x2048 .f32) (ix2 l b) = A2 V c (ix2 ⟨kk * 256 + l.val, by have := l.isLt; omega⟩ b) := by
  unfold iblk0
  rw [View.read_apply]
  show V c main_arg2 _ = V c main_arg2 _
  congr 1
  funext d
  apply Fin.ext
  match d with
  | ⟨0, _⟩ => show win0_1.index t 0 * 256 + 1 * l.val = kk * 256 + l.val; rw [h0]; omega
  | ⟨1, _⟩ => show win0_1.index t 1 * 2048 + 1 * b.val = b.val; rw [h1]; omega

theorem iblk0_3_apply (c : Dev nD) (t : Fin cfg0.N) (kk : ℕ) (hk : kk < 8) (h0 : win0_3.index t 0 = kk) (h1 : win0_3.index t 1 = 0)
    (l : Fin 256) (b : Fin 2048) :
    (iblk0 V c 3 t : Vec Ideal S256x2048 .f32) (ix2 l b) = A0 V c (ix2 ⟨kk * 256 + l.val, by have := l.isLt; omega⟩ b) := by
  unfold iblk0
  rw [View.read_apply]
  show V c main_arg0 _ = V c main_arg0 _
  congr 1
  funext d
  apply Fin.ext
  match d with
  | ⟨0, _⟩ => show win0_3.index t 0 * 256 + 1 * l.val = kk * 256 + l.val; rw [h0]; omega
  | ⟨1, _⟩ => show win0_3.index t 1 * 2048 + 1 * b.val = b.val; rw [h1]; omega

/-! ## One point's step -/

/-- At a point of the first pass the accumulator gains the product of the first pair's tiles. -/
theorem step_fst (c : Dev nD) (t : Fin cfg0.N) (ht : t.val < 8) (prev : Vec Ideal S2048x2048 .f32) (a b : Fin 2048) :
    k0_pay2 (grid0.coords t) (iblk0 V c 0 t) (iblk0 V c 2 t) (iblk0 V c 1 t) (iblk0 V c 3 t) prev (ix2 a b)
      = prev (ix2 a b) + ∑ l : Fin 256, A3 V c (ix2 a ⟨t.val % 8 * 256 + l.val, by have := l.isLt; omega⟩) * A2 V c (ix2 ⟨t.val % 8 * 256 + l.val, by have := l.isLt; omega⟩ b) := by
  obtain ⟨-, hf, -⟩ := idx_facts t
  obtain ⟨a0, a1, b0, b1, hs⟩ := hf ht
  rw [pay2_apply_fst _ hs]
  congr 1
  refine Finset.sum_congr rfl fun l _ => ?_
  rw [iblk0_0_apply V c t (t.val % 8) (Nat.mod_lt _ (by norm_num)) a0 a1, iblk0_1_apply V c t (t.val % 8) (Nat.mod_lt _ (by norm_num)) b0 b1]

/-- At a point of the second pass, of the second pair's. -/
theorem step_snd (c : Dev nD) (t : Fin cfg0.N) (ht : 8 ≤ t.val) (prev : Vec Ideal S2048x2048 .f32) (a b : Fin 2048) :
    k0_pay2 (grid0.coords t) (iblk0 V c 0 t) (iblk0 V c 2 t) (iblk0 V c 1 t) (iblk0 V c 3 t) prev (ix2 a b)
      = prev (ix2 a b) + ∑ l : Fin 256, A1 V c (ix2 a ⟨t.val % 8 * 256 + l.val, by have := l.isLt; omega⟩) * A0 V c (ix2 ⟨t.val % 8 * 256 + l.val, by have := l.isLt; omega⟩ b) := by
  obtain ⟨-, -, hf⟩ := idx_facts t
  obtain ⟨a0, a1, b0, b1, hs⟩ := hf ht
  rw [pay2_apply_snd _ hs]
  congr 1
  refine Finset.sum_congr rfl fun l _ => ?_
  rw [iblk0_2_apply V c t (t.val % 8) (Nat.mod_lt _ (by norm_num)) a0 a1, iblk0_3_apply V c t (t.val % 8) (Nat.mod_lt _ (by norm_num)) b0 b1]

/-! ## One pass over the eight tiles -/

theorem acc0_congr (c : Dev nD) {n n' : ℕ} (e : n = n') (h : n < cfg0.N) (h' : n' < cfg0.N) : acc0 V c n h = acc0 V c n' h' := by
  subst e; rfl

/-- A pass that starts at point `q` (a first tile) and gains, at each of its eight points, the product of the tiles of
    two fixed matrices, holds after its last point the whole product, at every coordinate pair. -/
theorem acc_closed (c : Dev nD) (q : ℕ) (hq : q + 7 < cfg0.N) (hq8 : q % 8 = 0) (Lt Rt : Vec Ideal S2048x2048 .f32) (a b : Fin 2048)
    (hstep : ∀ (t : Fin cfg0.N), q ≤ t.val → t.val < q + 8 → ∀ prev : Vec Ideal S2048x2048 .f32,
      k0_pay2 (grid0.coords t) (iblk0 V c 0 t) (iblk0 V c 2 t) (iblk0 V c 1 t) (iblk0 V c 3 t) prev (ix2 a b)
        = prev (ix2 a b) + ∑ l : Fin 256, Lt (ix2 a ⟨t.val % 8 * 256 + l.val, by have := l.isLt; omega⟩) * Rt (ix2 ⟨t.val % 8 * 256 + l.val, by have := l.isLt; omega⟩ b)) :
    acc0 V c (q + 7) hq (ix2 a b) = ∑ k : Fin 2048, Lt (ix2 a k) * Rt (ix2 k b) := by
  have hN : cfg0.N = 16 := N_0
  have key := accum_tiles (T := 8) (w := 256) (N := 2048) (by norm_num) (by norm_num)
    (fun k : Fin 2048 => Lt (ix2 a k) * Rt (ix2 k b))
    (fun j => if hj : q + j < cfg0.N then acc0 V c (q + j) hj (ix2 a b) else 0) ?hA ?hB
  · have e : (if hj : q + 7 < cfg0.N then acc0 V c (q + 7) hj (ix2 a b) else 0) = ∑ k : Fin 2048, Lt (ix2 a k) * Rt (ix2 k b) := key
    rw [dif_pos hq] at e; exact e
  case hA =>
    show (if hj : q + 0 < cfg0.N then acc0 V c (q + 0) hj (ix2 a b) else 0) = _
    rw [dif_pos (by omega)]
    rw [acc0_first V c ⟨q + 0, by omega⟩ (by show (q + 0) % 8 = 0; omega), hstep ⟨q + 0, by omega⟩ (by show q ≤ q + 0; omega) (by show q + 0 < q + 8; omega), pay1_apply, zero_add]
    refine Finset.sum_congr rfl fun l _ => ?_
    have e : ∀ h1, (⟨(q + 0) % 8 * 256 + l.val, h1⟩ : Fin 2048) = tileIdx (by norm_num : 2048 = 8 * 256) ⟨0, by norm_num⟩ l :=
      fun h1 => Fin.ext (by show (q + 0) % 8 * 256 + l.val = 0 * 256 + l.val; omega)
    simp only [e]
  case hB =>
    intro k hk
    show (if hj : q + (k + 1) < cfg0.N then acc0 V c (q + (k + 1)) hj (ix2 a b) else 0)
      = (if hj : q + k < cfg0.N then acc0 V c (q + k) hj (ix2 a b) else 0) + _
    rw [dif_pos (by omega), dif_pos (by omega)]
    rw [acc0_next V c ⟨q + (k + 1), by omega⟩ (by show ¬(q + (k + 1)) % 8 = 0; omega), hstep ⟨q + (k + 1), by omega⟩ (by show q ≤ q + (k + 1); omega) (by show q + (k + 1) < q + 8; omega)]
    rw [acc0_congr V c (show q + (k + 1) - 1 = q + k by omega) _ (by omega)]
    congr 1
    refine Finset.sum_congr rfl fun l _ => ?_
    have e : ∀ h1, (⟨(q + (k + 1)) % 8 * 256 + l.val, h1⟩ : Fin 2048) = tileIdx (by norm_num : 2048 = 8 * 256) ⟨k + 1, hk⟩ l :=
      fun h1 => Fin.ext (by
        show (q + (k + 1)) % 8 * 256 + l.val = (k + 1) * 256 + l.val
        have : (q + (k + 1)) % 8 = k + 1 := by omega
        rw [this])
    simp only [e]

/-! ## The result -/

/-- The left and right matrices of pass `s`. -/
def Lm (c : Dev nD) (s : ℕ) : Vec Ideal S2048x2048 .f32 := if s = 0 then A3 V c else A1 V c
def Rm (c : Dev nD) (s : ℕ) : Vec Ideal S2048x2048 .f32 := if s = 0 then A2 V c else A0 V c

/-- After the last point of a pass the accumulator holds the pass's product. -/
theorem acc_last (c : Dev nD) (t : Fin cfg0.N) (h7 : t.val % 8 = 7) (a b : Fin 2048) :
    acc0 V c t.val t.isLt (ix2 a b) = ∑ k : Fin 2048, Lm V c (t.val / 8) (ix2 a k) * Rm V c (t.val / 8) (ix2 k b) := by
  have hN : t.val < 16 := lt_of_lt_of_eq t.isLt (show cfg0.N = 16 from N_0)
  have hN' : cfg0.N = 16 := N_0
  rw [acc0_congr V c (show t.val = (t.val - 7) + 7 by omega) t.isLt (by omega)]
  refine acc_closed V c (t.val - 7) _ (by omega) _ _ a b fun t' h1 h2 prev => ?_
  by_cases hs : t.val < 8
  · have e : t.val / 8 = 0 := by omega
    rw [e]
    simp only [Lm, Rm, if_true]
    exact step_fst V c t' (by omega) prev a b
  · have e : t.val / 8 = 1 := by omega
    rw [e]
    simp only [Lm, Rm, if_neg one_ne_zero]
    exact step_snd V c t' (by omega) prev a b

/-! ## The output array after the run -/

/-- The output block is the accumulator with a leading unit axis, at any index of the block. -/
theorem pay3_apply' (v : Vec Ideal S2048x2048 .f32) (j : S1x2048x2048.Idx) :
    k0_pay3 v j = v (ix2 (j 1) (j 2)) := by
  rw [eq_ix3 j]
  exact pay3_apply v _ _ _

/-- The whole result: slab `s` of the output holds the product of pass `s`. -/
def G (c : Dev nD) : Buf (Elt Ideal) ((c : Thread nD τ).loc main_v0) :=
  fun (i : S2x2048x2048.Idx) => (∑ k : Fin 2048, Lm V c (i 0).val (ix2 (i 1) k) * Rm V c (i 0).val (ix2 k (i 2)) : EReal)

theorem G_apply_of (c : Dev nD) (i : S2x2048x2048.Idx) (s : ℕ) (a b : Fin 2048) (h0 : (i 0).val = s) (h1 : (i 1).val = a.val) (h2 : (i 2).val = b.val) :
    @Eq EReal (G V c i) (∑ k : Fin 2048, Lm V c s (ix2 a k) * Rm V c s (ix2 k b)) := by
  have e1 : i 1 = a := Fin.ext h1
  have e2 : i 2 = b := Fin.ext h2
  unfold G
  show @Eq EReal (∑ k : Fin 2048, Lm V c (i 0).val (ix2 (i 1) k) * Rm V c (i 0).val (ix2 k (i 2))) _
  rw [h0, e1, e2]

/-- What a last point of a pass writes back is its block of `G`. -/
theorem flushed_eq (c : Dev nD) (t : Fin cfg0.N) (hf : (cfg0.win 4).flush t = true) :
    (dat0 V c).flushed 4 t = ((cfg0.win 4).blk t).view.read (Elt Ideal) (G V c) := by
  have h7 : t.val % 8 = 7 := (flush0_4 t).mp hf
  obtain ⟨⟨i0, i1, i2⟩, -, -⟩ := idx_facts t
  funext y
  show (cfg0.win 4).cut (grid0.coords t) ((dat0 V c).after 4 t) y = _
  rw [after0_4, View.read_apply]
  show k0_pay3 (acc0 V c t.val t.isLt) ((cfg0.win 4).xinj (grid0.coords t) y) = G V c (((cfg0.win 4).blk t).view.emb y)
  have hy1 : (y 1).val < 2048 := (y 1).isLt
  have hy2 : (y 2).val < 2048 := (y 2).isLt
  rw [pay3_apply']
  show @Eq EReal (acc0 V c t.val t.isLt (ix2 (⟨(y 1).val, hy1⟩ : Fin 2048) (⟨(y 2).val, hy2⟩ : Fin 2048))) _
  rw [acc_last V c t h7]
  refine (G_apply_of V c _ (t.val / 8) ⟨(y 1).val, hy1⟩ ⟨(y 2).val, hy2⟩ ?_ ?_ ?_).symm
  · show win0_4.index t 0 * 1 + 1 * (y 0).val = t.val / 8
    have : (y 0).val < 1 := (y 0).isLt
    rw [i0]; omega
  · show win0_4.index t 1 * 2048 + 1 * (y 1).val = (y 1).val
    rw [i1]; omega
  · show win0_4.index t 2 * 2048 + 1 * (y 2).val = (y 2).val
    rw [i2]; omega

/-- Every index of the output lies in the block some last point of a pass writes back. -/
theorem cover (c : Dev nD) (i : ((cfg0.win 4).arr.view.loc (c.tc : Thread nD τ)).2.ty.Idx) :
    ∃ t : Fin cfg0.N, (cfg0.win 4).flush t = true ∧ i ∈ ((cfg0.win 4).blk t).view.set := by
  have hN : cfg0.N = 16 := N_0
  have h0 : (i 0 : Nat) < 2 := (i 0).isLt
  have h1 : (i 1 : Nat) < 2048 := (i 1).isLt
  have h2 : (i 2 : Nat) < 2048 := (i 2).isLt
  have ht : 8 * (i 0 : Nat) + 7 < cfg0.N := by omega
  obtain ⟨⟨i0, i1, i2⟩, -, -⟩ := idx_facts ⟨8 * (i 0 : Nat) + 7, ht⟩
  have hd : (8 * (i 0 : Nat) + 7) / 8 = (i 0 : Nat) := by omega
  refine ⟨⟨8 * (i 0 : Nat) + 7, ht⟩, (flush0_4 _).mpr (by show (8 * (i 0 : Nat) + 7) % 8 = 7; omega), ?_⟩
  show i ∈ ((View.whole main_v0).slice (win0_4.rect ⟨8 * (i 0 : Nat) + 7, ht⟩)).set
  rw [View.set_slice_whole, Rect.mem_set_unit]
  intro a
  match a with
  | ⟨0, _⟩ =>
    show win0_4.index ⟨8 * (i 0 : Nat) + 7, ht⟩ 0 * 1 ≤ (i 0 : Nat) ∧ (i 0 : Nat) < win0_4.index ⟨8 * (i 0 : Nat) + 7, ht⟩ 0 * 1 + 1
    rw [i0]
    show (8 * (i 0 : Nat) + 7) / 8 * 1 ≤ (i 0 : Nat) ∧ (i 0 : Nat) < (8 * (i 0 : Nat) + 7) / 8 * 1 + 1
    rw [hd]; omega
  | ⟨1, _⟩ =>
    show win0_4.index ⟨8 * (i 0 : Nat) + 7, ht⟩ 1 * 2048 ≤ (i 1 : Nat) ∧ (i 1 : Nat) < win0_4.index ⟨8 * (i 0 : Nat) + 7, ht⟩ 1 * 2048 + 2048
    rw [i1]; omega
  | ⟨2, _⟩ =>
    show win0_4.index ⟨8 * (i 0 : Nat) + 7, ht⟩ 2 * 2048 ≤ (i 2 : Nat) ∧ (i 2 : Nat) < win0_4.index ⟨8 * (i 0 : Nat) + 7, ht⟩ 2 * 2048 + 2048
    rw [i2]; omega

/-- So the output array ends holding `G`. -/
theorem final0 (c : Dev nD) : (dat0 V c).arrAt 4 cfg0.N = G V c :=
  (dat0 V c).arrAt_eq_of_cover 4 (G V c) (flushed_eq V c) (cover c)

/-- THE VALUE of the region's output after the last write-back, index by index: slab `s` at `(a, b)` is the sum over
    the 2048 contracted coordinates of the pass's left matrix at `(a, k)` times its right matrix at `(k, b)`. Only the
    grouping of the sum's terms into tiles is used: no finiteness hypothesis. -/
theorem value0 (c : Dev nD) (s : Fin 2) (a b : Fin 2048) :
    @Eq EReal ((dat0 (F := Ideal) V c).arrAt 4 cfg0.N (ix3 s a b)) (∑ k : Fin 2048, Lm V c s.val (ix2 a k) * Rm V c s.val (ix2 k b)) := by
  rw [final0]
  exact G_apply_of V c (ix3 s a b) s.val a b rfl rfl rfl

/-- Slab 0: the product of the fourth and third arguments. -/
theorem value0_fst (c : Dev nD) (a b : Fin 2048) :
    @Eq EReal ((dat0 (F := Ideal) V c).arrAt 4 cfg0.N (ix3 (0 : Fin 2) a b))
      (∑ k : Fin 2048, A3 V c (ix2 a k) * A2 V c (ix2 k b)) := by
  refine (value0 V c 0 a b).trans ?_; simp only [Lm, Rm, Fin.val_zero, if_true]

/-- Slab 1: the product of the second and first arguments. -/
theorem value0_snd (c : Dev nD) (a b : Fin 2048) :
    @Eq EReal ((dat0 (F := Ideal) V c).arrAt 4 cfg0.N (ix3 (1 : Fin 2) a b))
      (∑ k : Fin 2048, A1 V c (ix2 a k) * A0 V c (ix2 k b)) := by
  refine (value0 V c 1 a b).trans ?_; simp only [Lm, Rm, Fin.val_one, if_neg one_ne_zero]

end Cert.KernelIdeal.PairValue

end
-- ==== Proof.KernelClosed.lean ====
/-
  The kernel program's 2-D result is the balanced product of its four arguments.

  The first region's output, read slab by slab, is the pair of first-level products; with that, the second region's
  output is the product of the two slabs, which is the balanced product (A3 · A2) · (A1 · A0).
-/
import proofs.«126094_g2000509712423811_pallasbulk_371_15_alg».proof.Proof.KernelValue
import proofs.«126094_g2000509712423811_pallasbulk_371_15_alg».proof.Proof.PairValue

noncomputable section

namespace Cert.KernelIdeal.Value

open Cert.KernelIdeal Cert.KernelIdeal.Gen Cert.KernelIdeal.Pair Cert.KernelIdeal.Final Cert.KernelIdeal.Run
open Idealize.ShloMosaic Idealize.ShloMosaic.TcCoe Idealize.SL.Sem Idealize.ShloMosaic.ValueIdx

variable (m : (ℓ : Loc nD τ sig) → Buf (Elt Ideal) ℓ)

/-- What the second region leaves in its output buffer is the balanced product of the arguments. -/
theorem kernel_result (c : Dev nD) :
    @Eq (S2048x2048.Idx → EReal) (W2 m c (Proc.devRef .tc main_v1))
      (balanced (m ((c : Thread nD τ).loc main_arg3)) (m ((c : Thread nD τ).loc main_arg2))
        (m ((c : Thread nD τ).loc main_arg1)) (m ((c : Thread nD τ).loc main_arg0))) :=
  kernel_result_of m c (fun a b => Cert.KernelIdeal.PairValue.value0_fst (V0 m) c a b)
    (fun a b => Cert.KernelIdeal.PairValue.value0_snd (V0 m) c a b)

end Cert.KernelIdeal.Value

end
-- ==== Proof.LibMatChain.lean ====
/-
  Products of four square matrices with real entries, read in the extended reals.

  For real matrices W3, W2, W1, W0 of one size, the balanced product (W3·W2)·(W1·W0) and the right-nested product
  W3·(W2·(W1·W0)) have the same entries when every sum and every product is taken in the extended reals. Each entry
  is a real number, and the inclusion of the reals into the extended reals carries finite sums to sums and products to
  products, so each side is the image of one real number. In the reals the two numbers agree: distribute the products
  over the sums, exchange the order of the two outer summations, and regroup each product of four factors.
-/
import Mathlib.Data.EReal.Basic
import Mathlib.Algebra.BigOperators.Group.Finset.Basic
import Mathlib.Algebra.BigOperators.Group.Finset.Sigma
import Mathlib.Algebra.BigOperators.Ring.Finset
import Mathlib.Tactic.Ring

namespace Cert.MatChain

open Finset

/-- The inclusion of the reals into the extended reals carries a finite sum to the sum of the images. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- In the reals, the balanced product of four matrices equals the right-nested product, entry by entry. -/
theorem chain_assoc_real {n : ℕ} (w3 w2 w1 w0 : Fin n → Fin n → ℝ) (a b : Fin n) :
    (∑ k : Fin n, (∑ j : Fin n, w3 a j * w2 j k) * (∑ l : Fin n, w1 k l * w0 l b)) =
      ∑ j : Fin n, w3 a j * (∑ k : Fin n, w2 j k * (∑ l : Fin n, w1 k l * w0 l b)) := by
  have hL : ∀ k : Fin n, (∑ j : Fin n, w3 a j * w2 j k) * (∑ l : Fin n, w1 k l * w0 l b) =
      ∑ j : Fin n, w3 a j * (w2 j k * (∑ l : Fin n, w1 k l * w0 l b)) := by
    intro k
    rw [Finset.sum_mul]
    exact Finset.sum_congr rfl fun j _ => mul_assoc _ _ _
  have hR : ∀ j : Fin n, w3 a j * (∑ k : Fin n, w2 j k * (∑ l : Fin n, w1 k l * w0 l b)) =
      ∑ k : Fin n, w3 a j * (w2 j k * (∑ l : Fin n, w1 k l * w0 l b)) := by
    intro j
    rw [Finset.mul_sum]
  rw [Finset.sum_congr rfl fun k _ => hL k, Finset.sum_congr rfl fun j _ => hR j]
  exact Finset.sum_comm

/-- For real matrices read in the extended reals, the balanced product (W3·W2)·(W1·W0) equals the right-nested product
W3·(W2·(W1·W0)), entry by entry. -/
theorem chain_assoc {n : ℕ} (w3 w2 w1 w0 : Fin n → Fin n → ℝ) (a b : Fin n) :
    (∑ k : Fin n, (∑ j : Fin n, ((w3 a j : ℝ) : EReal) * ((w2 j k : ℝ) : EReal)) *
        (∑ l : Fin n, ((w1 k l : ℝ) : EReal) * ((w0 l b : ℝ) : EReal))) =
      ∑ j : Fin n, ((w3 a j : ℝ) : EReal) *
        (∑ k : Fin n, ((w2 j k : ℝ) : EReal) *
          (∑ l : Fin n, ((w1 k l : ℝ) : EReal) * ((w0 l b : ℝ) : EReal))) := by
  simp only [← EReal.coe_mul, ← coe_sum]
  exact congrArg _ (chain_assoc_real w3 w2 w1 w0 a b)

/-- The same for matrices given with extended-real entries, each of which is a real number. -/
theorem chain_assoc' {n : ℕ} (W3 W2 W1 W0 : Fin n → Fin n → EReal)
    (h3 : ∀ i j, ∃ r : ℝ, W3 i j = (r : EReal)) (h2 : ∀ i j, ∃ r : ℝ, W2 i j = (r : EReal))
    (h1 : ∀ i j, ∃ r : ℝ, W1 i j = (r : EReal)) (h0 : ∀ i j, ∃ r : ℝ, W0 i j = (r : EReal))
    (a b : Fin n) :
    (∑ k : Fin n, (∑ j : Fin n, W3 a j * W2 j k) * (∑ l : Fin n, W1 k l * W0 l b)) =
      ∑ j : Fin n, W3 a j * (∑ k : Fin n, W2 j k * (∑ l : Fin n, W1 k l * W0 l b)) := by
  choose w3 e3 using h3
  choose w2 e2 using h2
  choose w1 e1 using h1
  choose w0 e0 using h0
  simp only [e3, e2, e1, e0]
  exact chain_assoc w3 w2 w1 w0 a b

end Cert.MatChain
-- ==== Proof.ChainAtShape.lean ====
/-
  The balanced product of four 2048 × 2048 matrices with real entries is the right-nested product.

  With every entry of the four matrices a real number, entry (a, b) of (A3 · A2) · (A1 · A0) equals entry (a, b) of
  A3 · (A2 · (A1 · A0)), sums and products taken in the extended reals: the identity for matrices indexed by pairs of
  coordinates, read at the matrices indexed by rank-2 indices.
-/
import proofs.«126094_g2000509712423811_pallasbulk_371_15_alg».proof.Proof.KernelValue
import proofs.«126094_g2000509712423811_pallasbulk_371_15_alg».proof.Proof.LibMatChain
import Idealize.ShloMosaic.Lib.ValueIdx

noncomputable section

namespace Cert.KernelIdeal.Value

open Cert.KernelIdeal Idealize.ShloMosaic Idealize.ShloMosaic.ValueIdx

/-- For matrices whose entries are all real numbers, the balanced product equals the right-nested product. -/
theorem balanced_eq_nested (A3 A2 A1 A0 : S2048x2048.Idx → EReal)
    (h3 : ∀ i, ∃ r : ℝ, A3 i = (r : EReal)) (h2 : ∀ i, ∃ r : ℝ, A2 i = (r : EReal))
    (h1 : ∀ i, ∃ r : ℝ, A1 i = (r : EReal)) (h0 : ∀ i, ∃ r : ℝ, A0 i = (r : EReal)) :
    balanced A3 A2 A1 A0 = fun i => ∑ j : Fin 2048, A3 (ix2 (i 0) j) *
      (∑ k : Fin 2048, A2 (ix2 j k) * (∑ l : Fin 2048, A1 (ix2 k l) * A0 (ix2 l (i 1)))) := by
  funext i
  exact Cert.MatChain.chain_assoc' (n := 2048) (fun a j => A3 (ix2 a j)) (fun j k => A2 (ix2 j k))
    (fun k l => A1 (ix2 k l)) (fun l b => A0 (ix2 l b))
    (fun a j => h3 (ix2 a j)) (fun j k => h2 (ix2 j k)) (fun k l => h1 (ix2 k l)) (fun l b => h0 (ix2 l b)) (i 0) (i 1)

end Cert.KernelIdeal.Value

end
-- ==== Proof.TiledValue0.lean ====
/-
  The value of region 0 of the reference program at the ideal instance: after the last write-back the output array
  holds, at (a, b), the sum over k < 2048 of left(a, k) · right(k, b), the two arrays as the region finds them. Each
  output block (i, j) is written back after its fourth contraction tile; the scratch accumulator after the point
  (i, j, kk) holds zero plus the products of the tiles 0 … kk, one tile of 512 at a time, which at kk = 3 is the whole sum.
-/
import proofs.«126094_g2000509712423811_pallasbulk_371_15_alg».proof.Proof.TiledRegion0
import proofs.«126094_g2000509712423811_pallasbulk_371_15_alg».proof.Proof.LibAccum
import proofs.«126094_g2000509712423811_pallasbulk_371_15_alg».proof.Proof.LibColumnBlocks
import Idealize.ShloMosaic.Lib.Pipeline.Value
import Idealize.ShloMosaic.Lib.ValueIdx
import Idealize.ShloMosaic.Lib.Tactic

set_option maxRecDepth 16384

noncomputable section

namespace Cert.ReferenceIdeal.TiledValue0

open Cert.ReferenceIdeal Cert.ReferenceIdeal.Gen Cert.ReferenceIdeal.Tiled0
open Idealize.ShloMosaic Idealize.ShloMosaic.TcCoe Idealize.SL.Sem Idealize.ShloMosaic.ValueIdx
open Idealize.ShloMosaic.Pipeline (Dat)

/-- The product of two 2048 × 2048 arrays of extended reals: at (a, b) the sum over k of X (a, k) · Y (k, b). -/
def matProd (X Y : S2048x2048.Idx → EReal) : S2048x2048.Idx → EReal :=
  fun i => ∑ k : Fin 2048, X (ix2 (i 0) k) * Y (ix2 k (i 1))

/-! ## What a point leaves, at any float instance -/

section Generic

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The zero block the reset stores. -/
abbrev zero : Vec F S256x512 .f32 := k0_pay1

/-- One point's step: the accumulator plus the product of the two blocks (into a zero accumulator of its own). -/
def step (xs : Vec F S256x512 .f32) (x0 : Vec F S256x512 .f32) (x1 : Vec F S512x512 .f32) : Vec F S256x512 .f32 :=
  addf xs (matmul dot_S256x512_S512x512_S256x512_1_0_0_1_n_n none x0 x1 (constant S256x512 .f32 0x00000000#32))

/-- The accumulating store's payload is the step: its shape casts are identities. -/
theorem pay2_eq (v3 : Vec F S256x512 .f32) (v4 : Vec F S256x512 .f32) (v6 : Vec F S512x512 .f32) :
    k0_pay2 v3 v4 v6 = step v3 v4 v6 := by
  unfold k0_pay2 step
  simp only [shapeCast_self]

/-- A load through the whole-shape rectangle of what a store through it, last, left reads that store's payload. -/
theorem readCov_cons_unit_zero {sig' : RefSig} {κ : Kind} {sp : Space} {S : Shape} {e : EltTy}
    (v : View sig' κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- CASE B, the scratch: the accumulator the point before left, stepped. -/
theorem sout_B (c : Dev nD) (i : grid0.Coords) (a3 : Memref sig .tc .vmem S256x512 .f32) (h3 : a3.IsWhole) (a4 : Memref sig .tc .vmem S512x512 .f32) (h4 : a4.IsWhole) (a5 : Memref sig .tc .vmem S256x512 .f32) (h5 : a5.IsWhole) (a6 : Memref sig .tc .vmem S256x512 .f32) (h6 : a6.IsWhole) (hc : ¬cond0 i)
    (x0 : Vec F S256x512 .f32) (x1 : Vec F S512x512 .f32) (xs : Vec F S256x512 .f32) :
    sout0_B c i a3 h3 a4 h4 a5 h5 a6 h6 hc x0 x1 xs = step xs x0 x1 := by
  unfold sout0_B
  rw [View.read_writes_eq_canon _ _ _ (scover0_B c i a3 h3 a4 h4 a5 h5 a6 h6 hc x0 x1 xs)]
  unfold kernelRun0_B
  dsimp only
  sl_unfold_words
  rw [View.canon_unit_zero hz, pay2_eq]
  simp only [View.readAt_eq_ld, h3.read_unread, h4.read_unread, h6.read_unread, View.ld_unit_zero (S := S256x512) hz, View.ld_unit_zero (S := S512x512) hz]

/-- CASE B, the output block: the scratch read back after its store, so the same. -/
theorem out_B (c : Dev nD) (i : grid0.Coords) (a3 : Memref sig .tc .vmem S256x512 .f32) (h3 : a3.IsWhole) (a4 : Memref sig .tc .vmem S512x512 .f32) (h4 : a4.IsWhole) (a5 : Memref sig .tc .vmem S256x512 .f32) (h5 : a5.IsWhole) (a6 : Memref sig .tc .vmem S256x512 .f32) (h6 : a6.IsWhole) (hc : ¬cond0 i)
    (x0 : Vec F S256x512 .f32) (x1 : Vec F S512x512 .f32) (xs : Vec F S256x512 .f32) :
    out0_B_2 c i a3 h3 a4 h4 a5 h5 a6 h6 hc x0 x1 xs = step xs x0 x1 := by
  unfold out0_B_2
  rw [View.read_writes_eq_canon _ _ _ (cover0_B_2 c i a3 h3 a4 h4 a5 h5 a6 h6 hc x0 x1 xs)]
  unfold kernelRun0_B
  dsimp only
  sl_unfold_words
  rw [View.canon_unit_zero (S := S256x512) hz, View.readCov_unit_zero (S := S256x512) _ hz, pay2_eq]
  simp only [View.readAt_eq_ld, h3.read_unread, h4.read_unread, h6.read_unread, View.ld_unit_zero (S := S256x512) hz, View.ld_unit_zero (S := S512x512) hz]

/-- CASE A, the scratch: the zero block the reset stored, read back, stepped. -/
theorem sout_A (c : Dev nD) (i : grid0.Coords) (a3 : Memref sig .tc .vmem S256x512 .f32) (h3 : a3.IsWhole) (a4 : Memref sig .tc .vmem S512x512 .f32) (h4 : a4.IsWhole) (a5 : Memref sig .tc .vmem S256x512 .f32) (h5 : a5.IsWhole) (a6 : Memref sig .tc .vmem S256x512 .f32) (h6 : a6.IsWhole) (hc : cond0 i)
    (x0 : Vec F S256x512 .f32) (x1 : Vec F S512x512 .f32) :
    sout0_A c i a3 h3 a4 h4 a5 h5 a6 h6 hc x0 x1 = step zero x0 x1 := by
  unfold sout0_A
  rw [View.read_writes_eq_canon _ _ _ (scover0_A c i a3 h3 a4 h4 a5 h5 a6 h6 hc x0 x1)]
  unfold kernelRun0_A
  dsimp only
  sl_unfold_words
  rw [View.canon_cons_unit_zero (S := S256x512) hz, View.readCov_unit_zero (S := S256x512) _ hz, pay2_eq]
  simp only [View.readAt_eq_ld, h3.read_unread, h4.read_unread, View.ld_unit_zero (S := S256x512) hz, View.ld_unit_zero (S := S512x512) hz]

/-- CASE A, the output block: the same. -/
theorem out_A (c : Dev nD) (i : grid0.Coords) (a3 : Memref sig .tc .vmem S256x512 .f32) (h3 : a3.IsWhole) (a4 : Memref sig .tc .vmem S512x512 .f32) (h4 : a4.IsWhole) (a5 : Memref sig .tc .vmem S256x512 .f32) (h5 : a5.IsWhole) (a6 : Memref sig .tc .vmem S256x512 .f32) (h6 : a6.IsWhole) (hc : cond0 i)
    (x0 : Vec F S256x512 .f32) (x1 : Vec F S512x512 .f32) :
    out0_A_2 c i a3 h3 a4 h4 a5 h5 a6 h6 hc x0 x1 = step zero x0 x1 := by
  unfold out0_A_2
  rw [View.read_writes_eq_canon _ _ _ (cover0_A_2 c i a3 h3 a4 h4 a5 h5 a6 h6 hc x0 x1)]
  unfold kernelRun0_A
  dsimp only
  sl_unfold_words
  rw [View.canon_unit_zero (S := S256x512) hz, readCov_cons_unit_zero (S := S256x512) _ hz,
    View.readCov_unit_zero (S := S256x512) _ hz, pay2_eq]
  simp only [View.readAt_eq_ld, h3.read_unread, h4.read_unread, View.ld_unit_zero (S := S256x512) hz, View.ld_unit_zero (S := S512x512) hz]

/-- The accumulator after point `n`: zero stepped at a point with kk = 0, else the point before's stepped. -/
def acc (c : Dev nD) : (n : ℕ) → n < cfg0.N → Vec F S256x512 .f32
  | 0, h => step zero (iblk0 V c 0 ⟨0, h⟩) (iblk0 V c 1 ⟨0, h⟩)
  | n + 1, h =>
    if (n + 1) % 4 = 0 then step zero (iblk0 V c 0 ⟨n + 1, h⟩) (iblk0 V c 1 ⟨n + 1, h⟩)
    else step (acc c n (Nat.lt_of_succ_lt h)) (iblk0 V c 0 ⟨n + 1, h⟩) (iblk0 V c 1 ⟨n + 1, h⟩)

theorem acc_A (c : Dev nD) (n : ℕ) (h : n < cfg0.N) (h0 : n % 4 = 0) :
    acc V c n h = step zero (iblk0 V c 0 ⟨n, h⟩) (iblk0 V c 1 ⟨n, h⟩) := by
  cases n with
  | zero => rfl
  | succ n => exact if_pos h0

theorem acc_B' (c : Dev nD) (m : ℕ) (h : m < cfg0.N) (h0 : ¬m % 4 = 0) :
    acc V c m h = step (acc V c (m - 1) (Nat.lt_of_le_of_lt (Nat.sub_le _ _) h)) (iblk0 V c 0 ⟨m, h⟩) (iblk0 V c 1 ⟨m, h⟩) := by
  cases m with
  | zero => exact absurd (Nat.zero_mod _) h0
  | succ n => exact if_neg h0

theorem acc_B (c : Dev nD) (n : ℕ) (h : n + 1 < cfg0.N) (h0 : ¬(n + 1) % 4 = 0) :
    acc V c (n + 1) h = step (acc V c n (Nat.lt_of_succ_lt h)) (iblk0 V c 0 ⟨n + 1, h⟩) (iblk0 V c 1 ⟨n + 1, h⟩) :=
  if_neg h0

/-- What the output's staging buffer and the scratch hold after point `n` is, both, the accumulator — by induction on
    the point. -/
theorem outsAt_eq (c : Dev nD) : ∀ (n : ℕ) (h : n < cfg0.N), outsAt0 V c n h = (acc V c n h, acc V c n h)
  | 0, h => by
    rw [outsAt0_A V c ⟨0, h⟩ rfl, out_A, sout_A]; rfl
  | n + 1, h => by
    by_cases h0 : (n + 1) % 4 = 0
    · rw [outsAt0_A V c ⟨n + 1, h⟩ h0, out_A, sout_A, acc_A V c (n + 1) h h0]
    · rw [outsAt0_B V c ⟨n + 1, h⟩ h0, out_B, sout_B, acc_B V c n h h0]
      show (step (outsAt0 V c n _).2 _ _, step (outsAt0 V c n _).2 _ _) = _
      rw [outsAt_eq c n]

end Generic

/-! ## The value at the ideal instance -/

section Value

variable (V : (c : Dev nD) → (b : Ref sig .tc) → Buf (Elt Ideal) ((c : Thread nD τ).loc b))

theorem N128 : cfg0.N = 128 := N_0

/-- The left and the right array as the region finds them. -/
abbrev lhs (c : Dev nD) : FVec Ideal S2048x2048 .f32 := V c (Pipeline.arrRef spec0 0)
abbrev rhs (c : Dev nD) : FVec Ideal S2048x2048 .f32 := V c (Pipeline.arrRef spec0 1)

/-- The windows' block indices at a point t = 16 i + 4 j + kk, in closed form, decided over the grid; the output's
    blocks are not cut. -/
theorem idx_facts : ∀ t : Fin cfg0.N,
    win0_0.index t 0 = t.val / 16 ∧ win0_0.index t 1 = t.val % 4 ∧
    win0_1.index t 0 = t.val % 4 ∧ win0_1.index t 1 = t.val / 4 % 4 ∧
    win0_2.index t 0 = t.val / 16 ∧ win0_2.index t 1 = t.val / 4 % 4 ∧
    win0_2.xsize (grid0.coords t) 0 = 256 ∧ win0_2.xsize (grid0.coords t) 1 = 512 :=
  (by decide +kernel : ∀ t : Fin grid0.N, _)

/-- The row of the arrays that row `r` of the point's blocks is, the column, and the contracted coordinate. -/
def rowOf (t : Fin cfg0.N) (r : Fin 256) : Fin 2048 :=
  ⟨256 * (t.val / 16) + r.val, by have := lt_of_lt_of_eq t.isLt N128; have := r.isLt; omega⟩
def colOf (t : Fin cfg0.N) (s : Fin 512) : Fin 2048 :=
  ⟨512 * (t.val / 4 % 4) + s.val, by have := s.isLt; omega⟩
def midOf (t : Fin cfg0.N) (k : Fin 512) : Fin 2048 :=
  ⟨t.val % 4 * 512 + k.val, by have := k.isLt; omega⟩

theorem rowOf_eq (u t : Fin cfg0.N) (h : u.val / 4 = t.val / 4) (r : Fin 256) : rowOf u r = rowOf t r :=
  Fin.ext (by show 256 * (u.val / 16) + r.val = 256 * (t.val / 16) + r.val; omega)
theorem colOf_eq (u t : Fin cfg0.N) (h : u.val / 4 = t.val / 4) (s : Fin 512) : colOf u s = colOf t s :=
  Fin.ext (by show 512 * (u.val / 4 % 4) + s.val = 512 * (t.val / 4 % 4) + s.val; rw [h])
theorem midOf_eq (u : Fin cfg0.N) (tj : ℕ) (h : u.val % 4 = tj) (k : Fin 512) (hb : tj * 512 + k.val < 2048) :
    midOf u k = ⟨tj * 512 + k.val, hb⟩ :=
  Fin.ext (by show u.val % 4 * 512 + k.val = tj * 512 + k.val; rw [h])

/-- The left block at a point, read at (r, k): the left array at (its row, its contracted coordinate). -/
theorem iblk_0_apply (c : Dev nD) (t : Fin cfg0.N) (r : Fin 256) (k : Fin 512) :
    (iblk0 V c 0 t : FVec Ideal S256x512 .f32) (ix2 r k) = lhs V c (ix2 (rowOf t r) (midOf t k)) := by
  obtain ⟨h00, h01, -⟩ := idx_facts t
  unfold iblk0
  rw [View.read_apply]
  show V c main_call0_v1 _ = V c main_call0_v1 _
  congr 1
  funext a
  apply Fin.ext
  match a with
  | ⟨0, _⟩ => show win0_0.index t 0 * 256 + 1 * r.val = 256 * (t.val / 16) + r.val; rw [h00]; omega
  | ⟨1, _⟩ => show win0_0.index t 1 * 512 + 1 * k.val = t.val % 4 * 512 + k.val; rw [h01]; omega

/-- The right block at a point, read at (k, s): the right array at (its contracted coordinate, its column). -/
theorem iblk_1_apply (c : Dev nD) (t : Fin cfg0.N) (k : Fin 512) (s : Fin 512) :
    (iblk0 V c 1 t : FVec Ideal S512x512 .f32) (ix2 k s) = rhs V c (ix2 (midOf t k) (colOf t s)) := by
  obtain ⟨-, -, h10, h11, -⟩ := idx_facts t
  unfold iblk0
  rw [View.read_apply]
  show V c main_call0_v0 _ = V c main_call0_v0 _
  congr 1
  funext a
  apply Fin.ext
  match a with
  | ⟨0, _⟩ => show win0_1.index t 0 * 512 + 1 * k.val = t.val % 4 * 512 + k.val; rw [h10]; omega
  | ⟨1, _⟩ => show win0_1.index t 1 * 512 + 1 * s.val = 512 * (t.val / 4 % 4) + s.val; rw [h11]; omega

/-- The zero block reads zero. -/
theorem zero_apply (j : S256x512.Idx) : (zero (F := Ideal) : FVec Ideal S256x512 .f32) j = 0 := by
  show Ideal.ofBits .f32 0x00000000#32 = 0
  exact Ideal.ofBits_zero_f32

/-- A step at (r, s): the accumulator there plus the sum over the tile's contracted coordinate. -/
theorem step_apply (xs x0 : FVec Ideal S256x512 .f32) (x1 : FVec Ideal S512x512 .f32) (r : Fin 256) (s : Fin 512) :
    (step (F := Ideal) xs x0 x1 : FVec Ideal S256x512 .f32) (ix2 r s) = xs (ix2 r s) + ∑ k : Fin 512, x0 (ix2 r k) * x1 (ix2 k s) := by
  unfold step
  rw [addf_apply]
  exact congrArg (xs (ix2 r s) + ·) (Cert.LibColumnBlocks.matmul_zero_apply dot_S256x512_S512x512_S256x512_1_0_0_1_n_n rfl rfl rfl rfl
    (fun _ _ => rfl) (fun _ _ => rfl) x0 x1 r s none)

/-- A step over the point's blocks, at (r, s), in the arrays' coordinates. -/
theorem step_at (c : Dev nD) (u : Fin cfg0.N) (xs : FVec Ideal S256x512 .f32) (r : Fin 256) (s : Fin 512) :
    (step (F := Ideal) xs (iblk0 V c 0 u) (iblk0 V c 1 u) : FVec Ideal S256x512 .f32) (ix2 r s)
      = xs (ix2 r s) + ∑ k : Fin 512, lhs V c (ix2 (rowOf u r) (midOf u k)) * rhs V c (ix2 (midOf u k) (colOf u s)) := by
  rw [step_apply]
  refine congrArg (xs (ix2 r s) + ·) (Finset.sum_congr rfl fun k _ => ?_)
  rw [iblk_0_apply, iblk_1_apply]

/-- The accumulator at (r, s) as a sequence over the naturals (zero past the grid). -/
def accSeq (c : Dev nD) (r : Fin 256) (s : Fin 512) (n : ℕ) : Ideal .f32 :=
  if hn : n < cfg0.N then (acc (F := Ideal) V c n hn : FVec Ideal S256x512 .f32) (ix2 r s) else 0

theorem accSeq_lt (c : Dev nD) (r : Fin 256) (s : Fin 512) (n : ℕ) (hn : n < cfg0.N) :
    accSeq V c r s n = (acc (F := Ideal) V c n hn : FVec Ideal S256x512 .f32) (ix2 r s) := dif_pos hn

/-- The accumulator after a point with kk = 3, at (r, s): the sum over the whole contracted axis — the four tiles of 512
    added one point at a time from zero. -/
theorem acc_apply (c : Dev nD) (t : Fin cfg0.N) (h3 : t.val % 4 = 3) (r : Fin 256) (s : Fin 512) :
    (acc (F := Ideal) V c t.val t.isLt : FVec Ideal S256x512 .f32) (ix2 r s)
      = ∑ L : Fin 2048, lhs V c (ix2 (rowOf t r) L) * rhs V c (ix2 L (colOf t s)) := by
  have hN := lt_of_lt_of_eq t.isLt N128
  rw [← accSeq_lt V c r s t.val t.isLt]
  refine Cert.Accum.accum_closed_at (fun L : Fin 2048 => lhs V c (ix2 (rowOf t r) L) * rhs V c (ix2 L (colOf t s)))
    (accSeq V c r s) t.val (t.val / 4) h3 rfl ?_ ?_
  · have hlt : 4 * (t.val / 4) < cfg0.N := lt_of_lt_of_eq (by omega : 4 * (t.val / 4) < 128) N128.symm
    rw [accSeq_lt V c r s _ hlt, acc_A V c _ hlt (by omega), step_at, zero_apply]
    refine congrArg (0 + ·) (Finset.sum_congr rfl fun l _ => ?_)
    rw [rowOf_eq ⟨_, hlt⟩ t (by show 4 * (t.val / 4) / 4 = t.val / 4; omega),
      colOf_eq ⟨_, hlt⟩ t (by show 4 * (t.val / 4) / 4 = t.val / 4; omega),
      midOf_eq ⟨_, hlt⟩ 0 (by show 4 * (t.val / 4) % 4 = 0; omega) l (by have := l.isLt; omega)]
  · intro tj h0 h4
    have hlt : 4 * (t.val / 4) + tj < cfg0.N := lt_of_lt_of_eq (by omega : 4 * (t.val / 4) + tj < 128) N128.symm
    have hlt' : 4 * (t.val / 4) + tj - 1 < cfg0.N := lt_of_lt_of_eq (by omega : 4 * (t.val / 4) + tj - 1 < 128) N128.symm
    rw [accSeq_lt V c r s _ hlt, accSeq_lt V c r s _ hlt', acc_B' V c _ hlt (by omega), step_at]
    refine congrArg (_ + ·) (Finset.sum_congr rfl fun l _ => ?_)
    rw [rowOf_eq ⟨_, hlt⟩ t (by show (4 * (t.val / 4) + tj) / 4 = t.val / 4; omega),
      colOf_eq ⟨_, hlt⟩ t (by show (4 * (t.val / 4) + tj) / 4 = t.val / 4; omega),
      midOf_eq ⟨_, hlt⟩ tj (by show (4 * (t.val / 4) + tj) % 4 = tj; omega) l (by have := l.isLt; omega)]

/-- Two functions of a rank-2 index that agree at every pair of coordinates are equal. -/
theorem ext_ix2 {α : Type} {n0 n1 : ℕ} {f g : (⟨2, ![n0, n1]⟩ : Shape).Idx → α}
    (h : ∀ (r : Fin n0) (s : Fin n1), f (ix2 r s) = g (ix2 r s)) : f = g :=
  funext fun y => by rw [eq_ix2 y]; exact h _ _

/-- The result as ONE whole-array function of the two arrays: at (a, b) the sum over k of left(a, k) · right(k, b). -/
def G (c : Dev nD) : FVec Ideal S2048x2048 .f32 := matProd (lhs V c) (rhs V c)

theorem G_apply (c : Dev nD) (i : S2048x2048.Idx) (a b : Fin 2048) (ha : (i 0).val = a.val) (hb : (i 1).val = b.val) :
    G V c i = ∑ L : Fin 2048, lhs V c (ix2 a L) * rhs V c (ix2 L b) := by
  have ea : i 0 = a := Fin.ext ha
  have eb : i 1 = b := Fin.ext hb
  show ∑ k : Fin 2048, lhs V c (ix2 (i 0) k) * rhs V c (ix2 k (i 1)) = _
  rw [ea, eb]

/-- The output's block at a point, read off the whole-array function at (r, s). -/
theorem blk_read_G (c : Dev nD) (t : Fin cfg0.N) (r : Fin 256) (s : Fin 512) :
    (((cfg0.win 2).blk t).view.read (Elt Ideal) (G V c) : FVec Ideal S256x512 .f32) (ix2 r s)
      = ∑ L : Fin 2048, lhs V c (ix2 (rowOf t r) L) * rhs V c (ix2 L (colOf t s)) := by
  obtain ⟨-, -, -, -, h20, h21, -⟩ := idx_facts t
  rw [View.read_apply]
  show G V c _ = _
  exact G_apply V c _ _ _
    (by show win0_2.index t 0 * 256 + 1 * r.val = 256 * (t.val / 16) + r.val; rw [h20]; omega)
    (by show win0_2.index t 1 * 512 + 1 * s.val = 512 * (t.val / 4 % 4) + s.val; rw [h21]; omega)

/-- What a write-back writes is its block of the whole-array function. -/
theorem flushed_eq (c : Dev nD) (t : Fin cfg0.N) (hf : (cfg0.win 2).flush t = true) :
    (dat0 V c).flushed 2 t = ((cfg0.win 2).blk t).view.read (Elt Ideal) (G V c) := by
  have h3 : t.val % 4 = 3 := (flush0_2 t).mp hf
  show (cfg0.win 2).cut (grid0.coords t) ((dat0 V c).after 2 t) = _
  rw [after0_2, outsAt_eq]
  show (acc (F := Ideal) V c t.val t.isLt : FVec Ideal S256x512 .f32)
    = (((cfg0.win 2).blk t).view.read (Elt Ideal) (G V c) : FVec Ideal S256x512 .f32)
  exact ext_ix2 fun r s => (acc_apply V c t h3 r s).trans (blk_read_G V c t r s).symm

/-- Every index of the output array is in the block of the point (i, j, 3) with i its row's block and j its column's,
    which writes back. -/
theorem cover (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0 : ℕ) < 2048 := (i 0).isLt
  have h1 : (i 1 : ℕ) < 2048 := (i 1).isLt
  obtain ⟨t, ht⟩ : ∃ t : Fin cfg0.N, t.val = 16 * ((i 0 : ℕ) / 256) + 4 * ((i 1 : ℕ) / 512) + 3 :=
    ⟨⟨16 * ((i 0 : ℕ) / 256) + 4 * ((i 1 : ℕ) / 512) + 3, lt_of_lt_of_eq (by omega : 16 * ((i 0 : ℕ) / 256) + 4 * ((i 1 : ℕ) / 512) + 3 < 128) N128.symm⟩, rfl⟩
  refine ⟨t, (flush0_2 t).mpr (by rw [ht]; omega), ?_⟩
  obtain ⟨-, -, -, -, h20, h21, hx0, hx1⟩ := idx_facts t
  show i ∈ ((View.whole main_call0_v4).slice (win0_2.rect t)).set
  rw [View.set_slice_whole, Rect.mem_set_unit]
  intro a
  match a with
  | ⟨0, _⟩ =>
    show win0_2.index t 0 * 256 ≤ (i 0 : ℕ) ∧ (i 0 : ℕ) < win0_2.index t 0 * 256 + win0_2.xsize (grid0.coords t) 0
    rw [h20, hx0, ht]; omega
  | ⟨1, _⟩ =>
    show win0_2.index t 1 * 512 ≤ (i 1 : ℕ) ∧ (i 1 : ℕ) < win0_2.index t 1 * 512 + win0_2.xsize (grid0.coords t) 1
    rw [h21, hx1, ht]; omega

/-- So the output array ends holding the whole-array function. -/
theorem final (c : Dev nD) : (dat0 V c).arrAt 2 cfg0.N = G V c :=
  (dat0 V c).arrAt_eq_of_cover 2 (G V c) (flushed_eq V c) (cover c)

/-- THE VALUE of region 0, whole: after the last write-back the output array is the product of the left array
    (window 0's) and the right array (window 1's), both as the region finds them. -/
theorem final0 (c : Dev nD) :
    (dat0 (F := Ideal) V c).arrAt 2 cfg0.N = matProd (V c main_call0_v1) (V c main_call0_v0) :=
  final V c

/-- The output array after the last write-back, as a function of a rank-2 index. -/
abbrev out (c : Dev nD) : FVec Ideal S2048x2048 .f32 := (dat0 (F := Ideal) V c).arrAt 2 cfg0.N

/-- THE VALUE of region 0: after the last write-back the output array reads, at (a, b), the sum over k < 2048 of the
    left array at (a, k) times the right array at (k, b), both as the region finds them — a sum of products of extended
    reals, with no finiteness hypothesis (only the grouping of the terms is used). -/
theorem value0 (c : Dev nD) (a b : Fin 2048) :
    out V c (ix2 a b) = ∑ k : Fin 2048, lhs V c (ix2 a k) * rhs V c (ix2 k b) :=
  congrFun (final V c) (ix2 a b)

end Value

end Cert.ReferenceIdeal.TiledValue0

end
-- ==== Proof.TiledValue1.lean ====
/-
  The value of region 1 of the reference program at the ideal instance: after the last write-back the output array
  holds, at (a, b), the sum over k < 2048 of left(a, k) · right(k, b), the two arrays as the region finds them. Each
  output block (i, j) is written back after its fourth contraction tile; the scratch accumulator after the point
  (i, j, kk) holds zero plus the products of the tiles 0 … kk, one tile of 512 at a time, which at kk = 3 is the whole sum.
-/
import proofs.«126094_g2000509712423811_pallasbulk_371_15_alg».proof.Proof.TiledRegion1
import proofs.«126094_g2000509712423811_pallasbulk_371_15_alg».proof.Proof.TiledValue0
import proofs.«126094_g2000509712423811_pallasbulk_371_15_alg».proof.Proof.LibAccum
import proofs.«126094_g2000509712423811_pallasbulk_371_15_alg».proof.Proof.LibColumnBlocks
import Idealize.ShloMosaic.Lib.Pipeline.Value
import Idealize.ShloMosaic.Lib.ValueIdx
import Idealize.ShloMosaic.Lib.Tactic

set_option maxRecDepth 16384

noncomputable section

namespace Cert.ReferenceIdeal.TiledValue1

open Cert.ReferenceIdeal Cert.ReferenceIdeal.Gen Cert.ReferenceIdeal.Tiled1
open Idealize.ShloMosaic Idealize.ShloMosaic.TcCoe Idealize.SL.Sem Idealize.ShloMosaic.ValueIdx
open Idealize.ShloMosaic.Pipeline (Dat)
open Cert.ReferenceIdeal.TiledValue0 (matProd)

/-! ## What a point leaves, at any float instance -/

section Generic

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The zero block the reset stores. -/
abbrev zero : Vec F S256x512 .f32 := k1_pay1

/-- One point's step: the accumulator plus the product of the two blocks (into a zero accumulator of its own). -/
def step (xs : Vec F S256x512 .f32) (x0 : Vec F S256x512 .f32) (x1 : Vec F S512x512 .f32) : Vec F S256x512 .f32 :=
  addf xs (matmul dot_S256x512_S512x512_S256x512_1_0_0_1_n_n none x0 x1 (constant S256x512 .f32 0x00000000#32))

/-- The accumulating store's payload is the step: its shape casts are identities. -/
theorem pay2_eq (v3 : Vec F S256x512 .f32) (v4 : Vec F S256x512 .f32) (v6 : Vec F S512x512 .f32) :
    k1_pay2 v3 v4 v6 = step v3 v4 v6 := by
  unfold k1_pay2 step
  simp only [shapeCast_self]

/-- A load through the whole-shape rectangle of what a store through it, last, left reads that store's payload. -/
theorem readCov_cons_unit_zero {sig' : RefSig} {κ : Kind} {sp : Space} {S : Shape} {e : EltTy}
    (v : View sig' κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- CASE B, the scratch: the accumulator the point before left, stepped. -/
theorem sout_B (c : Dev nD) (i : grid1.Coords) (a3 : Memref sig .tc .vmem S256x512 .f32) (h3 : a3.IsWhole) (a4 : Memref sig .tc .vmem S512x512 .f32) (h4 : a4.IsWhole) (a5 : Memref sig .tc .vmem S256x512 .f32) (h5 : a5.IsWhole) (a6 : Memref sig .tc .vmem S256x512 .f32) (h6 : a6.IsWhole) (hc : ¬cond1 i)
    (x0 : Vec F S256x512 .f32) (x1 : Vec F S512x512 .f32) (xs : Vec F S256x512 .f32) :
    sout1_B c i a3 h3 a4 h4 a5 h5 a6 h6 hc x0 x1 xs = step xs x0 x1 := by
  unfold sout1_B
  rw [View.read_writes_eq_canon _ _ _ (scover1_B c i a3 h3 a4 h4 a5 h5 a6 h6 hc x0 x1 xs)]
  unfold kernelRun1_B
  dsimp only
  sl_unfold_words
  rw [View.canon_unit_zero hz, pay2_eq]
  simp only [View.readAt_eq_ld, h3.read_unread, h4.read_unread, h6.read_unread, View.ld_unit_zero (S := S256x512) hz, View.ld_unit_zero (S := S512x512) hz]

/-- CASE B, the output block: the scratch read back after its store, so the same. -/
theorem out_B (c : Dev nD) (i : grid1.Coords) (a3 : Memref sig .tc .vmem S256x512 .f32) (h3 : a3.IsWhole) (a4 : Memref sig .tc .vmem S512x512 .f32) (h4 : a4.IsWhole) (a5 : Memref sig .tc .vmem S256x512 .f32) (h5 : a5.IsWhole) (a6 : Memref sig .tc .vmem S256x512 .f32) (h6 : a6.IsWhole) (hc : ¬cond1 i)
    (x0 : Vec F S256x512 .f32) (x1 : Vec F S512x512 .f32) (xs : Vec F S256x512 .f32) :
    out1_B_2 c i a3 h3 a4 h4 a5 h5 a6 h6 hc x0 x1 xs = step xs x0 x1 := by
  unfold out1_B_2
  rw [View.read_writes_eq_canon _ _ _ (cover1_B_2 c i a3 h3 a4 h4 a5 h5 a6 h6 hc x0 x1 xs)]
  unfold kernelRun1_B
  dsimp only
  sl_unfold_words
  rw [View.canon_unit_zero (S := S256x512) hz, View.readCov_unit_zero (S := S256x512) _ hz, pay2_eq]
  simp only [View.readAt_eq_ld, h3.read_unread, h4.read_unread, h6.read_unread, View.ld_unit_zero (S := S256x512) hz, View.ld_unit_zero (S := S512x512) hz]

/-- CASE A, the scratch: the zero block the reset stored, read back, stepped. -/
theorem sout_A (c : Dev nD) (i : grid1.Coords) (a3 : Memref sig .tc .vmem S256x512 .f32) (h3 : a3.IsWhole) (a4 : Memref sig .tc .vmem S512x512 .f32) (h4 : a4.IsWhole) (a5 : Memref sig .tc .vmem S256x512 .f32) (h5 : a5.IsWhole) (a6 : Memref sig .tc .vmem S256x512 .f32) (h6 : a6.IsWhole) (hc : cond1 i)
    (x0 : Vec F S256x512 .f32) (x1 : Vec F S512x512 .f32) :
    sout1_A c i a3 h3 a4 h4 a5 h5 a6 h6 hc x0 x1 = step zero x0 x1 := by
  unfold sout1_A
  rw [View.read_writes_eq_canon _ _ _ (scover1_A c i a3 h3 a4 h4 a5 h5 a6 h6 hc x0 x1)]
  unfold kernelRun1_A
  dsimp only
  sl_unfold_words
  rw [View.canon_cons_unit_zero (S := S256x512) hz, View.readCov_unit_zero (S := S256x512) _ hz, pay2_eq]
  simp only [View.readAt_eq_ld, h3.read_unread, h4.read_unread, View.ld_unit_zero (S := S256x512) hz, View.ld_unit_zero (S := S512x512) hz]

/-- CASE A, the output block: the same. -/
theorem out_A (c : Dev nD) (i : grid1.Coords) (a3 : Memref sig .tc .vmem S256x512 .f32) (h3 : a3.IsWhole) (a4 : Memref sig .tc .vmem S512x512 .f32) (h4 : a4.IsWhole) (a5 : Memref sig .tc .vmem S256x512 .f32) (h5 : a5.IsWhole) (a6 : Memref sig .tc .vmem S256x512 .f32) (h6 : a6.IsWhole) (hc : cond1 i)
    (x0 : Vec F S256x512 .f32) (x1 : Vec F S512x512 .f32) :
    out1_A_2 c i a3 h3 a4 h4 a5 h5 a6 h6 hc x0 x1 = step zero x0 x1 := by
  unfold out1_A_2
  rw [View.read_writes_eq_canon _ _ _ (cover1_A_2 c i a3 h3 a4 h4 a5 h5 a6 h6 hc x0 x1)]
  unfold kernelRun1_A
  dsimp only
  sl_unfold_words
  rw [View.canon_unit_zero (S := S256x512) hz, readCov_cons_unit_zero (S := S256x512) _ hz,
    View.readCov_unit_zero (S := S256x512) _ hz, pay2_eq]
  simp only [View.readAt_eq_ld, h3.read_unread, h4.read_unread, View.ld_unit_zero (S := S256x512) hz, View.ld_unit_zero (S := S512x512) hz]

/-- The accumulator after point `n`: zero stepped at a point with kk = 0, else the point before's stepped. -/
def acc (c : Dev nD) : (n : ℕ) → n < cfg1.N → Vec F S256x512 .f32
  | 0, h => step zero (iblk1 V c 0 ⟨0, h⟩) (iblk1 V c 1 ⟨0, h⟩)
  | n + 1, h =>
    if (n + 1) % 4 = 0 then step zero (iblk1 V c 0 ⟨n + 1, h⟩) (iblk1 V c 1 ⟨n + 1, h⟩)
    else step (acc c n (Nat.lt_of_succ_lt h)) (iblk1 V c 0 ⟨n + 1, h⟩) (iblk1 V c 1 ⟨n + 1, h⟩)

theorem acc_A (c : Dev nD) (n : ℕ) (h : n < cfg1.N) (h0 : n % 4 = 0) :
    acc V c n h = step zero (iblk1 V c 0 ⟨n, h⟩) (iblk1 V c 1 ⟨n, h⟩) := by
  cases n with
  | zero => rfl
  | succ n => exact if_pos h0

theorem acc_B' (c : Dev nD) (m : ℕ) (h : m < cfg1.N) (h0 : ¬m % 4 = 0) :
    acc V c m h = step (acc V c (m - 1) (Nat.lt_of_le_of_lt (Nat.sub_le _ _) h)) (iblk1 V c 0 ⟨m, h⟩) (iblk1 V c 1 ⟨m, h⟩) := by
  cases m with
  | zero => exact absurd (Nat.zero_mod _) h0
  | succ n => exact if_neg h0

theorem acc_B (c : Dev nD) (n : ℕ) (h : n + 1 < cfg1.N) (h0 : ¬(n + 1) % 4 = 0) :
    acc V c (n + 1) h = step (acc V c n (Nat.lt_of_succ_lt h)) (iblk1 V c 0 ⟨n + 1, h⟩) (iblk1 V c 1 ⟨n + 1, h⟩) :=
  if_neg h0

/-- What the output's staging buffer and the scratch hold after point `n` is, both, the accumulator — by induction on
    the point. -/
theorem outsAt_eq (c : Dev nD) : ∀ (n : ℕ) (h : n < cfg1.N), outsAt1 V c n h = (acc V c n h, acc V c n h)
  | 0, h => by
    rw [outsAt1_A V c ⟨0, h⟩ rfl, out_A, sout_A]; rfl
  | n + 1, h => by
    by_cases h0 : (n + 1) % 4 = 0
    · rw [outsAt1_A V c ⟨n + 1, h⟩ h0, out_A, sout_A, acc_A V c (n + 1) h h0]
    · rw [outsAt1_B V c ⟨n + 1, h⟩ h0, out_B, sout_B, acc_B V c n h h0]
      show (step (outsAt1 V c n _).2 _ _, step (outsAt1 V c n _).2 _ _) = _
      rw [outsAt_eq c n]

end Generic

/-! ## The value at the ideal instance -/

section Value

variable (V : (c : Dev nD) → (b : Ref sig .tc) → Buf (Elt Ideal) ((c : Thread nD τ).loc b))

theorem N128 : cfg1.N = 128 := N_1

/-- The left and the right array as the region finds them. -/
abbrev lhs (c : Dev nD) : FVec Ideal S2048x2048 .f32 := V c (Pipeline.arrRef spec1 0)
abbrev rhs (c : Dev nD) : FVec Ideal S2048x2048 .f32 := V c (Pipeline.arrRef spec1 1)

/-- The windows' block indices at a point t = 16 i + 4 j + kk, in closed form, decided over the grid; the output's
    blocks are not cut. -/
theorem idx_facts : ∀ t : Fin cfg1.N,
    win1_0.index t 0 = t.val / 16 ∧ win1_0.index t 1 = t.val % 4 ∧
    win1_1.index t 0 = t.val % 4 ∧ win1_1.index t 1 = t.val / 4 % 4 ∧
    win1_2.index t 0 = t.val / 16 ∧ win1_2.index t 1 = t.val / 4 % 4 ∧
    win1_2.xsize (grid1.coords t) 0 = 256 ∧ win1_2.xsize (grid1.coords t) 1 = 512 :=
  (by decide +kernel : ∀ t : Fin grid1.N, _)

/-- The row of the arrays that row `r` of the point's blocks is, the column, and the contracted coordinate. -/
def rowOf (t : Fin cfg1.N) (r : Fin 256) : Fin 2048 :=
  ⟨256 * (t.val / 16) + r.val, by have := lt_of_lt_of_eq t.isLt N128; have := r.isLt; omega⟩
def colOf (t : Fin cfg1.N) (s : Fin 512) : Fin 2048 :=
  ⟨512 * (t.val / 4 % 4) + s.val, by have := s.isLt; omega⟩
def midOf (t : Fin cfg1.N) (k : Fin 512) : Fin 2048 :=
  ⟨t.val % 4 * 512 + k.val, by have := k.isLt; omega⟩

theorem rowOf_eq (u t : Fin cfg1.N) (h : u.val / 4 = t.val / 4) (r : Fin 256) : rowOf u r = rowOf t r :=
  Fin.ext (by show 256 * (u.val / 16) + r.val = 256 * (t.val / 16) + r.val; omega)
theorem colOf_eq (u t : Fin cfg1.N) (h : u.val / 4 = t.val / 4) (s : Fin 512) : colOf u s = colOf t s :=
  Fin.ext (by show 512 * (u.val / 4 % 4) + s.val = 512 * (t.val / 4 % 4) + s.val; rw [h])
theorem midOf_eq (u : Fin cfg1.N) (tj : ℕ) (h : u.val % 4 = tj) (k : Fin 512) (hb : tj * 512 + k.val < 2048) :
    midOf u k = ⟨tj * 512 + k.val, hb⟩ :=
  Fin.ext (by show u.val % 4 * 512 + k.val = tj * 512 + k.val; rw [h])

/-- The left block at a point, read at (r, k): the left array at (its row, its contracted coordinate). -/
theorem iblk_0_apply (c : Dev nD) (t : Fin cfg1.N) (r : Fin 256) (k : Fin 512) :
    (iblk1 V c 0 t : FVec Ideal S256x512 .f32) (ix2 r k) = lhs V c (ix2 (rowOf t r) (midOf t k)) := by
  obtain ⟨h00, h01, -⟩ := idx_facts t
  unfold iblk1
  rw [View.read_apply]
  show V c main_call0_v2 _ = V c main_call0_v2 _
  congr 1
  funext a
  apply Fin.ext
  match a with
  | ⟨0, _⟩ => show win1_0.index t 0 * 256 + 1 * r.val = 256 * (t.val / 16) + r.val; rw [h00]; omega
  | ⟨1, _⟩ => show win1_0.index t 1 * 512 + 1 * k.val = t.val % 4 * 512 + k.val; rw [h01]; omega

/-- The right block at a point, read at (k, s): the right array at (its contracted coordinate, its column). -/
theorem iblk_1_apply (c : Dev nD) (t : Fin cfg1.N) (k : Fin 512) (s : Fin 512) :
    (iblk1 V c 1 t : FVec Ideal S512x512 .f32) (ix2 k s) = rhs V c (ix2 (midOf t k) (colOf t s)) := by
  obtain ⟨-, -, h10, h11, -⟩ := idx_facts t
  unfold iblk1
  rw [View.read_apply]
  show V c main_call0_v4 _ = V c main_call0_v4 _
  congr 1
  funext a
  apply Fin.ext
  match a with
  | ⟨0, _⟩ => show win1_1.index t 0 * 512 + 1 * k.val = t.val % 4 * 512 + k.val; rw [h10]; omega
  | ⟨1, _⟩ => show win1_1.index t 1 * 512 + 1 * s.val = 512 * (t.val / 4 % 4) + s.val; rw [h11]; omega

/-- The zero block reads zero. -/
theorem zero_apply (j : S256x512.Idx) : (zero (F := Ideal) : FVec Ideal S256x512 .f32) j = 0 := by
  show Ideal.ofBits .f32 0x00000000#32 = 0
  exact Ideal.ofBits_zero_f32

/-- A step at (r, s): the accumulator there plus the sum over the tile's contracted coordinate. -/
theorem step_apply (xs x0 : FVec Ideal S256x512 .f32) (x1 : FVec Ideal S512x512 .f32) (r : Fin 256) (s : Fin 512) :
    (step (F := Ideal) xs x0 x1 : FVec Ideal S256x512 .f32) (ix2 r s) = xs (ix2 r s) + ∑ k : Fin 512, x0 (ix2 r k) * x1 (ix2 k s) := by
  unfold step
  rw [addf_apply]
  exact congrArg (xs (ix2 r s) + ·) (Cert.LibColumnBlocks.matmul_zero_apply dot_S256x512_S512x512_S256x512_1_0_0_1_n_n rfl rfl rfl rfl
    (fun _ _ => rfl) (fun _ _ => rfl) x0 x1 r s none)

/-- A step over the point's blocks, at (r, s), in the arrays' coordinates. -/
theorem step_at (c : Dev nD) (u : Fin cfg1.N) (xs : FVec Ideal S256x512 .f32) (r : Fin 256) (s : Fin 512) :
    (step (F := Ideal) xs (iblk1 V c 0 u) (iblk1 V c 1 u) : FVec Ideal S256x512 .f32) (ix2 r s)
      = xs (ix2 r s) + ∑ k : Fin 512, lhs V c (ix2 (rowOf u r) (midOf u k)) * rhs V c (ix2 (midOf u k) (colOf u s)) := by
  rw [step_apply]
  refine congrArg (xs (ix2 r s) + ·) (Finset.sum_congr rfl fun k _ => ?_)
  rw [iblk_0_apply, iblk_1_apply]

/-- The accumulator at (r, s) as a sequence over the naturals (zero past the grid). -/
def accSeq (c : Dev nD) (r : Fin 256) (s : Fin 512) (n : ℕ) : Ideal .f32 :=
  if hn : n < cfg1.N then (acc (F := Ideal) V c n hn : FVec Ideal S256x512 .f32) (ix2 r s) else 0

theorem accSeq_lt (c : Dev nD) (r : Fin 256) (s : Fin 512) (n : ℕ) (hn : n < cfg1.N) :
    accSeq V c r s n = (acc (F := Ideal) V c n hn : FVec Ideal S256x512 .f32) (ix2 r s) := dif_pos hn

/-- The accumulator after a point with kk = 3, at (r, s): the sum over the whole contracted axis — the four tiles of 512
    added one point at a time from zero. -/
theorem acc_apply (c : Dev nD) (t : Fin cfg1.N) (h3 : t.val % 4 = 3) (r : Fin 256) (s : Fin 512) :
    (acc (F := Ideal) V c t.val t.isLt : FVec Ideal S256x512 .f32) (ix2 r s)
      = ∑ L : Fin 2048, lhs V c (ix2 (rowOf t r) L) * rhs V c (ix2 L (colOf t s)) := by
  have hN := lt_of_lt_of_eq t.isLt N128
  rw [← accSeq_lt V c r s t.val t.isLt]
  refine Cert.Accum.accum_closed_at (fun L : Fin 2048 => lhs V c (ix2 (rowOf t r) L) * rhs V c (ix2 L (colOf t s)))
    (accSeq V c r s) t.val (t.val / 4) h3 rfl ?_ ?_
  · have hlt : 4 * (t.val / 4) < cfg1.N := lt_of_lt_of_eq (by omega : 4 * (t.val / 4) < 128) N128.symm
    rw [accSeq_lt V c r s _ hlt, acc_A V c _ hlt (by omega), step_at, zero_apply]
    refine congrArg (0 + ·) (Finset.sum_congr rfl fun l _ => ?_)
    rw [rowOf_eq ⟨_, hlt⟩ t (by show 4 * (t.val / 4) / 4 = t.val / 4; omega),
      colOf_eq ⟨_, hlt⟩ t (by show 4 * (t.val / 4) / 4 = t.val / 4; omega),
      midOf_eq ⟨_, hlt⟩ 0 (by show 4 * (t.val / 4) % 4 = 0; omega) l (by have := l.isLt; omega)]
  · intro tj h0 h4
    have hlt : 4 * (t.val / 4) + tj < cfg1.N := lt_of_lt_of_eq (by omega : 4 * (t.val / 4) + tj < 128) N128.symm
    have hlt' : 4 * (t.val / 4) + tj - 1 < cfg1.N := lt_of_lt_of_eq (by omega : 4 * (t.val / 4) + tj - 1 < 128) N128.symm
    rw [accSeq_lt V c r s _ hlt, accSeq_lt V c r s _ hlt', acc_B' V c _ hlt (by omega), step_at]
    refine congrArg (_ + ·) (Finset.sum_congr rfl fun l _ => ?_)
    rw [rowOf_eq ⟨_, hlt⟩ t (by show (4 * (t.val / 4) + tj) / 4 = t.val / 4; omega),
      colOf_eq ⟨_, hlt⟩ t (by show (4 * (t.val / 4) + tj) / 4 = t.val / 4; omega),
      midOf_eq ⟨_, hlt⟩ tj (by show (4 * (t.val / 4) + tj) % 4 = tj; omega) l (by have := l.isLt; omega)]

/-- Two functions of a rank-2 index that agree at every pair of coordinates are equal. -/
theorem ext_ix2 {α : Type} {n0 n1 : ℕ} {f g : (⟨2, ![n0, n1]⟩ : Shape).Idx → α}
    (h : ∀ (r : Fin n0) (s : Fin n1), f (ix2 r s) = g (ix2 r s)) : f = g :=
  funext fun y => by rw [eq_ix2 y]; exact h _ _

/-- The result as ONE whole-array function of the two arrays: at (a, b) the sum over k of left(a, k) · right(k, b). -/
def G (c : Dev nD) : FVec Ideal S2048x2048 .f32 := matProd (lhs V c) (rhs V c)

theorem G_apply (c : Dev nD) (i : S2048x2048.Idx) (a b : Fin 2048) (ha : (i 0).val = a.val) (hb : (i 1).val = b.val) :
    G V c i = ∑ L : Fin 2048, lhs V c (ix2 a L) * rhs V c (ix2 L b) := by
  have ea : i 0 = a := Fin.ext ha
  have eb : i 1 = b := Fin.ext hb
  show ∑ k : Fin 2048, lhs V c (ix2 (i 0) k) * rhs V c (ix2 k (i 1)) = _
  rw [ea, eb]

/-- The output's block at a point, read off the whole-array function at (r, s). -/
theorem blk_read_G (c : Dev nD) (t : Fin cfg1.N) (r : Fin 256) (s : Fin 512) :
    (((cfg1.win 2).blk t).view.read (Elt Ideal) (G V c) : FVec Ideal S256x512 .f32) (ix2 r s)
      = ∑ L : Fin 2048, lhs V c (ix2 (rowOf t r) L) * rhs V c (ix2 L (colOf t s)) := by
  obtain ⟨-, -, -, -, h20, h21, -⟩ := idx_facts t
  rw [View.read_apply]
  show G V c _ = _
  exact G_apply V c _ _ _
    (by show win1_2.index t 0 * 256 + 1 * r.val = 256 * (t.val / 16) + r.val; rw [h20]; omega)
    (by show win1_2.index t 1 * 512 + 1 * s.val = 512 * (t.val / 4 % 4) + s.val; rw [h21]; omega)

/-- What a write-back writes is its block of the whole-array function. -/
theorem flushed_eq (c : Dev nD) (t : Fin cfg1.N) (hf : (cfg1.win 2).flush t = true) :
    (dat1 V c).flushed 2 t = ((cfg1.win 2).blk t).view.read (Elt Ideal) (G V c) := by
  have h3 : t.val % 4 = 3 := (flush1_2 t).mp hf
  show (cfg1.win 2).cut (grid1.coords t) ((dat1 V c).after 2 t) = _
  rw [after1_2, outsAt_eq]
  show (acc (F := Ideal) V c t.val t.isLt : FVec Ideal S256x512 .f32)
    = (((cfg1.win 2).blk t).view.read (Elt Ideal) (G V c) : FVec Ideal S256x512 .f32)
  exact ext_ix2 fun r s => (acc_apply V c t h3 r s).trans (blk_read_G V c t r s).symm

/-- Every index of the output array is in the block of the point (i, j, 3) with i its row's block and j its column's,
    which writes back. -/
theorem cover (c : Dev nD) (i : ((cfg1.win 2).arr.view.loc (c.tc : Thread nD τ)).2.ty.Idx) :
    ∃ t : Fin cfg1.N, (cfg1.win 2).flush t = true ∧ i ∈ ((cfg1.win 2).blk t).view.set := by
  have h0 : (i 0 : ℕ) < 2048 := (i 0).isLt
  have h1 : (i 1 : ℕ) < 2048 := (i 1).isLt
  obtain ⟨t, ht⟩ : ∃ t : Fin cfg1.N, t.val = 16 * ((i 0 : ℕ) / 256) + 4 * ((i 1 : ℕ) / 512) + 3 :=
    ⟨⟨16 * ((i 0 : ℕ) / 256) + 4 * ((i 1 : ℕ) / 512) + 3, lt_of_lt_of_eq (by omega : 16 * ((i 0 : ℕ) / 256) + 4 * ((i 1 : ℕ) / 512) + 3 < 128) N128.symm⟩, rfl⟩
  refine ⟨t, (flush1_2 t).mpr (by rw [ht]; omega), ?_⟩
  obtain ⟨-, -, -, -, h20, h21, hx0, hx1⟩ := idx_facts t
  show i ∈ ((View.whole main_call0_v5).slice (win1_2.rect t)).set
  rw [View.set_slice_whole, Rect.mem_set_unit]
  intro a
  match a with
  | ⟨0, _⟩ =>
    show win1_2.index t 0 * 256 ≤ (i 0 : ℕ) ∧ (i 0 : ℕ) < win1_2.index t 0 * 256 + win1_2.xsize (grid1.coords t) 0
    rw [h20, hx0, ht]; omega
  | ⟨1, _⟩ =>
    show win1_2.index t 1 * 512 ≤ (i 1 : ℕ) ∧ (i 1 : ℕ) < win1_2.index t 1 * 512 + win1_2.xsize (grid1.coords t) 1
    rw [h21, hx1, ht]; omega

/-- So the output array ends holding the whole-array function. -/
theorem final (c : Dev nD) : (dat1 V c).arrAt 2 cfg1.N = G V c :=
  (dat1 V c).arrAt_eq_of_cover 2 (G V c) (flushed_eq V c) (cover c)

/-- THE VALUE of region 1, whole: after the last write-back the output array is the product of the left array
    (window 0's) and the right array (window 1's), both as the region finds them. -/
theorem final1 (c : Dev nD) :
    (dat1 (F := Ideal) V c).arrAt 2 cfg1.N = matProd (V c main_call0_v2) (V c main_call0_v4) :=
  final V c

/-- The output array after the last write-back, as a function of a rank-2 index. -/
abbrev out (c : Dev nD) : FVec Ideal S2048x2048 .f32 := (dat1 (F := Ideal) V c).arrAt 2 cfg1.N

/-- THE VALUE of region 1: after the last write-back the output array reads, at (a, b), the sum over k < 2048 of the
    left array at (a, k) times the right array at (k, b), both as the region finds them — a sum of products of extended
    reals, with no finiteness hypothesis (only the grouping of the terms is used). -/
theorem value1 (c : Dev nD) (a b : Fin 2048) :
    out V c (ix2 a b) = ∑ k : Fin 2048, lhs V c (ix2 a k) * rhs V c (ix2 k b) :=
  congrFun (final V c) (ix2 a b)

end Value

end Cert.ReferenceIdeal.TiledValue1

end
-- ==== Proof.TiledValue2.lean ====
/-
  The value of region 2 of the reference program at the ideal instance: after the last write-back the output array
  holds, at (a, b), the sum over k < 2048 of left(a, k) · right(k, b), the two arrays as the region finds them. Each
  output block (i, j) is written back after its fourth contraction tile; the scratch accumulator after the point
  (i, j, kk) holds zero plus the products of the tiles 0 … kk, one tile of 512 at a time, which at kk = 3 is the whole sum.
-/
import proofs.«126094_g2000509712423811_pallasbulk_371_15_alg».proof.Proof.TiledRegion2
import proofs.«126094_g2000509712423811_pallasbulk_371_15_alg».proof.Proof.TiledValue0
import proofs.«126094_g2000509712423811_pallasbulk_371_15_alg».proof.Proof.LibAccum
import proofs.«126094_g2000509712423811_pallasbulk_371_15_alg».proof.Proof.LibColumnBlocks
import Idealize.ShloMosaic.Lib.Pipeline.Value
import Idealize.ShloMosaic.Lib.ValueIdx
import Idealize.ShloMosaic.Lib.Tactic

set_option maxRecDepth 16384

noncomputable section

namespace Cert.ReferenceIdeal.TiledValue2

open Cert.ReferenceIdeal Cert.ReferenceIdeal.Gen Cert.ReferenceIdeal.Tiled2
open Idealize.ShloMosaic Idealize.ShloMosaic.TcCoe Idealize.SL.Sem Idealize.ShloMosaic.ValueIdx
open Idealize.ShloMosaic.Pipeline (Dat)
open Cert.ReferenceIdeal.TiledValue0 (matProd)

/-! ## What a point leaves, at any float instance -/

section Generic

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The zero block the reset stores. -/
abbrev zero : Vec F S256x512 .f32 := k2_pay1

/-- One point's step: the accumulator plus the product of the two blocks (into a zero accumulator of its own). -/
def step (xs : Vec F S256x512 .f32) (x0 : Vec F S256x512 .f32) (x1 : Vec F S512x512 .f32) : Vec F S256x512 .f32 :=
  addf xs (matmul dot_S256x512_S512x512_S256x512_1_0_0_1_n_n none x0 x1 (constant S256x512 .f32 0x00000000#32))

/-- The accumulating store's payload is the step: its shape casts are identities. -/
theorem pay2_eq (v3 : Vec F S256x512 .f32) (v4 : Vec F S256x512 .f32) (v6 : Vec F S512x512 .f32) :
    k2_pay2 v3 v4 v6 = step v3 v4 v6 := by
  unfold k2_pay2 step
  simp only [shapeCast_self]

/-- A load through the whole-shape rectangle of what a store through it, last, left reads that store's payload. -/
theorem readCov_cons_unit_zero {sig' : RefSig} {κ : Kind} {sp : Space} {S : Shape} {e : EltTy}
    (v : View sig' κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- CASE B, the scratch: the accumulator the point before left, stepped. -/
theorem sout_B (c : Dev nD) (i : grid2.Coords) (a3 : Memref sig .tc .vmem S256x512 .f32) (h3 : a3.IsWhole) (a4 : Memref sig .tc .vmem S512x512 .f32) (h4 : a4.IsWhole) (a5 : Memref sig .tc .vmem S256x512 .f32) (h5 : a5.IsWhole) (a6 : Memref sig .tc .vmem S256x512 .f32) (h6 : a6.IsWhole) (hc : ¬cond2 i)
    (x0 : Vec F S256x512 .f32) (x1 : Vec F S512x512 .f32) (xs : Vec F S256x512 .f32) :
    sout2_B c i a3 h3 a4 h4 a5 h5 a6 h6 hc x0 x1 xs = step xs x0 x1 := by
  unfold sout2_B
  rw [View.read_writes_eq_canon _ _ _ (scover2_B c i a3 h3 a4 h4 a5 h5 a6 h6 hc x0 x1 xs)]
  unfold kernelRun2_B
  dsimp only
  sl_unfold_words
  rw [View.canon_unit_zero hz, pay2_eq]
  simp only [View.readAt_eq_ld, h3.read_unread, h4.read_unread, h6.read_unread, View.ld_unit_zero (S := S256x512) hz, View.ld_unit_zero (S := S512x512) hz]

/-- CASE B, the output block: the scratch read back after its store, so the same. -/
theorem out_B (c : Dev nD) (i : grid2.Coords) (a3 : Memref sig .tc .vmem S256x512 .f32) (h3 : a3.IsWhole) (a4 : Memref sig .tc .vmem S512x512 .f32) (h4 : a4.IsWhole) (a5 : Memref sig .tc .vmem S256x512 .f32) (h5 : a5.IsWhole) (a6 : Memref sig .tc .vmem S256x512 .f32) (h6 : a6.IsWhole) (hc : ¬cond2 i)
    (x0 : Vec F S256x512 .f32) (x1 : Vec F S512x512 .f32) (xs : Vec F S256x512 .f32) :
    out2_B_2 c i a3 h3 a4 h4 a5 h5 a6 h6 hc x0 x1 xs = step xs x0 x1 := by
  unfold out2_B_2
  rw [View.read_writes_eq_canon _ _ _ (cover2_B_2 c i a3 h3 a4 h4 a5 h5 a6 h6 hc x0 x1 xs)]
  unfold kernelRun2_B
  dsimp only
  sl_unfold_words
  rw [View.canon_unit_zero (S := S256x512) hz, View.readCov_unit_zero (S := S256x512) _ hz, pay2_eq]
  simp only [View.readAt_eq_ld, h3.read_unread, h4.read_unread, h6.read_unread, View.ld_unit_zero (S := S256x512) hz, View.ld_unit_zero (S := S512x512) hz]

/-- CASE A, the scratch: the zero block the reset stored, read back, stepped. -/
theorem sout_A (c : Dev nD) (i : grid2.Coords) (a3 : Memref sig .tc .vmem S256x512 .f32) (h3 : a3.IsWhole) (a4 : Memref sig .tc .vmem S512x512 .f32) (h4 : a4.IsWhole) (a5 : Memref sig .tc .vmem S256x512 .f32) (h5 : a5.IsWhole) (a6 : Memref sig .tc .vmem S256x512 .f32) (h6 : a6.IsWhole) (hc : cond2 i)
    (x0 : Vec F S256x512 .f32) (x1 : Vec F S512x512 .f32) :
    sout2_A c i a3 h3 a4 h4 a5 h5 a6 h6 hc x0 x1 = step zero x0 x1 := by
  unfold sout2_A
  rw [View.read_writes_eq_canon _ _ _ (scover2_A c i a3 h3 a4 h4 a5 h5 a6 h6 hc x0 x1)]
  unfold kernelRun2_A
  dsimp only
  sl_unfold_words
  rw [View.canon_cons_unit_zero (S := S256x512) hz, View.readCov_unit_zero (S := S256x512) _ hz, pay2_eq]
  simp only [View.readAt_eq_ld, h3.read_unread, h4.read_unread, View.ld_unit_zero (S := S256x512) hz, View.ld_unit_zero (S := S512x512) hz]

/-- CASE A, the output block: the same. -/
theorem out_A (c : Dev nD) (i : grid2.Coords) (a3 : Memref sig .tc .vmem S256x512 .f32) (h3 : a3.IsWhole) (a4 : Memref sig .tc .vmem S512x512 .f32) (h4 : a4.IsWhole) (a5 : Memref sig .tc .vmem S256x512 .f32) (h5 : a5.IsWhole) (a6 : Memref sig .tc .vmem S256x512 .f32) (h6 : a6.IsWhole) (hc : cond2 i)
    (x0 : Vec F S256x512 .f32) (x1 : Vec F S512x512 .f32) :
    out2_A_2 c i a3 h3 a4 h4 a5 h5 a6 h6 hc x0 x1 = step zero x0 x1 := by
  unfold out2_A_2
  rw [View.read_writes_eq_canon _ _ _ (cover2_A_2 c i a3 h3 a4 h4 a5 h5 a6 h6 hc x0 x1)]
  unfold kernelRun2_A
  dsimp only
  sl_unfold_words
  rw [View.canon_unit_zero (S := S256x512) hz, readCov_cons_unit_zero (S := S256x512) _ hz,
    View.readCov_unit_zero (S := S256x512) _ hz, pay2_eq]
  simp only [View.readAt_eq_ld, h3.read_unread, h4.read_unread, View.ld_unit_zero (S := S256x512) hz, View.ld_unit_zero (S := S512x512) hz]

/-- The accumulator after point `n`: zero stepped at a point with kk = 0, else the point before's stepped. -/
def acc (c : Dev nD) : (n : ℕ) → n < cfg2.N → Vec F S256x512 .f32
  | 0, h => step zero (iblk2 V c 0 ⟨0, h⟩) (iblk2 V c 1 ⟨0, h⟩)
  | n + 1, h =>
    if (n + 1) % 4 = 0 then step zero (iblk2 V c 0 ⟨n + 1, h⟩) (iblk2 V c 1 ⟨n + 1, h⟩)
    else step (acc c n (Nat.lt_of_succ_lt h)) (iblk2 V c 0 ⟨n + 1, h⟩) (iblk2 V c 1 ⟨n + 1, h⟩)

theorem acc_A (c : Dev nD) (n : ℕ) (h : n < cfg2.N) (h0 : n % 4 = 0) :
    acc V c n h = step zero (iblk2 V c 0 ⟨n, h⟩) (iblk2 V c 1 ⟨n, h⟩) := by
  cases n with
  | zero => rfl
  | succ n => exact if_pos h0

theorem acc_B' (c : Dev nD) (m : ℕ) (h : m < cfg2.N) (h0 : ¬m % 4 = 0) :
    acc V c m h = step (acc V c (m - 1) (Nat.lt_of_le_of_lt (Nat.sub_le _ _) h)) (iblk2 V c 0 ⟨m, h⟩) (iblk2 V c 1 ⟨m, h⟩) := by
  cases m with
  | zero => exact absurd (Nat.zero_mod _) h0
  | succ n => exact if_neg h0

theorem acc_B (c : Dev nD) (n : ℕ) (h : n + 1 < cfg2.N) (h0 : ¬(n + 1) % 4 = 0) :
    acc V c (n + 1) h = step (acc V c n (Nat.lt_of_succ_lt h)) (iblk2 V c 0 ⟨n + 1, h⟩) (iblk2 V c 1 ⟨n + 1, h⟩) :=
  if_neg h0

/-- What the output's staging buffer and the scratch hold after point `n` is, both, the accumulator — by induction on
    the point. -/
theorem outsAt_eq (c : Dev nD) : ∀ (n : ℕ) (h : n < cfg2.N), outsAt2 V c n h = (acc V c n h, acc V c n h)
  | 0, h => by
    rw [outsAt2_A V c ⟨0, h⟩ rfl, out_A, sout_A]; rfl
  | n + 1, h => by
    by_cases h0 : (n + 1) % 4 = 0
    · rw [outsAt2_A V c ⟨n + 1, h⟩ h0, out_A, sout_A, acc_A V c (n + 1) h h0]
    · rw [outsAt2_B V c ⟨n + 1, h⟩ h0, out_B, sout_B, acc_B V c n h h0]
      show (step (outsAt2 V c n _).2 _ _, step (outsAt2 V c n _).2 _ _) = _
      rw [outsAt_eq c n]

end Generic

/-! ## The value at the ideal instance -/

section Value

variable (V : (c : Dev nD) → (b : Ref sig .tc) → Buf (Elt Ideal) ((c : Thread nD τ).loc b))

theorem N128 : cfg2.N = 128 := N_2

/-- The left and the right array as the region finds them. -/
abbrev lhs (c : Dev nD) : FVec Ideal S2048x2048 .f32 := V c (Pipeline.arrRef spec2 0)
abbrev rhs (c : Dev nD) : FVec Ideal S2048x2048 .f32 := V c (Pipeline.arrRef spec2 1)

/-- The windows' block indices at a point t = 16 i + 4 j + kk, in closed form, decided over the grid; the output's
    blocks are not cut. -/
theorem idx_facts : ∀ t : Fin cfg2.N,
    win2_0.index t 0 = t.val / 16 ∧ win2_0.index t 1 = t.val % 4 ∧
    win2_1.index t 0 = t.val % 4 ∧ win2_1.index t 1 = t.val / 4 % 4 ∧
    win2_2.index t 0 = t.val / 16 ∧ win2_2.index t 1 = t.val / 4 % 4 ∧
    win2_2.xsize (grid2.coords t) 0 = 256 ∧ win2_2.xsize (grid2.coords t) 1 = 512 :=
  (by decide +kernel : ∀ t : Fin grid2.N, _)

/-- The row of the arrays that row `r` of the point's blocks is, the column, and the contracted coordinate. -/
def rowOf (t : Fin cfg2.N) (r : Fin 256) : Fin 2048 :=
  ⟨256 * (t.val / 16) + r.val, by have := lt_of_lt_of_eq t.isLt N128; have := r.isLt; omega⟩
def colOf (t : Fin cfg2.N) (s : Fin 512) : Fin 2048 :=
  ⟨512 * (t.val / 4 % 4) + s.val, by have := s.isLt; omega⟩
def midOf (t : Fin cfg2.N) (k : Fin 512) : Fin 2048 :=
  ⟨t.val % 4 * 512 + k.val, by have := k.isLt; omega⟩

theorem rowOf_eq (u t : Fin cfg2.N) (h : u.val / 4 = t.val / 4) (r : Fin 256) : rowOf u r = rowOf t r :=
  Fin.ext (by show 256 * (u.val / 16) + r.val = 256 * (t.val / 16) + r.val; omega)
theorem colOf_eq (u t : Fin cfg2.N) (h : u.val / 4 = t.val / 4) (s : Fin 512) : colOf u s = colOf t s :=
  Fin.ext (by show 512 * (u.val / 4 % 4) + s.val = 512 * (t.val / 4 % 4) + s.val; rw [h])
theorem midOf_eq (u : Fin cfg2.N) (tj : ℕ) (h : u.val % 4 = tj) (k : Fin 512) (hb : tj * 512 + k.val < 2048) :
    midOf u k = ⟨tj * 512 + k.val, hb⟩ :=
  Fin.ext (by show u.val % 4 * 512 + k.val = tj * 512 + k.val; rw [h])

/-- The left block at a point, read at (r, k): the left array at (its row, its contracted coordinate). -/
theorem iblk_0_apply (c : Dev nD) (t : Fin cfg2.N) (r : Fin 256) (k : Fin 512) :
    (iblk2 V c 0 t : FVec Ideal S256x512 .f32) (ix2 r k) = lhs V c (ix2 (rowOf t r) (midOf t k)) := by
  obtain ⟨h00, h01, -⟩ := idx_facts t
  unfold iblk2
  rw [View.read_apply]
  show V c main_call0_v3 _ = V c main_call0_v3 _
  congr 1
  funext a
  apply Fin.ext
  match a with
  | ⟨0, _⟩ => show win2_0.index t 0 * 256 + 1 * r.val = 256 * (t.val / 16) + r.val; rw [h00]; omega
  | ⟨1, _⟩ => show win2_0.index t 1 * 512 + 1 * k.val = t.val % 4 * 512 + k.val; rw [h01]; omega

/-- The right block at a point, read at (k, s): the right array at (its contracted coordinate, its column). -/
theorem iblk_1_apply (c : Dev nD) (t : Fin cfg2.N) (k : Fin 512) (s : Fin 512) :
    (iblk2 V c 1 t : FVec Ideal S512x512 .f32) (ix2 k s) = rhs V c (ix2 (midOf t k) (colOf t s)) := by
  obtain ⟨-, -, h10, h11, -⟩ := idx_facts t
  unfold iblk2
  rw [View.read_apply]
  show V c main_call0_v5 _ = V c main_call0_v5 _
  congr 1
  funext a
  apply Fin.ext
  match a with
  | ⟨0, _⟩ => show win2_1.index t 0 * 512 + 1 * k.val = t.val % 4 * 512 + k.val; rw [h10]; omega
  | ⟨1, _⟩ => show win2_1.index t 1 * 512 + 1 * s.val = 512 * (t.val / 4 % 4) + s.val; rw [h11]; omega

/-- The zero block reads zero. -/
theorem zero_apply (j : S256x512.Idx) : (zero (F := Ideal) : FVec Ideal S256x512 .f32) j = 0 := by
  show Ideal.ofBits .f32 0x00000000#32 = 0
  exact Ideal.ofBits_zero_f32

/-- A step at (r, s): the accumulator there plus the sum over the tile's contracted coordinate. -/
theorem step_apply (xs x0 : FVec Ideal S256x512 .f32) (x1 : FVec Ideal S512x512 .f32) (r : Fin 256) (s : Fin 512) :
    (step (F := Ideal) xs x0 x1 : FVec Ideal S256x512 .f32) (ix2 r s) = xs (ix2 r s) + ∑ k : Fin 512, x0 (ix2 r k) * x1 (ix2 k s) := by
  unfold step
  rw [addf_apply]
  exact congrArg (xs (ix2 r s) + ·) (Cert.LibColumnBlocks.matmul_zero_apply dot_S256x512_S512x512_S256x512_1_0_0_1_n_n rfl rfl rfl rfl
    (fun _ _ => rfl) (fun _ _ => rfl) x0 x1 r s none)

/-- A step over the point's blocks, at (r, s), in the arrays' coordinates. -/
theorem step_at (c : Dev nD) (u : Fin cfg2.N) (xs : FVec Ideal S256x512 .f32) (r : Fin 256) (s : Fin 512) :
    (step (F := Ideal) xs (iblk2 V c 0 u) (iblk2 V c 1 u) : FVec Ideal S256x512 .f32) (ix2 r s)
      = xs (ix2 r s) + ∑ k : Fin 512, lhs V c (ix2 (rowOf u r) (midOf u k)) * rhs V c (ix2 (midOf u k) (colOf u s)) := by
  rw [step_apply]
  refine congrArg (xs (ix2 r s) + ·) (Finset.sum_congr rfl fun k _ => ?_)
  rw [iblk_0_apply, iblk_1_apply]

/-- The accumulator at (r, s) as a sequence over the naturals (zero past the grid). -/
def accSeq (c : Dev nD) (r : Fin 256) (s : Fin 512) (n : ℕ) : Ideal .f32 :=
  if hn : n < cfg2.N then (acc (F := Ideal) V c n hn : FVec Ideal S256x512 .f32) (ix2 r s) else 0

theorem accSeq_lt (c : Dev nD) (r : Fin 256) (s : Fin 512) (n : ℕ) (hn : n < cfg2.N) :
    accSeq V c r s n = (acc (F := Ideal) V c n hn : FVec Ideal S256x512 .f32) (ix2 r s) := dif_pos hn

/-- The accumulator after a point with kk = 3, at (r, s): the sum over the whole contracted axis — the four tiles of 512
    added one point at a time from zero. -/
theorem acc_apply (c : Dev nD) (t : Fin cfg2.N) (h3 : t.val % 4 = 3) (r : Fin 256) (s : Fin 512) :
    (acc (F := Ideal) V c t.val t.isLt : FVec Ideal S256x512 .f32) (ix2 r s)
      = ∑ L : Fin 2048, lhs V c (ix2 (rowOf t r) L) * rhs V c (ix2 L (colOf t s)) := by
  have hN := lt_of_lt_of_eq t.isLt N128
  rw [← accSeq_lt V c r s t.val t.isLt]
  refine Cert.Accum.accum_closed_at (fun L : Fin 2048 => lhs V c (ix2 (rowOf t r) L) * rhs V c (ix2 L (colOf t s)))
    (accSeq V c r s) t.val (t.val / 4) h3 rfl ?_ ?_
  · have hlt : 4 * (t.val / 4) < cfg2.N := lt_of_lt_of_eq (by omega : 4 * (t.val / 4) < 128) N128.symm
    rw [accSeq_lt V c r s _ hlt, acc_A V c _ hlt (by omega), step_at, zero_apply]
    refine congrArg (0 + ·) (Finset.sum_congr rfl fun l _ => ?_)
    rw [rowOf_eq ⟨_, hlt⟩ t (by show 4 * (t.val / 4) / 4 = t.val / 4; omega),
      colOf_eq ⟨_, hlt⟩ t (by show 4 * (t.val / 4) / 4 = t.val / 4; omega),
      midOf_eq ⟨_, hlt⟩ 0 (by show 4 * (t.val / 4) % 4 = 0; omega) l (by have := l.isLt; omega)]
  · intro tj h0 h4
    have hlt : 4 * (t.val / 4) + tj < cfg2.N := lt_of_lt_of_eq (by omega : 4 * (t.val / 4) + tj < 128) N128.symm
    have hlt' : 4 * (t.val / 4) + tj - 1 < cfg2.N := lt_of_lt_of_eq (by omega : 4 * (t.val / 4) + tj - 1 < 128) N128.symm
    rw [accSeq_lt V c r s _ hlt, accSeq_lt V c r s _ hlt', acc_B' V c _ hlt (by omega), step_at]
    refine congrArg (_ + ·) (Finset.sum_congr rfl fun l _ => ?_)
    rw [rowOf_eq ⟨_, hlt⟩ t (by show (4 * (t.val / 4) + tj) / 4 = t.val / 4; omega),
      colOf_eq ⟨_, hlt⟩ t (by show (4 * (t.val / 4) + tj) / 4 = t.val / 4; omega),
      midOf_eq ⟨_, hlt⟩ tj (by show (4 * (t.val / 4) + tj) % 4 = tj; omega) l (by have := l.isLt; omega)]

/-- Two functions of a rank-2 index that agree at every pair of coordinates are equal. -/
theorem ext_ix2 {α : Type} {n0 n1 : ℕ} {f g : (⟨2, ![n0, n1]⟩ : Shape).Idx → α}
    (h : ∀ (r : Fin n0) (s : Fin n1), f (ix2 r s) = g (ix2 r s)) : f = g :=
  funext fun y => by rw [eq_ix2 y]; exact h _ _

/-- The result as ONE whole-array function of the two arrays: at (a, b) the sum over k of left(a, k) · right(k, b). -/
def G (c : Dev nD) : FVec Ideal S2048x2048 .f32 := matProd (lhs V c) (rhs V c)

theorem G_apply (c : Dev nD) (i : S2048x2048.Idx) (a b : Fin 2048) (ha : (i 0).val = a.val) (hb : (i 1).val = b.val) :
    G V c i = ∑ L : Fin 2048, lhs V c (ix2 a L) * rhs V c (ix2 L b) := by
  have ea : i 0 = a := Fin.ext ha
  have eb : i 1 = b := Fin.ext hb
  show ∑ k : Fin 2048, lhs V c (ix2 (i 0) k) * rhs V c (ix2 k (i 1)) = _
  rw [ea, eb]

/-- The output's block at a point, read off the whole-array function at (r, s). -/
theorem blk_read_G (c : Dev nD) (t : Fin cfg2.N) (r : Fin 256) (s : Fin 512) :
    (((cfg2.win 2).blk t).view.read (Elt Ideal) (G V c) : FVec Ideal S256x512 .f32) (ix2 r s)
      = ∑ L : Fin 2048, lhs V c (ix2 (rowOf t r) L) * rhs V c (ix2 L (colOf t s)) := by
  obtain ⟨-, -, -, -, h20, h21, -⟩ := idx_facts t
  rw [View.read_apply]
  show G V c _ = _
  exact G_apply V c _ _ _
    (by show win2_2.index t 0 * 256 + 1 * r.val = 256 * (t.val / 16) + r.val; rw [h20]; omega)
    (by show win2_2.index t 1 * 512 + 1 * s.val = 512 * (t.val / 4 % 4) + s.val; rw [h21]; omega)

/-- What a write-back writes is its block of the whole-array function. -/
theorem flushed_eq (c : Dev nD) (t : Fin cfg2.N) (hf : (cfg2.win 2).flush t = true) :
    (dat2 V c).flushed 2 t = ((cfg2.win 2).blk t).view.read (Elt Ideal) (G V c) := by
  have h3 : t.val % 4 = 3 := (flush2_2 t).mp hf
  show (cfg2.win 2).cut (grid2.coords t) ((dat2 V c).after 2 t) = _
  rw [after2_2, outsAt_eq]
  show (acc (F := Ideal) V c t.val t.isLt : FVec Ideal S256x512 .f32)
    = (((cfg2.win 2).blk t).view.read (Elt Ideal) (G V c) : FVec Ideal S256x512 .f32)
  exact ext_ix2 fun r s => (acc_apply V c t h3 r s).trans (blk_read_G V c t r s).symm

/-- Every index of the output array is in the block of the point (i, j, 3) with i its row's block and j its column's,
    which writes back. -/
theorem cover (c : Dev nD) (i : ((cfg2.win 2).arr.view.loc (c.tc : Thread nD τ)).2.ty.Idx) :
    ∃ t : Fin cfg2.N, (cfg2.win 2).flush t = true ∧ i ∈ ((cfg2.win 2).blk t).view.set := by
  have h0 : (i 0 : ℕ) < 2048 := (i 0).isLt
  have h1 : (i 1 : ℕ) < 2048 := (i 1).isLt
  obtain ⟨t, ht⟩ : ∃ t : Fin cfg2.N, t.val = 16 * ((i 0 : ℕ) / 256) + 4 * ((i 1 : ℕ) / 512) + 3 :=
    ⟨⟨16 * ((i 0 : ℕ) / 256) + 4 * ((i 1 : ℕ) / 512) + 3, lt_of_lt_of_eq (by omega : 16 * ((i 0 : ℕ) / 256) + 4 * ((i 1 : ℕ) / 512) + 3 < 128) N128.symm⟩, rfl⟩
  refine ⟨t, (flush2_2 t).mpr (by rw [ht]; omega), ?_⟩
  obtain ⟨-, -, -, -, h20, h21, hx0, hx1⟩ := idx_facts t
  show i ∈ ((View.whole main_call0_v6).slice (win2_2.rect t)).set
  rw [View.set_slice_whole, Rect.mem_set_unit]
  intro a
  match a with
  | ⟨0, _⟩ =>
    show win2_2.index t 0 * 256 ≤ (i 0 : ℕ) ∧ (i 0 : ℕ) < win2_2.index t 0 * 256 + win2_2.xsize (grid2.coords t) 0
    rw [h20, hx0, ht]; omega
  | ⟨1, _⟩ =>
    show win2_2.index t 1 * 512 ≤ (i 1 : ℕ) ∧ (i 1 : ℕ) < win2_2.index t 1 * 512 + win2_2.xsize (grid2.coords t) 1
    rw [h21, hx1, ht]; omega

/-- So the output array ends holding the whole-array function. -/
theorem final (c : Dev nD) : (dat2 V c).arrAt 2 cfg2.N = G V c :=
  (dat2 V c).arrAt_eq_of_cover 2 (G V c) (flushed_eq V c) (cover c)

/-- THE VALUE of region 2, whole: after the last write-back the output array is the product of the left array
    (window 0's) and the right array (window 1's), both as the region finds them. -/
theorem final2 (c : Dev nD) :
    (dat2 (F := Ideal) V c).arrAt 2 cfg2.N = matProd (V c main_call0_v3) (V c main_call0_v5) :=
  final V c

/-- The output array after the last write-back, as a function of a rank-2 index. -/
abbrev out (c : Dev nD) : FVec Ideal S2048x2048 .f32 := (dat2 (F := Ideal) V c).arrAt 2 cfg2.N

/-- THE VALUE of region 2: after the last write-back the output array reads, at (a, b), the sum over k < 2048 of the
    left array at (a, k) times the right array at (k, b), both as the region finds them — a sum of products of extended
    reals, with no finiteness hypothesis (only the grouping of the terms is used). -/
theorem value2 (c : Dev nD) (a b : Fin 2048) :
    out V c (ix2 a b) = ∑ k : Fin 2048, lhs V c (ix2 a k) * rhs V c (ix2 k b) :=
  congrFun (final V c) (ix2 a b)

end Value

end Cert.ReferenceIdeal.TiledValue2

end
-- ==== Proof.RefValue.lean ====
/-
  The reference program's 2-D result as one function of the four arguments, over the extended reals.

  Each of the three regions leaves in its output buffer the matrix product of its two operands. The first region's
  operands are copies of the last two arguments, and every later region's right operand is the region before's
  output; so the last output is the first argument times (the second times (the third times the fourth)).
-/
import proofs.«126094_g2000509712423811_pallasbulk_371_15_alg».proof.Proof.RefResult
import proofs.«126094_g2000509712423811_pallasbulk_371_15_alg».proof.Proof.TiledValue0
import proofs.«126094_g2000509712423811_pallasbulk_371_15_alg».proof.Proof.TiledValue1
import proofs.«126094_g2000509712423811_pallasbulk_371_15_alg».proof.Proof.TiledValue2
import Idealize.ShloMosaic.Lib.ValueIdx

noncomputable section

namespace Cert.ReferenceIdeal.Value

open Cert.ReferenceIdeal Cert.ReferenceIdeal.Gen
open Idealize.ShloMosaic Idealize.ShloMosaic.TcCoe Idealize.ShloMosaic.ValueIdx Idealize.SL.Sem
open Cert.ReferenceIdeal.Tiled0 Cert.ReferenceIdeal.Tiled1 Cert.ReferenceIdeal.Tiled2
open Cert.ReferenceIdeal.Run Cert.ReferenceIdeal.Result Cert.ReferenceIdeal.TiledValue0

/-- The right-nested product of four matrices, entry by entry. -/
def nested (A3 A2 A1 A0 : S2048x2048.Idx → EReal) : S2048x2048.Idx → EReal :=
  matProd A3 (matProd A2 (matProd A1 A0))

/-- Entry by entry: the first matrix's row against the rows of the product of the other three. -/
theorem nested_apply (A3 A2 A1 A0 : S2048x2048.Idx → EReal) :
    nested A3 A2 A1 A0 = fun i => ∑ j : Fin 2048, A3 (ix2 (i 0) j) * (∑ k : Fin 2048, A2 (ix2 j k) * (∑ l : Fin 2048, A1 (ix2 k l) * A0 (ix2 l (i 1)))) :=
  rfl

variable (m : (ℓ : Loc nD τ sig) → Buf (Elt Ideal) ℓ)

/-- The third product's output is the right-nested product of the arguments. -/
theorem ref_result (c : Dev nD) :
    (W4 m c (Proc.devRef .tc main_call0_v6) : S2048x2048.Idx → EReal)
      = nested (m ((c : Thread nD τ).loc main_arg3)) (m ((c : Thread nD τ).loc main_arg2))
          (m ((c : Thread nD τ).loc main_arg1)) (m ((c : Thread nD τ).loc main_arg0)) := by
  unfold nested
  rw [← V1_v1 m c, ← V1_v0 m c, ← Cert.ReferenceIdeal.TiledValue0.final0 (V1 m) c, ← V2_v4 m c, ← V2_v2 m c,
    ← Cert.ReferenceIdeal.TiledValue1.final1 (V2 m) c, ← V3_v5 m c, ← V3_v3 m c,
    ← Cert.ReferenceIdeal.TiledValue2.final2 (V3 m) c]
  exact W4_v6 m c

end Cert.ReferenceIdeal.Value

end
-- ==== Proof.FiniteInputs.lean ====
/-
  From the precondition "every input is finite" to "every entry of every argument is a real number".

  The precondition is the conjunction, over the four argument matrices, of "for every entry x, |x| < +∞", where |x| is
  the greater of x and −x, the comparison is the order of the extended reals, and +∞ is given by its single-precision
  bit pattern. A conjunction of one-bit words is 1 exactly when each word is; a conjunction over all entries of a
  matrix that is 1 had a 1 at every entry. An extended real x with max x (−x) < +∞ is neither +∞ (then x itself is
  +∞) nor −∞ (then −x is +∞), so it is a real number.
-/
import proofs.«126094_g2000509712423811_pallasbulk_371_15_alg».proof.Pre_finite_inputs
import Idealize.ShloMosaic.PureOps.Ideal
import Idealize.ShloMosaic.Lib.ReduceAll
import Idealize.ShloMosaic.Lib.Affine
import Idealize.ShloMosaic.Lib.ValueIdx
import Idealize.ShloMosaic.Lib.IdealHost

namespace Cert.FiniteInputs

open Idealize.ShloMosaic Idealize.ShloMosaic.ValueIdx Cert.Pre_finite_inputs

/-- The shape of rank zero has exactly one index. -/
instance : Subsingleton S_.Idx := ⟨fun a b => funext fun d => d.elim0⟩

/-- An extended real whose absolute value lies below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The single-precision pattern with every exponent bit set and no fraction bit denotes +∞. -/
theorem inf_f32 : Ideal.ofBits .f32 0x7F800000#32 = (⊤ : EReal) := by simp [Ideal.ofBits, Ideal.ieee]

/-- If the comparison |x| < +∞ gives the word 1, then x is a real number. -/
theorem real_of_cmp (x : EReal)
    (h : Ideal.cmp .olt (max x (-x)) (Ideal.ofBits .f32 0x7F800000#32) = 1#1) : ∃ r : ℝ, x = (r : EReal) := by
  rw [inf_f32] at h
  by_cases hlt : max x (-x) < ⊤
  · exact real_of_abs_lt_top x hlt
  · simp [Ideal.cmp, hlt] at h

variable [Facts]

/-- One argument: if the conjunction over all entries of |x| < +∞ is 1, every entry of x is a real number. -/
theorem real_of_all (x : FVec Ideal S2048x2048 .f32)
    (e : Host.reduce IntOp.andi
          (cmpf CmpFPredicate.olt (Host.absf x)
            (broadcastInDim S2048x2048 ![] Facts.bcast_S_S2048x2048 (constant S_ FTy.f32 0x7F800000#32)))
          (constantI S_ 1 1#1) Facts.reducesTo_S2048x2048_S_d0_1 Facts.h_S_ ix0 = 1#1) :
    ∀ i, ∃ r : ℝ, x i = (r : EReal) := by
  intro i
  have hi := Host.reduce_andi_all _ _ _ _ _ e i
  rw [cmpf_apply, broadcastInDim_scalar_apply, constant_apply] at hi
  exact real_of_cmp (x i) hi

/-- The precondition gives: every entry of each of the four arguments is a real number. -/
theorem real_of_pre (x0 x1 x2 x3 : FVec Ideal S2048x2048 .f32)
    (h : fn (F := Ideal) x0 x1 x2 x3 = fun _ => 1#1) :
    (∀ i, ∃ r : ℝ, x0 i = (r : EReal)) ∧ (∀ i, ∃ r : ℝ, x1 i = (r : EReal)) ∧
      (∀ i, ∃ r : ℝ, x2 i = (r : EReal)) ∧ (∀ i, ∃ r : ℝ, x3 i = (r : EReal)) := by
  have h0 := congrFun h ix0
  dsimp only [fn, fn_part1] at h0
  obtain ⟨h012, e3⟩ := IntOp.andi_eq_one.1 h0
  obtain ⟨h01, e2⟩ := IntOp.andi_eq_one.1 h012
  obtain ⟨e0, e1⟩ := IntOp.andi_eq_one.1 h01
  exact ⟨real_of_all x0 e0, real_of_all x1 e1, real_of_all x2 e2, real_of_all x3 e3⟩

end Cert.FiniteInputs
-- ==== Proof.Algebraic.lean ====
/-
  The two programs compute one function of finite arguments.

  The kernel computes (W3·W2)·(W1·W0) and the reference W3·(W2·(W1·W0)), each entry a finite sum of finite products
  once every argument entry is a real number. On the reals matrix multiplication is associative, and the coercion of
  the reals into the extended reals respects finite sums and products; so the two results agree entry by entry. The
  finiteness of the entries is what the precondition states; without it the regrouping of products across a sum can fail
  at the infinities.
-/
import proofs.«126094_g2000509712423811_pallasbulk_371_15_alg».proof.Defs
import proofs.«126094_g2000509712423811_pallasbulk_371_15_alg».proof.Proof.KernelClosed
import proofs.«126094_g2000509712423811_pallasbulk_371_15_alg».proof.Proof.ChainAtShape
import proofs.«126094_g2000509712423811_pallasbulk_371_15_alg».proof.Proof.RefValue
import proofs.«126094_g2000509712423811_pallasbulk_371_15_alg».proof.Proof.LibMatChain
import proofs.«126094_g2000509712423811_pallasbulk_371_15_alg».proof.Proof.FiniteInputs
import proofs.«126094_g2000509712423811_pallasbulk_371_15_alg».proof.Proof.Gen.Pre_finite_inputs

noncomputable section

namespace Cert.Proof.Alg

open Idealize.ShloMosaic Idealize.ShloMosaic.TcCoe Idealize.ShloMosaic.ValueIdx Idealize.SL.Sem

/-- From memories agreeing on the arguments, the arguments finite, both programs run and end with one result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.Result.run_named m ρ, ?_⟩
  refine (θ_run Cert.ReferenceIdeal.defs _ _).mono (fun r h c => ⟨(h c).1.trans ?_, (h c).2⟩)
    (Cert.ReferenceIdeal.Result.run_named m' ρ')
  obtain ⟨r0, r1, r2, r3⟩ := Cert.FiniteInputs.real_of_pre _ _ _ _ (hpre c)
  have e : (Cert.ReferenceIdeal.Run.W4 m' c (Proc.devRef .tc Cert.ReferenceIdeal.main_call0_v6) : Cert.KernelIdeal.S2048x2048.Idx → EReal)
      = Cert.KernelIdeal.Run.W2 m c (Proc.devRef .tc Cert.KernelIdeal.main_v1) := by
    rw [Cert.ReferenceIdeal.Value.ref_result m' c, Cert.KernelIdeal.Value.kernel_result m c,
      (hagree c).1, (hagree c).2.1, (hagree c).2.2.1, (hagree c).2.2.2]
    rw [Cert.ReferenceIdeal.Value.nested_apply]
    exact (Cert.KernelIdeal.Value.balanced_eq_nested _ _ _ _ r3 r2 r1 r0).symm
  exact congrArg _ e

end Cert.Proof.Alg

end
-- ==== Proof.lean ====
/-
  The certificate's five claims.

  The kernel computes the product of four 2048 × 2048 matrices as (W3·W2)·(W1·W0): one kernel region forms the two
  first-level products, stacked, accumulating over eight tiles of the contracted coordinate, and a second region
  multiplies the two slabs. The reference computes W3·(W2·(W1·W0)) by three tiled products, each accumulating over
  four tiles. Each program's run is read region by region: what every buffer holds between two items of @main is
  named, the arguments are never written, and each region's output is the exact matrix product of its operands over
  the extended reals. For finite arguments the two groupings of the product agree, because they agree on the reals.
  The word-level kernel runs the same regions; its frame needs no values. The idealization rewrote nothing.
-/
import proofs.«126094_g2000509712423811_pallasbulk_371_15_alg».proof.Defs
import proofs.«126094_g2000509712423811_pallasbulk_371_15_alg».proof.Proof.Gen.Kernel
import proofs.«126094_g2000509712423811_pallasbulk_371_15_alg».proof.Proof.Gen.KernelIdeal
import proofs.«126094_g2000509712423811_pallasbulk_371_15_alg».proof.Proof.Gen.ReferenceIdeal
import proofs.«126094_g2000509712423811_pallasbulk_371_15_alg».proof.Proof.Gen.Pre_finite_inputs
import proofs.«126094_g2000509712423811_pallasbulk_371_15_alg».proof.Proof.BitsKernelResult
import proofs.«126094_g2000509712423811_pallasbulk_371_15_alg».proof.Proof.KernelResult
import proofs.«126094_g2000509712423811_pallasbulk_371_15_alg».proof.Proof.RefResult
import proofs.«126094_g2000509712423811_pallasbulk_371_15_alg».proof.Proof.Algebraic
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Result.frame m ρ

theorem frame_ki : Cert.frame_KernelIdeal (hKernelIdeal := Cert.KernelIdeal.Gen.facts) (hPre_finite_inputs := Cert.Pre_finite_inputs.Gen.facts) :=
  fun m ρ _ => Cert.KernelIdeal.Result.frame m ρ

theorem frame_ri : Cert.frame_ReferenceIdeal (hReferenceIdeal := Cert.ReferenceIdeal.Gen.facts) (hPre_finite_inputs := Cert.Pre_finite_inputs.Gen.facts) :=
  fun m ρ _ => Cert.ReferenceIdeal.Result.frame m ρ

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Proof.Alg.algebraic⟩

end Cert.Proof

end
